-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x96x96 : Shape := ⟨4, ![1, 256, 96, 96]⟩
abbrev S_ : Shape := ⟨0, ![]⟩

class Facts : Prop where
  bcast_S_S1x256x96x96 : S_.BroadcastsInDim S1x256x96x96 (![] : Fin 0 → Fin S1x256x96x96.rank)
  reducesTo_S1x256x96x96_S_d0_1_2_3 : S1x256x96x96.ReducesTo [0, 1, 2, 3] S_
  h_S_ : 0 < S_.numel

variable [Facts]

def fn {F : FTy → Type} [FloatOps F] (main_arg0 : FVec F S1x256x96x96 .f32) (main_arg1 : FVec F S1x256x96x96 .f32) : IVec S_ 1 :=
  let main_v0 : FVec F S1x256x96x96 .f32 := Host.absf main_arg0
  let main_cst : FVec F S_ .f32 := constant S_ .f32 0x7F800000#32
  let main_v1 : FVec F S1x256x96x96 .f32 := broadcastInDim S1x256x96x96 ![] bcast_S_S1x256x96x96 main_cst
  let main_v2 : IVec S1x256x96x96 1 := cmpf .olt main_v0 main_v1
  let main_c : IVec S_ 1 := constantI S_ 1 1#1
  let main_v3 : IVec S_ 1 := (fun x v => Host.reduce IntOp.andi x v reducesTo_S1x256x96x96_S_d0_1_2_3 h_S_) main_v2 main_c
  let main_v4 : FVec F S1x256x96x96 .f32 := Host.absf main_arg1
  let main_cst_0 : FVec F S_ .f32 := constant S_ .f32 0x7F800000#32
  let main_v5 : FVec F S1x256x96x96 .f32 := broadcastInDim S1x256x96x96 ![] bcast_S_S1x256x96x96 main_cst_0
  let main_v6 : IVec S1x256x96x96 1 := cmpf .olt main_v4 main_v5
  let main_c_1 : IVec S_ 1 := constantI S_ 1 1#1
  let main_v7 : IVec S_ 1 := (fun x v => Host.reduce IntOp.andi x v reducesTo_S1x256x96x96_S_d0_1_2_3 h_S_) main_v6 main_c_1
  let main_v8 : IVec S_ 1 := andi main_v3 main_v7
  main_v8
-- ==== Kernel.lean ====
abbrev S1x256x96x96 : Shape := ⟨4, ![1, 256, 96, 96]⟩
abbrev S_ : Shape := ⟨0, ![]⟩
abbrev S256 : Shape := ⟨1, ![256]⟩
abbrev S1x256x1x1 : Shape := ⟨4, ![1, 256, 1, 1]⟩
abbrev S1x96x96 : Shape := ⟨3, ![1, 96, 96]⟩
abbrev S1x1x96x96 : Shape := ⟨4, ![1, 1, 96, 96]⟩
abbrev S256x96x96 : Shape := ⟨3, ![256, 96, 96]⟩
abbrev S256x9216 : Shape := ⟨2, ![256, 9216]⟩
abbrev S9216x1 : Shape := ⟨2, ![9216, 1]⟩
abbrev S256x1152 : Shape := ⟨2, ![256, 1152]⟩
abbrev S1152x1 : Shape := ⟨2, ![1152, 1]⟩
abbrev S1152x1152 : Shape := ⟨2, ![1152, 1152]⟩
abbrev S1152 : Shape := ⟨1, ![1152]⟩
abbrev S1x9216 : Shape := ⟨2, ![1, 9216]⟩
abbrev S1x1152 : Shape := ⟨2, ![1, 1152]⟩

abbrev nBuf : Space → Nat
  | .hbm => 47
  | .vmem => 27
  | .smem => 0
  | _ => 0

abbrev bufTy : (tb : Table) → Fin (tcTables nBuf tb) → BufTy
  | .hbm, ⟨0, _⟩ => ⟨S1x256x96x96, .f32⟩
  | .hbm, ⟨1, _⟩ => ⟨S1x256x96x96, .f32⟩
  | .hbm, ⟨2, _⟩ => ⟨S_, .f32⟩
  | .hbm, ⟨3, _⟩ => ⟨S256, .f32⟩
  | .hbm, ⟨4, _⟩ => ⟨S1x256x1x1, .f32⟩
  | .hbm, ⟨5, _⟩ => ⟨S_, .f32⟩
  | .hbm, ⟨6, _⟩ => ⟨S1x256x1x1, .f32⟩
  | .hbm, ⟨7, _⟩ => ⟨S1x256x1x1, .f32⟩
  | .hbm, ⟨8, _⟩ => ⟨S1x256x96x96, .f32⟩
  | .hbm, ⟨9, _⟩ => ⟨S1x256x96x96, .f32⟩
  | .hbm, ⟨10, _⟩ => ⟨S1x256x96x96, .f32⟩
  | .hbm, ⟨11, _⟩ => ⟨S1x256x96x96, .f32⟩
  | .hbm, ⟨12, _⟩ => ⟨S1x256x96x96, .f32⟩
  | .hbm, ⟨13, _⟩ => ⟨S_, .f32⟩
  | .hbm, ⟨14, _⟩ => ⟨S1x96x96, .f32⟩
  | .hbm, ⟨15, _⟩ => ⟨S1x1x96x96, .f32⟩
  | .hbm, ⟨16, _⟩ => ⟨S1x1x96x96, .f32⟩
  | .hbm, ⟨17, _⟩ => ⟨S1x256x96x96, .f32⟩
  | .hbm, ⟨18, _⟩ => ⟨S_, .f32⟩
  | .hbm, ⟨19, _⟩ => ⟨S1x96x96, .f32⟩
  | .hbm, ⟨20, _⟩ => ⟨S1x1x96x96, .f32⟩
  | .hbm, ⟨21, _⟩ => ⟨S1x1x96x96, .f32⟩
  | .hbm, ⟨22, _⟩ => ⟨S_, .f32⟩
  | .hbm, ⟨23, _⟩ => ⟨S1x1x96x96, .f32⟩
  | .hbm, ⟨24, _⟩ => ⟨S1x1x96x96, .f32⟩
  | .hbm, ⟨25, _⟩ => ⟨S1x256x96x96, .f32⟩
  | .hbm, ⟨26, _⟩ => ⟨S1x256x96x96, .f32⟩
  | .hbm, ⟨27, _⟩ => ⟨S_, .f32⟩
  | .hbm, ⟨28, _⟩ => ⟨S1x1x96x96, .f32⟩
  | .hbm, ⟨29, _⟩ => ⟨S1x1x96x96, .f32⟩
  | .hbm, ⟨30, _⟩ => ⟨S1x256x96x96, .f32⟩
  | .hbm, ⟨31, _⟩ => ⟨S1x256x96x96, .f32⟩
  | .hbm, ⟨32, _⟩ => ⟨S256x96x96, .f32⟩
  | .hbm, ⟨33, _⟩ => ⟨S256x9216, .f32⟩
  | .hbm, ⟨34, _⟩ => ⟨S256x9216, .bf16⟩
  | .hbm, ⟨35, _⟩ => ⟨S256x96x96, .f32⟩
  | .hbm, ⟨36, _⟩ => ⟨S256x9216, .f32⟩
  | .hbm, ⟨37, _⟩ => ⟨S256x9216, .bf16⟩
  | .hbm, ⟨38, _⟩ => ⟨S9216x1, .f32⟩
  | .hbm, ⟨39, _⟩ => ⟨S9216x1, .f32⟩
  | .hbm, ⟨40, _⟩ => ⟨S1x9216, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S256x1152, .bf16⟩
  | .local _ .vmem, ⟨1, _⟩ => ⟨S256x1152, .bf16⟩
  | .local _ .vmem, ⟨2, _⟩ => ⟨S256x1152, .bf16⟩
  | .local _ .vmem, ⟨3, _⟩ => ⟨S256x1152, .bf16⟩
  | .local _ .vmem, ⟨4, _⟩ => ⟨S1152x1, .f32⟩
  | .local _ .vmem, ⟨5, _⟩ => ⟨S1152x1, .f32⟩
  | .local _ .vmem, ⟨6, _⟩ => ⟨S1152x1, .f32⟩
  | .local _ .vmem, ⟨7, _⟩ => ⟨S256x1152, .bf16⟩
  | .local _ .vmem, ⟨8, _⟩ => ⟨S256x1152, .bf16⟩
  | .local _ .vmem, ⟨9, _⟩ => ⟨S256x1152, .bf16⟩
  | .local _ .vmem, ⟨10, _⟩ => ⟨S256x1152, .bf16⟩
  | .local _ .vmem, ⟨11, _⟩ => ⟨S1152x1, .f32⟩
  | .local _ .vmem, ⟨12, _⟩ => ⟨S1152x1, .f32⟩
  | .local _ .vmem, ⟨13, _⟩ => ⟨S1152x1, .f32⟩
  | .local _ .vmem, ⟨14, _⟩ => ⟨S1152x1, .f32⟩
  | .local _ .vmem, ⟨15, _⟩ => ⟨S1152x1, .f32⟩
  | .local _ .vmem, ⟨16, _⟩ => ⟨S256x1152, .bf16⟩
  | .local _ .vmem, ⟨17, _⟩ => ⟨S256x1152, .bf16⟩
  | .local _ .vmem, ⟨18, _⟩ => ⟨S256x1152, .bf16⟩
  | .local _ .vmem, ⟨19, _⟩ => ⟨S256x1152, .bf16⟩
  | .local _ .vmem, ⟨20, _⟩ => ⟨S1152x1, .f32⟩
  | .local _ .vmem, ⟨21, _⟩ => ⟨S1152x1, .f32⟩
  | .local _ .vmem, ⟨22, _⟩ => ⟨S1152x1, .f32⟩
  | .local _ .vmem, ⟨23, _⟩ => ⟨S1152x1, .f32⟩
  | .local _ .vmem, ⟨24, _⟩ => ⟨S1x1152, .f32⟩
  | .local _ .vmem, ⟨25, _⟩ => ⟨S1x1152, .f32⟩
  | .local _ .vmem, ⟨26, _⟩ => ⟨S1x1152, .f32⟩
  | _, _ => ⟨S1x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1152 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1152x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1152x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x1152 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x1152 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1152x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1152x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1152 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  reducesTo_S1x256x96x96_S256_d0_2_3 : S1x256x96x96.ReducesTo [0, 2, 3] S256
  h_S_ : 0 < S_.numel
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S1x256x96x96_0_1_2_3 : S1x256x1x1.BroadcastsInDim S1x256x96x96 (![0, 1, 2, 3] : Fin 4 → Fin S1x256x96x96.rank)
  reducesTo_S1x256x96x96_S1x96x96_d1 : S1x256x96x96.ReducesTo [1] S1x96x96
  bcast_S1x96x96_S1x1x96x96_0_2_3 : S1x96x96.BroadcastsInDim S1x1x96x96 (![0, 2, 3] : Fin 3 → Fin S1x1x96x96.rank)
  bcast_S_S1x1x96x96 : S_.BroadcastsInDim S1x1x96x96 (![] : Fin 0 → Fin S1x1x96x96.rank)
  bcast_S1x1x96x96_S1x256x96x96_0_1_2_3 : S1x1x96x96.BroadcastsInDim S1x256x96x96 (![0, 1, 2, 3] : Fin 4 → Fin S1x256x96x96.rank)
  shapeCasts_S1x256x96x96_S256x96x96 : S1x256x96x96.ShapeCasts S256x96x96
  shapeCasts_S256x96x96_S256x9216 : S256x96x96.ShapeCasts S256x9216
  bitsLt_bf16_f32 : FTy.bits .bf16 < FTy.bits .f32
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  inb_S256x1152_S256x1152_0_0 : ∀ a, (![0, 0] : Fin 2 → Nat) a + S256x1152.size a ≤ S256x1152.size a
  h_S256x1152 : 0 < S256x1152.numel
  shapeCasts_S256x1152_S256x1152 : S256x1152.ShapeCasts S256x1152
  reduces_S1152x1152_S1152 : S1152x1152.Reduces [1] S1152
  shapeCasts_S1152_S1152x1 : S1152.ShapeCasts S1152x1
  broadcasts_S1152x1_S1152x1152 : S1152x1.Broadcasts S1152x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  reduces_S1152x1152_S1152_2 : S1152x1152.Reduces [0] S1152
  shapeCasts_S1152_S1x1152 : S1152.ShapeCasts S1x1152
  reducesTo_S1x9216_S_d0_1 : S1x9216.ReducesTo [0, 1] S_
  dot_S256x1152_S256x1152_S1152x1152_0_0_1_1_n_n_wf : DotDims.WF S256x1152 S256x1152 S1152x1152 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1152.size a ≤ S256x9216.size a
  hwx0_0 : ∀ i : grid0.Coords, EltTy.bits .bf16 = 32 ∨ (Rect.block (s := S256x9216) S256x1152.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1152.size a ≤ S256x9216.size a
  hwx0_1 : ∀ i : grid0.Coords, EltTy.bits .bf16 = 32 ∨ (Rect.block (s := S256x9216) S256x1152.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1152x1.size a ≤ S9216x1.size a
  hwx0_2 : ∀ i : grid0.Coords, EltTy.bits .f32 = 32 ∨ (Rect.block (s := S9216x1) S1152x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1152.size a ≤ S256x9216.size a
  hwx1_0 : ∀ i : grid1.Coords, EltTy.bits .bf16 = 32 ∨ (Rect.block (s := S256x9216) S256x1152.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1152.size a ≤ S256x9216.size a
  hwx1_1 : ∀ i : grid1.Coords, EltTy.bits .bf16 = 32 ∨ (Rect.block (s := S256x9216) S256x1152.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1152x1.size a ≤ S9216x1.size a
  hwx1_2 : ∀ i : grid1.Coords, EltTy.bits .f32 = 32 ∨ (Rect.block (s := S9216x1) S1152x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1152x1.size a ≤ S9216x1.size a
  hwx1_3 : ∀ i : grid1.Coords, EltTy.bits .f32 = 32 ∨ (Rect.block (s := S9216x1) S1152x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1152.size a ≤ S256x9216.size a
  hwx2_0 : ∀ i : grid2.Coords, EltTy.bits .bf16 = 32 ∨ (Rect.block (s := S256x9216) S256x1152.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1152.size a ≤ S256x9216.size a
  hwx2_1 : ∀ i : grid2.Coords, EltTy.bits .bf16 = 32 ∨ (Rect.block (s := S256x9216) S256x1152.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1152x1.size a ≤ S9216x1.size a
  hwx2_2 : ∀ i : grid2.Coords, EltTy.bits .f32 = 32 ∨ (Rect.block (s := S9216x1) S1152x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1152x1.size a ≤ S9216x1.size a
  hwx2_3 : ∀ i : grid2.Coords, EltTy.bits .f32 = 32 ∨ (Rect.block (s := S9216x1) S1152x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1152.size a ≤ S1x9216.size a
  hwx2_4 : ∀ i : grid2.Coords, EltTy.bits .f32 = 32 ∨ (Rect.block (s := S1x9216) S1x1152.size (cc2_transform_4 i) (hinb2_4 i)).WholeWords (EltTy.packing .f32)

variable [Facts₀]

def dot_S256x1152_S256x1152_S1152x1152_0_0_1_1_n_n : DotDims S256x1152 S256x1152 S1152x1152 where
  lhsContracting := [0]
  rhsContracting := [0]
  lhsNonContracting := [1]
  rhsNonContracting := [1]
  lhsBatch := []
  rhsBatch := []
  wf := dot_S256x1152_S256x1152_S1152x1152_0_0_1_1_n_n_wf

abbrev win0_0 : Pipeline.Window sig grid0 :=
  Pipeline.Window.ofSpec (Memref.whole main_v26) S256x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S256x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1152x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S256x1152.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S256x1152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1152x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1152x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S256x1152.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S256x1152.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1152x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1152x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x1152.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x256x96x96 : Shape := ⟨4, ![1, 256, 96, 96]⟩
abbrev S_ : Shape := ⟨0, ![]⟩
abbrev S256 : Shape := ⟨1, ![256]⟩
abbrev S1x256x1x1 : Shape := ⟨4, ![1, 256, 1, 1]⟩
abbrev S1x96x96 : Shape := ⟨3, ![1, 96, 96]⟩
abbrev S1x1x96x96 : Shape := ⟨4, ![1, 1, 96, 96]⟩
abbrev S1x256x9216 : Shape := ⟨3, ![1, 256, 9216]⟩
abbrev S1x9216x9216 : Shape := ⟨3, ![1, 9216, 9216]⟩
abbrev S1x9216 : Shape := ⟨2, ![1, 9216]⟩
abbrev S1x9216x1 : Shape := ⟨3, ![1, 9216, 1]⟩
abbrev S1 : Shape := ⟨1, ![1]⟩

abbrev nBuf : Space → Nat
  | .hbm => 78
  | .vmem => 0
  | .smem => 0
  | _ => 0

abbrev bufTy : (tb : Table) → Fin (tcTables nBuf tb) → BufTy
  | .hbm, ⟨0, _⟩ => ⟨S1x256x96x96, .f32⟩
  | .hbm, ⟨1, _⟩ => ⟨S1x256x96x96, .f32⟩
  | .hbm, ⟨2, _⟩ => ⟨S_, .f32⟩
  | .hbm, ⟨3, _⟩ => ⟨S256, .f32⟩
  | .hbm, ⟨4, _⟩ => ⟨S1x256x1x1, .f32⟩
  | .hbm, ⟨5, _⟩ => ⟨S_, .f32⟩
  | .hbm, ⟨6, _⟩ => ⟨S1x256x1x1, .f32⟩
  | .hbm, ⟨7, _⟩ => ⟨S1x256x1x1, .f32⟩
  | .hbm, ⟨8, _⟩ => ⟨S1x256x96x96, .f32⟩
  | .hbm, ⟨9, _⟩ => ⟨S1x256x96x96, .f32⟩
  | .hbm, ⟨10, _⟩ => ⟨S1x256x96x96, .f32⟩
  | .hbm, ⟨11, _⟩ => ⟨S1x256x96x96, .f32⟩
  | .hbm, ⟨12, _⟩ => ⟨S1x256x96x96, .f32⟩
  | .hbm, ⟨13, _⟩ => ⟨S_, .f32⟩
  | .hbm, ⟨14, _⟩ => ⟨S1x96x96, .f32⟩
  | .hbm, ⟨15, _⟩ => ⟨S1x1x96x96, .f32⟩
  | .hbm, ⟨16, _⟩ => ⟨S1x1x96x96, .f32⟩
  | .hbm, ⟨17, _⟩ => ⟨S_, .f32⟩
  | .hbm, ⟨18, _⟩ => ⟨S1x1x96x96, .f32⟩
  | .hbm, ⟨19, _⟩ => ⟨S1x1x96x96, .f32⟩
  | .hbm, ⟨20, _⟩ => ⟨S1x256x96x96, .f32⟩
  | .hbm, ⟨21, _⟩ => ⟨S1x256x96x96, .f32⟩
  | .hbm, ⟨22, _⟩ => ⟨S1x256x96x96, .f32⟩
  | .hbm, ⟨23, _⟩ => ⟨S_, .f32⟩
  | .hbm, ⟨24, _⟩ => ⟨S1x96x96, .f32⟩
  | .hbm, ⟨25, _⟩ => ⟨S1x1x96x96, .f32⟩
  | .hbm, ⟨26, _⟩ => ⟨S1x1x96x96, .f32⟩
  | .hbm, ⟨27, _⟩ => ⟨S_, .f32⟩
  | .hbm, ⟨28, _⟩ => ⟨S1x1x96x96, .f32⟩
  | .hbm, ⟨29, _⟩ => ⟨S1x1x96x96, .f32⟩
  | .hbm, ⟨30, _⟩ => ⟨S1x256x96x96, .f32⟩
  | .hbm, ⟨31, _⟩ => ⟨S1x256x96x96, .f32⟩
  | .hbm, ⟨32, _⟩ => ⟨S1x256x9216, .f32⟩
  | .hbm, ⟨33, _⟩ => ⟨S1x256x9216, .f32⟩
  | .hbm, ⟨34, _⟩ => ⟨S1x9216x9216, .f32⟩
  | .hbm, ⟨35, _⟩ => ⟨S_, .f32⟩
  | .hbm, ⟨36, _⟩ => ⟨S1x9216x9216, .f32⟩
  | .hbm, ⟨37, _⟩ => ⟨S1x9216x9216, .f32⟩
  | .hbm, ⟨38, _⟩ => ⟨S_, .f32⟩
  | .hbm, ⟨39, _⟩ => ⟨S1x9216x9216, .f32⟩
  | .hbm, ⟨40, _⟩ => ⟨S1x9216x9216, .f32⟩
  | .hbm, ⟨41, _⟩ => ⟨S_, .f32⟩
  | .hbm, ⟨42, _⟩ => ⟨S_, .f32⟩
  | .hbm, ⟨43, _⟩ => ⟨S1x9216x9216, .f32⟩
  | .hbm, ⟨44, _⟩ => ⟨S1x9216x9216, .f32⟩
  | .hbm, ⟨45, _⟩ => ⟨S_, .f32⟩
  | .hbm, ⟨46, _⟩ => ⟨S1x9216, .f32⟩
  | .hbm, ⟨47, _⟩ => ⟨S1x9216x1, .f32⟩
  | .hbm, ⟨48, _⟩ => ⟨S_, .f32⟩
  | .hbm, ⟨49, _⟩ => ⟨S1x9216x1, .f32⟩
  | .hbm, ⟨50, _⟩ => ⟨S1x9216x1, .f32⟩
  | .hbm, ⟨51, _⟩ => ⟨S1x9216x9216, .f32⟩
  | .hbm, ⟨52, _⟩ => ⟨S1x9216x9216, .f32⟩
  | .hbm, ⟨53, _⟩ => ⟨S_, .f32⟩
  | .hbm, ⟨54, _⟩ => ⟨S1x9216x9216, .f32⟩
  | .hbm, ⟨55, _⟩ => ⟨S1x9216x9216, .f32⟩
  | .hbm, ⟨56, _⟩ => ⟨S_, .f32⟩
  | .hbm, ⟨57, _⟩ => ⟨S1x9216x9216, .f32⟩
  | .hbm, ⟨58, _⟩ => ⟨S1x9216x9216, .f32⟩
  | .hbm, ⟨59, _⟩ => ⟨S1x9216x9216, .f32⟩
  | .hbm, ⟨60, _⟩ => ⟨S_, .f32⟩
  | .hbm, ⟨61, _⟩ => ⟨S1x9216, .f32⟩
  | .hbm, ⟨62, _⟩ => ⟨S1x9216x1, .f32⟩
  | .hbm, ⟨63, _⟩ => ⟨S1x9216x9216, .f32⟩
  | .hbm, ⟨64, _⟩ => ⟨S1x9216x9216, .f32⟩
  | .hbm, ⟨65, _⟩ => ⟨S_, .f32⟩
  | .hbm, ⟨66, _⟩ => ⟨S1x9216, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S1x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_14 : Ref sig .tc := ⟨.hbm, 74, rfl⟩
abbrev main_v47 : Ref sig .tc := ⟨.hbm, 75, rfl⟩
abbrev main_cst_15 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  reducesTo_S1x256x96x96_S256_d0_2_3 : S1x256x96x96.ReducesTo [0, 2, 3] S256
  h_S_ : 0 < S_.numel
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S1x256x96x96_0_1_2_3 : S1x256x1x1.BroadcastsInDim S1x256x96x96 (![0, 1, 2, 3] : Fin 4 → Fin S1x256x96x96.rank)
  reducesTo_S1x256x96x96_S1x96x96_d1 : S1x256x96x96.ReducesTo [1] S1x96x96
  bcast_S1x96x96_S1x1x96x96_0_2_3 : S1x96x96.BroadcastsInDim S1x1x96x96 (![0, 2, 3] : Fin 3 → Fin S1x1x96x96.rank)
  bcast_S_S1x1x96x96 : S_.BroadcastsInDim S1x1x96x96 (![] : Fin 0 → Fin S1x1x96x96.rank)
  bcast_S1x1x96x96_S1x256x96x96_0_1_2_3 : S1x1x96x96.BroadcastsInDim S1x256x96x96 (![0, 1, 2, 3] : Fin 4 → Fin S1x256x96x96.rank)
  shapeCasts_S1x256x96x96_S1x256x9216 : S1x256x96x96.ShapeCasts S1x256x9216
  bcast_S_S1x9216x9216 : S_.BroadcastsInDim S1x9216x9216 (![] : Fin 0 → Fin S1x9216x9216.rank)
  reducesTo_S1x9216x9216_S1x9216_d2 : S1x9216x9216.ReducesTo [2] S1x9216
  bcast_S1x9216_S1x9216x1_0_1 : S1x9216.BroadcastsInDim S1x9216x1 (![0, 1] : Fin 2 → Fin S1x9216x1.rank)
  bcast_S_S1x9216x1 : S_.BroadcastsInDim S1x9216x1 (![] : Fin 0 → Fin S1x9216x1.rank)
  bcast_S1x9216x1_S1x9216x9216_0_1_2 : S1x9216x1.BroadcastsInDim S1x9216x9216 (![0, 1, 2] : Fin 3 → Fin S1x9216x9216.rank)
  reducesTo_S1x9216x9216_S1x9216_d1 : S1x9216x9216.ReducesTo [1] S1x9216
  reducesTo_S1x9216_S1_d1 : S1x9216.ReducesTo [1] S1
  bcast_S_S1 : S_.BroadcastsInDim S1 (![] : Fin 0 → Fin S1.rank)
  reducesTo_S1_S_d0 : S1.ReducesTo [0] S_
  dot_S1x256x9216_S1x256x9216_S1x9216x9216_1_1_2_2_0_0_wf : DotDims.WF S1x256x9216 S1x256x9216 S1x9216x9216 [1] [1] [2] [2] [0] [0]

variable [Facts₀]

def dot_S1x256x9216_S1x256x9216_S1x9216x9216_1_1_2_2_0_0 : DotDims S1x256x9216 S1x256x9216 S1x9216x9216 where
  lhsContracting := [1]
  rhsContracting := [1]
  lhsNonContracting := [2]
  rhsNonContracting := [2]
  lhsBatch := [0]
  rhsBatch := [0]
  wf := dot_S1x256x9216_S1x256x9216_S1x9216x9216_1_1_2_2_0_0_wf

class Facts : Prop extends Facts₀ where

variable [Facts]
-- ==== Proof.Region0Run.lean ====
/-
  Region 0 (the row maxima of the cosine matrix): the body of one grid point run on whole staging memrefs. The body
  resets its scratch column to minus infinity when the column-tile coordinate is zero, replaces the scratch by the
  elementwise maximum of the scratch and the row maxima of the tile's product, and copies the scratch into the
  output block. Two cases: the first column tile (reset, then accumulate) and the later ones (accumulate).
-/
import proofs.«124446_j4818953306342_1_alg».proof.Proof.Gen.KernelIdeal.Launch
import proofs.«124446_j4818953306342_1_alg».proof.Proof.Gen.KernelIdeal.Skeleton
import proofs.«124446_j4818953306342_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the column-tile coordinate is zero. -/
abbrev cond0_0 (i : grid0.Coords) : Prop := (Scalar.cmpi .ne (Scalar.extui (Scalar.cmpi .eq (BitVec.ofNat 32 (i 1).val) 0#32)) 0#32) = 1#1
/-- It holds exactly at the points whose number is a multiple of eight. -/
theorem hcond0_0 : ∀ t : Fin cfg0.N, cond0_0 (grid0.coords t) ↔ t.val % 8 = 0 :=
  (by decide +kernel : ∀ t : Fin grid0.N, cond0_0 (grid0.coords t) ↔ t.val % 8 = 0)

set_option maxHeartbeats 1000000 in
/-- The first column tile: the scratch at anything, reset and then accumulated; the pieces the output block and the
    scratch end with are found by the run. -/
noncomputable def kernelRun0_A (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) :
    Σ' (L2 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowmax_kernel i arg2 harg2 arg3 harg3 arg4 harg4 arg5 harg5) K } := by
  refine ⟨?_, ?_, fun E K => ?run⟩
  case run =>
    simp only [cc0__rowmax_kernel_eq_skeleton]; unfold cc0__rowmax_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- A later column tile: the scratch at what the point before left, accumulated. -/
noncomputable def kernelRun0_B (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) :
    Σ' (L2 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowmax_kernel i arg2 harg2 arg3 harg3 arg4 harg4 arg5 harg5) K } := by
  refine ⟨?_, ?_, fun E K => ?run⟩
  case run =>
    simp only [cc0__rowmax_kernel_eq_skeleton]; unfold cc0__rowmax_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Region0.lean ====
/-
  Region 0 (the row maxima of the cosine matrix): what the output block and the scratch column hold after each grid
  point, by recursion on the point; the region's invariant (the scratch at what the point before left, every other
  scoped buffer at anything, the generator register at some state); the proof data; and the body obligation.
-/
import proofs.«124446_j4818953306342_1_alg».proof.Proof.Region0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs and the scratch -/

abbrev VO0_2 : View sig .tc .vmem S1152x1 .f32 := (Memref.whole cc0_stg2_0 : Memref sig .tc .vmem S1152x1 .f32).view
abbrev ms0_0 (t : Fin cfg0.N) : Memref sig .tc .vmem S256x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x1 .f32 := win0_2.stage (cfg0.slots t 2)
abbrev hs0_2 (t : Fin cfg0.N) : (ms0_2 t).IsWhole := hstage0_2 ((cfg0.slots t 2).cast nbuf0_2)
abbrev scM0_0 : Memref sig .tc .vmem S1152x1 .f32 := Memref.whole cc0_scratch0
abbrev VS0_0 : View sig .tc .vmem S1152x1 .f32 := scM0_0.view

/-- No window of this region is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- The other scoped buffers of the core (the other regions' staging buffers and scratches), each whole at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- What the launch hands the region: the scratch at anything, the other scoped buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

/-! ## What each case leaves -/

theorem cover0_A_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) (y : S1152x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1152x1.size (by sl_kernel_rfl) y
def out0_A_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) : Vec F S1152x1 .f32 :=
  VO0_2.read (Elt F) (VO0_2.writes (Elt F) VO0_2.junk (kernelRun0_A c i arg2 harg2 arg3 harg3 arg4 harg4 arg5 harg5 hc0 x0 x1).1)
theorem scover0_A_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) (y : S1152x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1152x1.size (by sl_kernel_rfl) y
def sout0_A_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) : Vec F S1152x1 .f32 :=
  VS0_0.read (Elt F) (VS0_0.writes (Elt F) VS0_0.junk (kernelRun0_A c i arg2 harg2 arg3 harg3 arg4 harg4 arg5 harg5 hc0 x0 x1).2.1)

theorem cover0_B_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) (y : S1152x1.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1152x1.size (by sl_kernel_rfl) y
def out0_B_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) : Vec F S1152x1 .f32 :=
  VO0_2.read (Elt F) (VO0_2.writes (Elt F) VO0_2.junk (kernelRun0_B c i arg2 harg2 arg3 harg3 arg4 harg4 arg5 harg5 hc0 x0 x1 xs0).1)
theorem scover0_B_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) (y : S1152x1.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1152x1.size (by sl_kernel_rfl) y
def sout0_B_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) : Vec F S1152x1 .f32 :=
  VS0_0.read (Elt F) (VS0_0.writes (Elt F) VS0_0.junk (kernelRun0_B c i arg2 harg2 arg3 harg3 arg4 harg4 arg5 harg5 hc0 x0 x1 xs0).2.1)

/-! ## What the output block and the scratch hold after each point -/

/-- After the body at position `n`: (the output block, the scratch). At a first column tile the case that resets;
    elsewhere the case that accumulates over what the point before left in the scratch. -/
def outsAt0 (c : Dev nD) : (n : ℕ) → n < cfg0.N → Vec F S1152x1 .f32 × Vec F S1152x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position `n`: at the start what the launch hands over; afterwards the scratch at what the point before
    left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.Region0Body.lean ====
/-
  Region 0: the body obligation. At every grid point the body is handed the two input blocks, the output block at
  anything and the scratch (at anything before the first point, else at what the point before left), and returns
  the output block and the scratch at this point's contents.
-/
import proofs.«124446_j4818953306342_1_alg».proof.Proof.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · rw [outsAt0_A V c t h0]
    unfold out0_A_2 sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold out0_B_2 sout0_B_0; (try dsimp only)
    by_cases hz : t.val = 0
    · exfalso; exact h0 (by rw [hz])
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is what the launch hands over. -/
theorem Phi0_first (c : Dev nD) : (dat0 V c).Φ 0 = Pipeline.ΦA spec0 c := by
  rw [show (dat0 V c).Φ 0 = PhiS0 V c 0 (Nat.zero_le _) from rfl, PhiS0_zero V c 0 _ rfl]

/-- After the last point the invariant gives it back: the scratch's contents are forgotten. -/
theorem Phi0_last (c : Dev nD) : (dat0 V c).Φ (Fin.last _) ⊢ (Pipeline.ΦA spec0 c : sProp 𝕄) := by
  rw [show (dat0 V c).Φ (Fin.last _) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.Region1Run.lean ====
/- Region 1 (the row sums): the kernel body run once per control case. The body's one
   conditional tests whether the second grid coordinate is zero: at such a point the accumulator is
   first reset to zero (case A); elsewhere it is carried from the point before (case B). -/
import proofs.«124446_j4818953306342_1_alg».proof.Proof.Gen.KernelIdeal.Skeleton
import proofs.«124446_j4818953306342_1_alg».proof.Proof.Gen.KernelIdeal.Launch
import proofs.«124446_j4818953306342_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinates: the second coordinate is zero. -/
abbrev cond1_0 (i : grid1.Coords) : Prop := (Scalar.cmpi .ne (Scalar.extui (Scalar.cmpi .eq (BitVec.ofNat 32 (i 1).val) 0#32)) 0#32) = 1#1
/-- It holds exactly at the points whose number is a multiple of 8 (the first column tile of a row tile). -/
theorem hcond1_0 : ∀ t : Fin cfg1.N, cond1_0 (grid1.coords t) ↔ t.val % 8 = 0 :=
  (by decide +kernel : ∀ t : Fin grid1.N, cond1_0 (grid1.coords t) ↔ t.val % 8 = 0)

set_option maxHeartbeats 1000000 in
/-- CASE A (the second coordinate is zero). On whole memrefs, the three inputs' at their contents, the output's and the
    accumulator's at anything, the body runs to the continuation holding the inputs' as they were and the output's and the
    accumulator's with the pieces its stores wrote; the pieces are found by the run. -/
noncomputable def kernelRun1_A (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i)
    (x0 : Vec F S256x1152 .bf16) (x1 : Vec F S256x1152 .bf16) (x2 : Vec F S1152x1 .f32) :
    Σ' (L3 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__rowsum_kernel i arg2 harg2 arg3 harg3 arg4 harg4 arg5 harg5 arg6 harg6) K } := by
  refine ⟨?_, ?_, fun E K => ?run⟩
  case run =>
    simp only [cc1__rowsum_kernel_eq_skeleton]; unfold cc1__rowsum_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- CASE B (the second coordinate is not zero): the same, with the accumulator at the contents `xs0` the point before
    left in it. -/
noncomputable def kernelRun1_B (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i)
    (x0 : Vec F S256x1152 .bf16) (x1 : Vec F S256x1152 .bf16) (x2 : Vec F S1152x1 .f32) (xs0 : Vec F S1152x1 .f32) :
    Σ' (L3 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__rowsum_kernel i arg2 harg2 arg3 harg3 arg4 harg4 arg5 harg5 arg6 harg6) K } := by
  refine ⟨?_, ?_, fun E K => ?run⟩
  case run =>
    simp only [cc1__rowsum_kernel_eq_skeleton]; unfold cc1__rowsum_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Region1.lean ====
/- Region 1 (the row sums): the proof data of the pipeline and the body obligation at every grid point.
   The grid is 8 x 8; point t has row tile t / 8 and column tile t % 8. The accumulator (a column of 1152
   entries) is reset at column tile 0 and carried through the eight column tiles of a row tile; after every
   point the body copies it into the output block, which the pipeline writes back after column tile 7. -/
import proofs.«124446_j4818953306342_1_alg».proof.Proof.Region1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_3 : View sig .tc .vmem S1152x1 .f32 := (Memref.whole cc1_stg3_0 : Memref sig .tc .vmem S1152x1 .f32).view
abbrev ms1_0 (t : Fin cfg1.N) : Memref sig .tc .vmem S256x1152 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1152 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1152x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1152x1 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1152x1 .f32 := Memref.whole cc1_scratch0
abbrev VS1_0 : View sig .tc .vmem S1152x1 .f32 := scM1_0.view

/-- The other scoped buffers of the core (the other regions' staging buffers and accumulators), each at anything. -/
abbrev others1 (c : Dev nD) : sProp 𝕄 :=
  Pipeline.scopedRestBut (Ix := Unit) (Name := ℕ) (U := UR sig nD τ) (Lvl := ℕ) (Val := Elt F) spec1 c [cc1_scratch0]

/-- The region's invariant as the launch hands it over, with the accumulator split off as a memref owned at some
    contents: the accumulator, the other scoped buffers, the generator register. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

/-! ## What each case leaves in the output block and in the accumulator -/

theorem cover1_A_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) (y : S1152x1.Idx) :
    ∃ pc ∈ (kernelRun1_A (F := F) c i arg2 harg2 arg3 harg3 arg4 harg4 arg5 harg5 arg6 harg6 hc0 x0 x1 x2).1, y ∈ pc.1.set :=
  View.cover_of_tiledL (kernelRun1_A (F := F) c i arg2 harg2 arg3 harg3 arg4 harg4 arg5 harg5 arg6 harg6 hc0 x0 x1 x2).1 S1152x1.size (by sl_kernel_rfl) y

/-- What case A leaves in the output's staging buffer: its pieces read back. -/
def out1_A_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) : Vec F S1152x1 .f32 :=
  VO1_3.read (Elt F) (VO1_3.writes (Elt F) VO1_3.junk (kernelRun1_A (F := F) c i arg2 harg2 arg3 harg3 arg4 harg4 arg5 harg5 arg6 harg6 hc0 x0 x1 x2).1)

theorem scover1_A_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) (y : S1152x1.Idx) :
    ∃ pc ∈ (kernelRun1_A (F := F) c i arg2 harg2 arg3 harg3 arg4 harg4 arg5 harg5 arg6 harg6 hc0 x0 x1 x2).2.1, y ∈ pc.1.set :=
  View.cover_of_tiledL (kernelRun1_A (F := F) c i arg2 harg2 arg3 harg3 arg4 harg4 arg5 harg5 arg6 harg6 hc0 x0 x1 x2).2.1 S1152x1.size (by sl_kernel_rfl) y

/-- What case A leaves in the accumulator: its pieces read back. -/
def sout1_A_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) : Vec F S1152x1 .f32 :=
  VS1_0.read (Elt F) (VS1_0.writes (Elt F) VS1_0.junk (kernelRun1_A (F := F) c i arg2 harg2 arg3 harg3 arg4 harg4 arg5 harg5 arg6 harg6 hc0 x0 x1 x2).2.1)

theorem cover1_B_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) (y : S1152x1.Idx) :
    ∃ pc ∈ (kernelRun1_B (F := F) c i arg2 harg2 arg3 harg3 arg4 harg4 arg5 harg5 arg6 harg6 hc0 x0 x1 x2 xs0).1, y ∈ pc.1.set :=
  View.cover_of_tiledL (kernelRun1_B (F := F) c i arg2 harg2 arg3 harg3 arg4 harg4 arg5 harg5 arg6 harg6 hc0 x0 x1 x2 xs0).1 S1152x1.size (by sl_kernel_rfl) y

/-- What case B leaves in the output's staging buffer: its pieces read back. -/
def out1_B_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) : Vec F S1152x1 .f32 :=
  VO1_3.read (Elt F) (VO1_3.writes (Elt F) VO1_3.junk (kernelRun1_B (F := F) c i arg2 harg2 arg3 harg3 arg4 harg4 arg5 harg5 arg6 harg6 hc0 x0 x1 x2 xs0).1)

theorem scover1_B_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) (y : S1152x1.Idx) :
    ∃ pc ∈ (kernelRun1_B (F := F) c i arg2 harg2 arg3 harg3 arg4 harg4 arg5 harg5 arg6 harg6 hc0 x0 x1 x2 xs0).2.1, y ∈ pc.1.set :=
  View.cover_of_tiledL (kernelRun1_B (F := F) c i arg2 harg2 arg3 harg3 arg4 harg4 arg5 harg5 arg6 harg6 hc0 x0 x1 x2 xs0).2.1 S1152x1.size (by sl_kernel_rfl) y

/-- What case B leaves in the accumulator: its pieces read back. -/
def sout1_B_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) : Vec F S1152x1 .f32 :=
  VS1_0.read (Elt F) (VS1_0.writes (Elt F) VS1_0.junk (kernelRun1_B (F := F) c i arg2 harg2 arg3 harg3 arg4 harg4 arg5 harg5 arg6 harg6 hc0 x0 x1 x2 xs0).2.1)

/-! ## What the output block and the accumulator hold after each point -/

/-- The accumulation: the output's staging buffer and the accumulator after the body at position `n`. At a point whose
    column tile is 0 the case that resets; elsewhere the case that carries, over the accumulator of the point before. -/
def outsAt1 (c : Dev nD) : (n : ℕ) → n < cfg1.N → Vec F S1152x1 .f32 × Vec F S1152x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 8 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: over what the point before left in the accumulator. -/
theorem outsAt1_B (c : Dev nD) (t : Fin cfg1.N) (h0 : ¬t.val % 8 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point what the launch hands over (every scoped buffer
    that is no staging buffer at anything); afterwards the accumulator at what the point before left in it, the other
    scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Hand

end
-- ==== Proof.Region1Body.lean ====
/- Region 1 (the row sums): the body obligation. At every grid point the body is handed the three input blocks,
   the output block at anything and the accumulator (at anything before the first point, else at what the point
   before left), and returns the output block and the accumulator at this point's contents. -/
import proofs.«124446_j4818953306342_1_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- No window of the region is ever idle: the body stores into the output block at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed form of the condition says which case the
    point is in; the invariant hands the body the accumulator (at anything at a point that resets it, at what the
    point before left elsewhere) and takes it back at this point's contents; the other scoped buffers, the generator
    register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · rw [outsAt1_A V c t h0]
    unfold out1_A_3 sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · rw [outsAt1_B V c t h0]
    unfold out1_B_3 sout1_B_0; (try dsimp only)
    by_cases hz : t.val = 0
    · exfalso; exact h0 (by rw [hz])
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the launch hands over. -/
theorem Phi1_first (c : Dev nD) : (dat1 V c).Φ 0 = Pipeline.ΦA spec1 c := by
  rw [show (dat1 V c).Φ 0 = PhiS1 V c 0 (Nat.zero_le _) from rfl, PhiS1_zero V c 0 _ rfl]

/-- After the last point the invariant gives it back: the accumulator's contents are forgotten. -/
theorem Phi1_last (c : Dev nD) : (dat1 V c).Φ (Fin.last _) ⊢ (Pipeline.ΦA spec1 c : sProp 𝕄) := by
  rw [show (dat1 V c).Φ (Fin.last _) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]
    · iexists _; iexact HS0
    iexact Hoth
  iexact Hg

end Cert.KernelIdeal.Hand

end
-- ==== Proof.Region2Run.lean ====
/-
  Region 2 (the column maxima of the normalised weights): the body of one grid point run on whole staging memrefs.
  The body resets its scratch row to minus infinity when the row-tile coordinate is zero, replaces the scratch by the
  elementwise maximum of the scratch and the column maxima of the tile's normalised weights, and copies the scratch
  into the output block. Two cases: the first row tile (reset, then accumulate) and the later ones (accumulate).
-/
import proofs.«124446_j4818953306342_1_alg».proof.Proof.Gen.KernelIdeal.Launch
import proofs.«124446_j4818953306342_1_alg».proof.Proof.Gen.KernelIdeal.Skeleton
import proofs.«124446_j4818953306342_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the row-tile coordinate is zero. -/
abbrev cond2_0 (i : grid2.Coords) : Prop := (Scalar.cmpi .ne (Scalar.extui (Scalar.cmpi .eq (BitVec.ofNat 32 (i 1).val) 0#32)) 0#32) = 1#1
/-- It holds exactly at the points whose number is a multiple of eight. -/
theorem hcond2_0 : ∀ t : Fin cfg2.N, cond2_0 (grid2.coords t) ↔ t.val % 8 = 0 :=
  (by decide +kernel : ∀ t : Fin grid2.N, cond2_0 (grid2.coords t) ↔ t.val % 8 = 0)

set_option maxHeartbeats 1000000 in
/-- The first row tile: the scratch at anything, reset and then accumulated; the pieces the output block and the
    scratch end with are found by the run. -/
noncomputable def kernelRun2_A (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) :
    Σ' (L4 : List (View.Piece (Elt F) S1x1152 .f32)), { LS0 : List (View.Piece (Elt F) S1x1152 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__colmax_kernel i arg2 harg2 arg3 harg3 arg4 harg4 arg5 harg5 arg6 harg6 arg7 harg7) K } := by
  refine ⟨?_, ?_, fun E K => ?run⟩
  case run =>
    simp only [cc2__colmax_kernel_eq_skeleton]; unfold cc2__colmax_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- A later row tile: the scratch at what the point before left, accumulated. -/
noncomputable def kernelRun2_B (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) :
    Σ' (L4 : List (View.Piece (Elt F) S1x1152 .f32)), { LS0 : List (View.Piece (Elt F) S1x1152 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__colmax_kernel i arg2 harg2 arg3 harg3 arg4 harg4 arg5 harg5 arg6 harg6 arg7 harg7) K } := by
  refine ⟨?_, ?_, fun E K => ?run⟩
  case run =>
    simp only [cc2__colmax_kernel_eq_skeleton]; unfold cc2__colmax_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region2.lean ====
/-
  Region 2 (the column maxima of the normalised weights): what the output block and the scratch row hold after each
  grid point, by recursion on the point; the region's invariant (the scratch at what the point before left, every
  other scoped buffer at anything, the generator register at some state); and the proof data.
-/
import proofs.«124446_j4818953306342_1_alg».proof.Proof.Region2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs and the scratch -/

abbrev VO2_4 : View sig .tc .vmem S1x1152 .f32 := (Memref.whole cc2_stg4_0 : Memref sig .tc .vmem S1x1152 .f32).view
abbrev ms2_0 (t : Fin cfg2.N) : Memref sig .tc .vmem S256x1152 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1152 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1152x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1152x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1152 .f32 := win2_4.stage (cfg2.slots t 4)
abbrev hs2_4 (t : Fin cfg2.N) : (ms2_4 t).IsWhole := hstage2_4 ((cfg2.slots t 4).cast nbuf2_4)
abbrev scM2_0 : Memref sig .tc .vmem S1x1152 .f32 := Memref.whole cc2_scratch0
abbrev VS2_0 : View sig .tc .vmem S1x1152 .f32 := scM2_0.view

/-- No window of this region is idle at any point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The other scoped buffers of the core (the other regions' staging buffers and scratches), each whole at anything,
    in front of what is said of this region's own scratch (`P`): the core's scoped buffers that are no staging buffer
    of this region, in their listed order, the own scratch last. -/
def others2 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ P)

/-- What the launch hands the region: the other scoped buffers, the scratch at anything, the generator register. -/
theorem PhiA2_eq (c : Dev nD) :
    (Pipeline.ΦA spec2 c : sProp 𝕄)
      = iprop(others2 c iprop(∃ d, owns (c : Thread nD τ) scM2_0 fullShare d) ∗ (∃ r, prngReg c r)) := by
  unfold Pipeline.ΦA others2; rw [scopedRest2_eq]; simp only [scM2_0, owns_whole]; try rfl

/-! ## What each case leaves -/

theorem cover2_A_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) (y : S1x1152.Idx) :
    ∃ pc ∈ (kernelRun2_A c i arg2 harg2 arg3 harg3 arg4 harg4 arg5 harg5 arg6 harg6 arg7 harg7 hc0 x0 x1 x2 x3).1, y ∈ pc.1.set :=
  View.cover_of_tiledL (kernelRun2_A c i arg2 harg2 arg3 harg3 arg4 harg4 arg5 harg5 arg6 harg6 arg7 harg7 hc0 x0 x1 x2 x3).1 S1x1152.size (by sl_kernel_rfl) y
def out2_A_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) : Vec F S1x1152 .f32 :=
  VO2_4.read (Elt F) (VO2_4.writes (Elt F) VO2_4.junk (kernelRun2_A c i arg2 harg2 arg3 harg3 arg4 harg4 arg5 harg5 arg6 harg6 arg7 harg7 hc0 x0 x1 x2 x3).1)
theorem scover2_A_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) (y : S1x1152.Idx) :
    ∃ pc ∈ (kernelRun2_A c i arg2 harg2 arg3 harg3 arg4 harg4 arg5 harg5 arg6 harg6 arg7 harg7 hc0 x0 x1 x2 x3).2.1, y ∈ pc.1.set :=
  View.cover_of_tiledL (kernelRun2_A c i arg2 harg2 arg3 harg3 arg4 harg4 arg5 harg5 arg6 harg6 arg7 harg7 hc0 x0 x1 x2 x3).2.1 S1x1152.size (by sl_kernel_rfl) y
def sout2_A_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) : Vec F S1x1152 .f32 :=
  VS2_0.read (Elt F) (VS2_0.writes (Elt F) VS2_0.junk (kernelRun2_A c i arg2 harg2 arg3 harg3 arg4 harg4 arg5 harg5 arg6 harg6 arg7 harg7 hc0 x0 x1 x2 x3).2.1)

theorem cover2_B_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) (y : S1x1152.Idx) :
    ∃ pc ∈ (kernelRun2_B c i arg2 harg2 arg3 harg3 arg4 harg4 arg5 harg5 arg6 harg6 arg7 harg7 hc0 x0 x1 x2 x3 xs0).1, y ∈ pc.1.set :=
  View.cover_of_tiledL (kernelRun2_B c i arg2 harg2 arg3 harg3 arg4 harg4 arg5 harg5 arg6 harg6 arg7 harg7 hc0 x0 x1 x2 x3 xs0).1 S1x1152.size (by sl_kernel_rfl) y
def out2_B_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) : Vec F S1x1152 .f32 :=
  VO2_4.read (Elt F) (VO2_4.writes (Elt F) VO2_4.junk (kernelRun2_B c i arg2 harg2 arg3 harg3 arg4 harg4 arg5 harg5 arg6 harg6 arg7 harg7 hc0 x0 x1 x2 x3 xs0).1)
theorem scover2_B_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) (y : S1x1152.Idx) :
    ∃ pc ∈ (kernelRun2_B c i arg2 harg2 arg3 harg3 arg4 harg4 arg5 harg5 arg6 harg6 arg7 harg7 hc0 x0 x1 x2 x3 xs0).2.1, y ∈ pc.1.set :=
  View.cover_of_tiledL (kernelRun2_B c i arg2 harg2 arg3 harg3 arg4 harg4 arg5 harg5 arg6 harg6 arg7 harg7 hc0 x0 x1 x2 x3 xs0).2.1 S1x1152.size (by sl_kernel_rfl) y
def sout2_B_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) : Vec F S1x1152 .f32 :=
  VS2_0.read (Elt F) (VS2_0.writes (Elt F) VS2_0.junk (kernelRun2_B c i arg2 harg2 arg3 harg3 arg4 harg4 arg5 harg5 arg6 harg6 arg7 harg7 hc0 x0 x1 x2 x3 xs0).2.1)

/-! ## What the output block and the scratch hold after each point -/

/-- After the body at position `n`: (the output block, the scratch). At a first row tile the case that resets;
    elsewhere the case that accumulates over what the point before left in the scratch. -/
def outsAt2 (c : Dev nD) : (n : ℕ) → n < cfg2.N → Vec F S1x1152 .f32 × Vec F S1x1152 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 8 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position `n`: at the start what the launch hands over; afterwards the scratch at what the point before
    left, the other scoped buffers at anything, the generator register at some state. -/
def PhiS2 (c : Dev nD) : (n : ℕ) → n ≤ cfg2.N → sProp 𝕄
  | 0, _ => Pipeline.ΦA spec2 c
  | n + 1, hn => iprop(others2 c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c (owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(others2 c (owns (c : Thread nD τ) scM2_0 fullShare ((outsAt2 V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the output's at what the recursion says; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.KernelIdeal.Hand

end
-- ==== Proof.Region2Body.lean ====
/-
  Region 2: the body obligation. At every grid point the body is handed the four input blocks, the output block at
  anything and the scratch (at anything before the first point, else at what the point before left), and returns
  the output block and the scratch at this point's contents; the other scoped buffers ride along untouched.
-/
import proofs.«124446_j4818953306342_1_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · rw [outsAt2_A V c t h0]
    unfold out2_A_4 sout2_A_0; (try dsimp only)
    by_cases hz : t.val = 0
    · rw [PhiS2_castSucc V c t, PhiS2_zero V c _ _ hz, PhiA2_eq]
      unfold others2
      iintro ⟨⟨⟨B0, B1, B2, B3, B4, B5, B6, B7, B8, B9, B10, B11, B12, B13, B14, B15, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [B0 B1 B2 B3 B4 B5 B6 B7 B8 B9 B10 B11 B12 B13 B14 B15 HS0 Hg]
      · isplitl [B0 B1 B2 B3 B4 B5 B6 B7 B8 B9 B10 B11 B12 B13 B14 B15 HS0]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          isplitl [B15]; · iexact B15
          unfold owns; iexists _; isplitr
          swap; · iexact HS0
          ipureintro; exact View.read_writes_of_cover _ _ _ _ _ (scover2_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
    · rw [PhiS2_castSucc V c t, PhiS2_pos V c _ _ hz]
      unfold others2
      iintro ⟨⟨⟨B0, B1, B2, B3, B4, B5, B6, B7, B8, B9, B10, B11, B12, B13, B14, B15, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [B0 B1 B2 B3 B4 B5 B6 B7 B8 B9 B10 B11 B12 B13 B14 B15 HS0 Hg]
      · isplitl [B0 B1 B2 B3 B4 B5 B6 B7 B8 B9 B10 B11 B12 B13 B14 B15 HS0]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          isplitl [B15]; · iexact B15
          unfold owns; iexists _; isplitr
          swap; · iexact HS0
          ipureintro; exact View.read_writes_of_cover _ _ _ _ _ (scover2_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
  · rw [outsAt2_B V c t h0]
    unfold out2_B_4 sout2_B_0; (try dsimp only)
    by_cases hz : t.val = 0
    · exfalso; exact h0 (by rw [hz])
    · rw [PhiS2_castSucc V c t, PhiS2_pos V c _ _ hz]
      unfold others2
      iintro ⟨⟨⟨B0, B1, B2, B3, B4, B5, B6, B7, B8, B9, B10, B11, B12, B13, B14, B15, HS0⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [B0 B1 B2 B3 B4 B5 B6 B7 B8 B9 B10 B11 B12 B13 B14 B15 HS0 Hg]
      · isplitl [B0 B1 B2 B3 B4 B5 B6 B7 B8 B9 B10 B11 B12 B13 B14 B15 HS0]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          isplitl [B15]; · iexact B15
          unfold owns; iexists _; isplitr
          swap; · iexact HS0
          ipureintro; exact View.read_writes_of_cover _ _ _ _ _ (scover2_B_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_B_4 c _ _ _ _ _ _ _ _ _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is what the launch hands over. -/
theorem Phi2_first (c : Dev nD) : (dat2 V c).Φ 0 = Pipeline.ΦA spec2 c := by
  rw [show (dat2 V c).Φ 0 = PhiS2 V c 0 (Nat.zero_le _) from rfl, PhiS2_zero V c 0 _ rfl]

/-- After the last point the invariant gives it back: the scratch's contents are forgotten. -/
theorem Phi2_last (c : Dev nD) : (dat2 V c).Φ (Fin.last _) ⊢ (Pipeline.ΦA spec2 c : sProp 𝕄) := by
  rw [show (dat2 V c).Φ (Fin.last _) = PhiS2 V c (Fin.last cfg2.N).val (Nat.le_of_lt_succ (Fin.last cfg2.N).isLt) from rfl,
    PhiS2_pos V c _ _ (by rw [Fin.val_last]; have : cfg2.N = 64 := N_2; omega), PhiA2_eq]
  unfold others2
  iintro ⟨⟨B0, B1, B2, B3, B4, B5, B6, B7, B8, B9, B10, B11, B12, B13, B14, B15, HS0⟩, Hg⟩
  isplitl [B0 B1 B2 B3 B4 B5 B6 B7 B8 B9 B10 B11 B12 B13 B14 B15 HS0]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexists _; iexact HS0
  iexact Hg

end Cert.KernelIdeal.Hand

end
-- ==== Proof.WholeRun.lean ====
/-
  The whole run of the three-region program: the contents of every unscoped buffer at each boundary between the host
  stretches and the regions, each region entered from what the item before it left, and the run from the launch to
  the return with every unscoped buffer named at the end.
-/
import proofs.«124446_j4818953306342_1_alg».proof.Proof.Region0Body
import proofs.«124446_j4818953306342_1_alg».proof.Proof.Region1Body
import proofs.«124446_j4818953306342_1_alg».proof.Proof.Region2Body
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

abbrev W5 : Dev nD → Valuation τ sig (Elt F) := fun c => StableHlo.after hostOps3 (W4 m c)

/-! ## The proof data, the riders, the host stretches -/

abbrev adm' : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
  | ⟨2, _⟩ => fun c => dat2 (E3 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left at the contents
    after it; its arrays split out of the unscoped buffers and put back at what the pipeline leaves; the generator
    register and the scoped rest into the region's invariant and out; nothing owed; no semaphore of the kernel's own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (E1 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Phi0_last (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the pipeline leaves; the generator
    register and the scoped rest into the region's invariant and out; nothing owed; no semaphore of the kernel's own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E2 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what the pipeline leaves; the generator
    register and the scoped rest into the region's invariant and out; nothing owed; no semaphore of the kernel's own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2_first (E3 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Phi2_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm' (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps3 (W4 m c)) ∗ R c)
        ⊢ iprop(Tₙ m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.Frames.lean ====
/-
  The frame of the three-region program from its whole run: no host stretch writes an argument array and no region may
  change one, so each argument reaches the end as launched.
-/
import proofs.«124446_j4818953306342_1_alg».proof.Proof.WholeRun
import proofs.«124446_j4818953306342_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer no host stretch writes and no region stages reaches the last boundary as launched. -/
theorem W5_kept (c : Dev nD) (b : Ref sig .tc) (h0 : b ∉ hostOps0_W) (h3 : b ∉ hostOps3_W)
    (hn0 : ∀ w, Pipeline.arrRef spec0 w ≠ b) (hn1 : ∀ w, Pipeline.arrRef spec1 w ≠ b) (hn2 : ∀ w, Pipeline.arrRef spec2 w ≠ b) :
    W5 m c (Proc.devRef .tc b) = m ((c : Thread nD τ).loc b) :=
  ((StableHlo.after_of_writes_sub hostOps3 (W4 m c) hostOps3_writes h3 : W5 m c b = W4 m c b)).trans <|
    (W4_of_ne m c b hn2).trans <| (W3_of_ne m c b hn1).trans <| (W2_of_ne m c b hn0).trans <|
      ((StableHlo.after_of_writes_sub hostOps0 (W0 m c) hostOps0_writes h0 : W1 m c b = W0 m c b)).trans rfl

theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)

/-- Every weakly fair execution terminates, nothing faulting, with the argument arrays as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.KernelIdeal.Hand

end
-- ==== Proof.Bits.Region0Run.lean ====
/-
  Region 0 (the row maxima of the cosine matrix): the body of one grid point run on whole staging memrefs. The body
  resets its scratch column to minus infinity when the column-tile coordinate is zero, replaces the scratch by the
  elementwise maximum of the scratch and the row maxima of the tile's product, and copies the scratch into the
  output block. Two cases: the first column tile (reset, then accumulate) and the later ones (accumulate).
-/
import proofs.«124446_j4818953306342_1_alg».proof.Proof.Gen.Kernel.Launch
import proofs.«124446_j4818953306342_1_alg».proof.Proof.Gen.Kernel.Skeleton
import proofs.«124446_j4818953306342_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the column-tile coordinate is zero. -/
abbrev cond0_0 (i : grid0.Coords) : Prop := (Scalar.cmpi .ne (Scalar.extui (Scalar.cmpi .eq (BitVec.ofNat 32 (i 1).val) 0#32)) 0#32) = 1#1
/-- It holds exactly at the points whose number is a multiple of eight. -/
theorem hcond0_0 : ∀ t : Fin cfg0.N, cond0_0 (grid0.coords t) ↔ t.val % 8 = 0 :=
  (by decide +kernel : ∀ t : Fin grid0.N, cond0_0 (grid0.coords t) ↔ t.val % 8 = 0)

set_option maxHeartbeats 1000000 in
/-- The first column tile: the scratch at anything, reset and then accumulated; the pieces the output block and the
    scratch end with are found by the run. -/
noncomputable def kernelRun0_A (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) :
    Σ' (L2 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowmax_kernel i arg2 harg2 arg3 harg3 arg4 harg4 arg5 harg5) K } := by
  refine ⟨?_, ?_, fun E K => ?run⟩
  case run =>
    simp only [cc0__rowmax_kernel_eq_skeleton]; unfold cc0__rowmax_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- A later column tile: the scratch at what the point before left, accumulated. -/
noncomputable def kernelRun0_B (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) :
    Σ' (L2 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowmax_kernel i arg2 harg2 arg3 harg3 arg4 harg4 arg5 harg5) K } := by
  refine ⟨?_, ?_, fun E K => ?run⟩
  case run =>
    simp only [cc0__rowmax_kernel_eq_skeleton]; unfold cc0__rowmax_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Bits.Region0.lean ====
/-
  Region 0 (the row maxima of the cosine matrix): what the output block and the scratch column hold after each grid
  point, by recursion on the point; the region's invariant (the scratch at what the point before left, every other
  scoped buffer at anything, the generator register at some state); the proof data; and the body obligation.
-/
import proofs.«124446_j4818953306342_1_alg».proof.Proof.Bits.Region0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs and the scratch -/

abbrev VO0_2 : View sig .tc .vmem S1152x1 .f32 := (Memref.whole cc0_stg2_0 : Memref sig .tc .vmem S1152x1 .f32).view
abbrev ms0_0 (t : Fin cfg0.N) : Memref sig .tc .vmem S256x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x1 .f32 := win0_2.stage (cfg0.slots t 2)
abbrev hs0_2 (t : Fin cfg0.N) : (ms0_2 t).IsWhole := hstage0_2 ((cfg0.slots t 2).cast nbuf0_2)
abbrev scM0_0 : Memref sig .tc .vmem S1152x1 .f32 := Memref.whole cc0_scratch0
abbrev VS0_0 : View sig .tc .vmem S1152x1 .f32 := scM0_0.view

/-- No window of this region is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- The other scoped buffers of the core (the other regions' staging buffers and scratches), each whole at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- What the launch hands the region: the scratch at anything, the other scoped buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

/-! ## What each case leaves -/

theorem cover0_A_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) (y : S1152x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1152x1.size (by sl_kernel_rfl) y
def out0_A_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) : Vec F S1152x1 .f32 :=
  VO0_2.read (Elt F) (VO0_2.writes (Elt F) VO0_2.junk (kernelRun0_A c i arg2 harg2 arg3 harg3 arg4 harg4 arg5 harg5 hc0 x0 x1).1)
theorem scover0_A_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) (y : S1152x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1152x1.size (by sl_kernel_rfl) y
def sout0_A_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) : Vec F S1152x1 .f32 :=
  VS0_0.read (Elt F) (VS0_0.writes (Elt F) VS0_0.junk (kernelRun0_A c i arg2 harg2 arg3 harg3 arg4 harg4 arg5 harg5 hc0 x0 x1).2.1)

theorem cover0_B_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) (y : S1152x1.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1152x1.size (by sl_kernel_rfl) y
def out0_B_2 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) : Vec F S1152x1 .f32 :=
  VO0_2.read (Elt F) (VO0_2.writes (Elt F) VO0_2.junk (kernelRun0_B c i arg2 harg2 arg3 harg3 arg4 harg4 arg5 harg5 hc0 x0 x1 xs0).1)
theorem scover0_B_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) (y : S1152x1.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1152x1.size (by sl_kernel_rfl) y
def sout0_B_0 (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) : Vec F S1152x1 .f32 :=
  VS0_0.read (Elt F) (VS0_0.writes (Elt F) VS0_0.junk (kernelRun0_B c i arg2 harg2 arg3 harg3 arg4 harg4 arg5 harg5 hc0 x0 x1 xs0).2.1)

/-! ## What the output block and the scratch hold after each point -/

/-- After the body at position `n`: (the output block, the scratch). At a first column tile the case that resets;
    elsewhere the case that accumulates over what the point before left in the scratch. -/
def outsAt0 (c : Dev nD) : (n : ℕ) → n < cfg0.N → Vec F S1152x1 .f32 × Vec F S1152x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position `n`: at the start what the launch hands over; afterwards the scratch at what the point before
    left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.Bits.Region0Body.lean ====
/-
  Region 0: the body obligation. At every grid point the body is handed the two input blocks, the output block at
  anything and the scratch (at anything before the first point, else at what the point before left), and returns
  the output block and the scratch at this point's contents.
-/
import proofs.«124446_j4818953306342_1_alg».proof.Proof.Bits.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · rw [outsAt0_A V c t h0]
    unfold out0_A_2 sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · rw [outsAt0_B V c t h0]
    unfold out0_B_2 sout0_B_0; (try dsimp only)
    by_cases hz : t.val = 0
    · exfalso; exact h0 (by rw [hz])
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is what the launch hands over. -/
theorem Phi0_first (c : Dev nD) : (dat0 V c).Φ 0 = Pipeline.ΦA spec0 c := by
  rw [show (dat0 V c).Φ 0 = PhiS0 V c 0 (Nat.zero_le _) from rfl, PhiS0_zero V c 0 _ rfl]

/-- After the last point the invariant gives it back: the scratch's contents are forgotten. -/
theorem Phi0_last (c : Dev nD) : (dat0 V c).Φ (Fin.last _) ⊢ (Pipeline.ΦA spec0 c : sProp 𝕄) := by
  rw [show (dat0 V c).Φ (Fin.last _) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.Bits.Region1Run.lean ====
/- Region 1 (the row sums): the kernel body run once per control case. The body's one
   conditional tests whether the second grid coordinate is zero: at such a point the accumulator is
   first reset to zero (case A); elsewhere it is carried from the point before (case B). -/
import proofs.«124446_j4818953306342_1_alg».proof.Proof.Gen.Kernel.Skeleton
import proofs.«124446_j4818953306342_1_alg».proof.Proof.Gen.Kernel.Launch
import proofs.«124446_j4818953306342_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinates: the second coordinate is zero. -/
abbrev cond1_0 (i : grid1.Coords) : Prop := (Scalar.cmpi .ne (Scalar.extui (Scalar.cmpi .eq (BitVec.ofNat 32 (i 1).val) 0#32)) 0#32) = 1#1
/-- It holds exactly at the points whose number is a multiple of 8 (the first column tile of a row tile). -/
theorem hcond1_0 : ∀ t : Fin cfg1.N, cond1_0 (grid1.coords t) ↔ t.val % 8 = 0 :=
  (by decide +kernel : ∀ t : Fin grid1.N, cond1_0 (grid1.coords t) ↔ t.val % 8 = 0)

set_option maxHeartbeats 1000000 in
/-- CASE A (the second coordinate is zero). On whole memrefs, the three inputs' at their contents, the output's and the
    accumulator's at anything, the body runs to the continuation holding the inputs' as they were and the output's and the
    accumulator's with the pieces its stores wrote; the pieces are found by the run. -/
noncomputable def kernelRun1_A (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i)
    (x0 : Vec F S256x1152 .bf16) (x1 : Vec F S256x1152 .bf16) (x2 : Vec F S1152x1 .f32) :
    Σ' (L3 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__rowsum_kernel i arg2 harg2 arg3 harg3 arg4 harg4 arg5 harg5 arg6 harg6) K } := by
  refine ⟨?_, ?_, fun E K => ?run⟩
  case run =>
    simp only [cc1__rowsum_kernel_eq_skeleton]; unfold cc1__rowsum_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- CASE B (the second coordinate is not zero): the same, with the accumulator at the contents `xs0` the point before
    left in it. -/
noncomputable def kernelRun1_B (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i)
    (x0 : Vec F S256x1152 .bf16) (x1 : Vec F S256x1152 .bf16) (x2 : Vec F S1152x1 .f32) (xs0 : Vec F S1152x1 .f32) :
    Σ' (L3 : List (View.Piece (Elt F) S1152x1 .f32)), { LS0 : List (View.Piece (Elt F) S1152x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__rowsum_kernel i arg2 harg2 arg3 harg3 arg4 harg4 arg5 harg5 arg6 harg6) K } := by
  refine ⟨?_, ?_, fun E K => ?run⟩
  case run =>
    simp only [cc1__rowsum_kernel_eq_skeleton]; unfold cc1__rowsum_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Bits.Region1.lean ====
/- Region 1 (the row sums): the proof data of the pipeline and the body obligation at every grid point.
   The grid is 8 x 8; point t has row tile t / 8 and column tile t % 8. The accumulator (a column of 1152
   entries) is reset at column tile 0 and carried through the eight column tiles of a row tile; after every
   point the body copies it into the output block, which the pipeline writes back after column tile 7. -/
import proofs.«124446_j4818953306342_1_alg».proof.Proof.Bits.Region1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_3 : View sig .tc .vmem S1152x1 .f32 := (Memref.whole cc1_stg3_0 : Memref sig .tc .vmem S1152x1 .f32).view
abbrev ms1_0 (t : Fin cfg1.N) : Memref sig .tc .vmem S256x1152 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1152 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1152x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1152x1 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1152x1 .f32 := Memref.whole cc1_scratch0
abbrev VS1_0 : View sig .tc .vmem S1152x1 .f32 := scM1_0.view

/-- The other scoped buffers of the core (the other regions' staging buffers and accumulators), each at anything. -/
abbrev others1 (c : Dev nD) : sProp 𝕄 :=
  Pipeline.scopedRestBut (Ix := Unit) (Name := ℕ) (U := UR sig nD τ) (Lvl := ℕ) (Val := Elt F) spec1 c [cc1_scratch0]

/-- The region's invariant as the launch hands it over, with the accumulator split off as a memref owned at some
    contents: the accumulator, the other scoped buffers, the generator register. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [scM1_0, owns_whole]; try rfl

/-! ## What each case leaves in the output block and in the accumulator -/

theorem cover1_A_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) (y : S1152x1.Idx) :
    ∃ pc ∈ (kernelRun1_A (F := F) c i arg2 harg2 arg3 harg3 arg4 harg4 arg5 harg5 arg6 harg6 hc0 x0 x1 x2).1, y ∈ pc.1.set :=
  View.cover_of_tiledL (kernelRun1_A (F := F) c i arg2 harg2 arg3 harg3 arg4 harg4 arg5 harg5 arg6 harg6 hc0 x0 x1 x2).1 S1152x1.size (by sl_kernel_rfl) y

/-- What case A leaves in the output's staging buffer: its pieces read back. -/
def out1_A_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) : Vec F S1152x1 .f32 :=
  VO1_3.read (Elt F) (VO1_3.writes (Elt F) VO1_3.junk (kernelRun1_A (F := F) c i arg2 harg2 arg3 harg3 arg4 harg4 arg5 harg5 arg6 harg6 hc0 x0 x1 x2).1)

theorem scover1_A_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) (y : S1152x1.Idx) :
    ∃ pc ∈ (kernelRun1_A (F := F) c i arg2 harg2 arg3 harg3 arg4 harg4 arg5 harg5 arg6 harg6 hc0 x0 x1 x2).2.1, y ∈ pc.1.set :=
  View.cover_of_tiledL (kernelRun1_A (F := F) c i arg2 harg2 arg3 harg3 arg4 harg4 arg5 harg5 arg6 harg6 hc0 x0 x1 x2).2.1 S1152x1.size (by sl_kernel_rfl) y

/-- What case A leaves in the accumulator: its pieces read back. -/
def sout1_A_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) : Vec F S1152x1 .f32 :=
  VS1_0.read (Elt F) (VS1_0.writes (Elt F) VS1_0.junk (kernelRun1_A (F := F) c i arg2 harg2 arg3 harg3 arg4 harg4 arg5 harg5 arg6 harg6 hc0 x0 x1 x2).2.1)

theorem cover1_B_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) (y : S1152x1.Idx) :
    ∃ pc ∈ (kernelRun1_B (F := F) c i arg2 harg2 arg3 harg3 arg4 harg4 arg5 harg5 arg6 harg6 hc0 x0 x1 x2 xs0).1, y ∈ pc.1.set :=
  View.cover_of_tiledL (kernelRun1_B (F := F) c i arg2 harg2 arg3 harg3 arg4 harg4 arg5 harg5 arg6 harg6 hc0 x0 x1 x2 xs0).1 S1152x1.size (by sl_kernel_rfl) y

/-- What case B leaves in the output's staging buffer: its pieces read back. -/
def out1_B_3 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) : Vec F S1152x1 .f32 :=
  VO1_3.read (Elt F) (VO1_3.writes (Elt F) VO1_3.junk (kernelRun1_B (F := F) c i arg2 harg2 arg3 harg3 arg4 harg4 arg5 harg5 arg6 harg6 hc0 x0 x1 x2 xs0).1)

theorem scover1_B_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) (y : S1152x1.Idx) :
    ∃ pc ∈ (kernelRun1_B (F := F) c i arg2 harg2 arg3 harg3 arg4 harg4 arg5 harg5 arg6 harg6 hc0 x0 x1 x2 xs0).2.1, y ∈ pc.1.set :=
  View.cover_of_tiledL (kernelRun1_B (F := F) c i arg2 harg2 arg3 harg3 arg4 harg4 arg5 harg5 arg6 harg6 hc0 x0 x1 x2 xs0).2.1 S1152x1.size (by sl_kernel_rfl) y

/-- What case B leaves in the accumulator: its pieces read back. -/
def sout1_B_0 (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) : Vec F S1152x1 .f32 :=
  VS1_0.read (Elt F) (VS1_0.writes (Elt F) VS1_0.junk (kernelRun1_B (F := F) c i arg2 harg2 arg3 harg3 arg4 harg4 arg5 harg5 arg6 harg6 hc0 x0 x1 x2 xs0).2.1)

/-! ## What the output block and the accumulator hold after each point -/

/-- The accumulation: the output's staging buffer and the accumulator after the body at position `n`. At a point whose
    column tile is 0 the case that resets; elsewhere the case that carries, over the accumulator of the point before. -/
def outsAt1 (c : Dev nD) : (n : ℕ) → n < cfg1.N → Vec F S1152x1 .f32 × Vec F S1152x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 8 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: over what the point before left in the accumulator. -/
theorem outsAt1_B (c : Dev nD) (t : Fin cfg1.N) (h0 : ¬t.val % 8 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point what the launch hands over (every scoped buffer
    that is no staging buffer at anything); afterwards the accumulator at what the point before left in it, the other
    scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Hand

end
-- ==== Proof.Bits.Region1Body.lean ====
/- Region 1 (the row sums): the body obligation. At every grid point the body is handed the three input blocks,
   the output block at anything and the accumulator (at anything before the first point, else at what the point
   before left), and returns the output block and the accumulator at this point's contents. -/
import proofs.«124446_j4818953306342_1_alg».proof.Proof.Bits.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- No window of the region is ever idle: the body stores into the output block at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed form of the condition says which case the
    point is in; the invariant hands the body the accumulator (at anything at a point that resets it, at what the
    point before left elsewhere) and takes it back at this point's contents; the other scoped buffers, the generator
    register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · rw [outsAt1_A V c t h0]
    unfold out1_A_3 sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · rw [outsAt1_B V c t h0]
    unfold out1_B_3 sout1_B_0; (try dsimp only)
    by_cases hz : t.val = 0
    · exfalso; exact h0 (by rw [hz])
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the launch hands over. -/
theorem Phi1_first (c : Dev nD) : (dat1 V c).Φ 0 = Pipeline.ΦA spec1 c := by
  rw [show (dat1 V c).Φ 0 = PhiS1 V c 0 (Nat.zero_le _) from rfl, PhiS1_zero V c 0 _ rfl]

/-- After the last point the invariant gives it back: the accumulator's contents are forgotten. -/
theorem Phi1_last (c : Dev nD) : (dat1 V c).Φ (Fin.last _) ⊢ (Pipeline.ΦA spec1 c : sProp 𝕄) := by
  rw [show (dat1 V c).Φ (Fin.last _) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]
    · iexists _; iexact HS0
    iexact Hoth
  iexact Hg

end Cert.Kernel.Hand

end
-- ==== Proof.Bits.Region2Run.lean ====
/-
  Region 2 (the column maxima of the normalised weights): the body of one grid point run on whole staging memrefs.
  The body resets its scratch row to minus infinity when the row-tile coordinate is zero, replaces the scratch by the
  elementwise maximum of the scratch and the column maxima of the tile's normalised weights, and copies the scratch
  into the output block. Two cases: the first row tile (reset, then accumulate) and the later ones (accumulate).
-/
import proofs.«124446_j4818953306342_1_alg».proof.Proof.Gen.Kernel.Launch
import proofs.«124446_j4818953306342_1_alg».proof.Proof.Gen.Kernel.Skeleton
import proofs.«124446_j4818953306342_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition: the row-tile coordinate is zero. -/
abbrev cond2_0 (i : grid2.Coords) : Prop := (Scalar.cmpi .ne (Scalar.extui (Scalar.cmpi .eq (BitVec.ofNat 32 (i 1).val) 0#32)) 0#32) = 1#1
/-- It holds exactly at the points whose number is a multiple of eight. -/
theorem hcond2_0 : ∀ t : Fin cfg2.N, cond2_0 (grid2.coords t) ↔ t.val % 8 = 0 :=
  (by decide +kernel : ∀ t : Fin grid2.N, cond2_0 (grid2.coords t) ↔ t.val % 8 = 0)

set_option maxHeartbeats 1000000 in
/-- The first row tile: the scratch at anything, reset and then accumulated; the pieces the output block and the
    scratch end with are found by the run. -/
noncomputable def kernelRun2_A (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) :
    Σ' (L4 : List (View.Piece (Elt F) S1x1152 .f32)), { LS0 : List (View.Piece (Elt F) S1x1152 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__colmax_kernel i arg2 harg2 arg3 harg3 arg4 harg4 arg5 harg5 arg6 harg6 arg7 harg7) K } := by
  refine ⟨?_, ?_, fun E K => ?run⟩
  case run =>
    simp only [cc2__colmax_kernel_eq_skeleton]; unfold cc2__colmax_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- A later row tile: the scratch at what the point before left, accumulated. -/
noncomputable def kernelRun2_B (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) :
    Σ' (L4 : List (View.Piece (Elt F) S1x1152 .f32)), { LS0 : List (View.Piece (Elt F) S1x1152 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__colmax_kernel i arg2 harg2 arg3 harg3 arg4 harg4 arg5 harg5 arg6 harg6 arg7 harg7) K } := by
  refine ⟨?_, ?_, fun E K => ?run⟩
  case run =>
    simp only [cc2__colmax_kernel_eq_skeleton]; unfold cc2__colmax_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Bits.Region2.lean ====
/-
  Region 2 (the column maxima of the normalised weights): what the output block and the scratch row hold after each
  grid point, by recursion on the point; the region's invariant (the scratch at what the point before left, every
  other scoped buffer at anything, the generator register at some state); and the proof data.
-/
import proofs.«124446_j4818953306342_1_alg».proof.Proof.Bits.Region2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The staging memrefs and the scratch -/

abbrev VO2_4 : View sig .tc .vmem S1x1152 .f32 := (Memref.whole cc2_stg4_0 : Memref sig .tc .vmem S1x1152 .f32).view
abbrev ms2_0 (t : Fin cfg2.N) : Memref sig .tc .vmem S256x1152 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1152 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1152x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1152x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1152 .f32 := win2_4.stage (cfg2.slots t 4)
abbrev hs2_4 (t : Fin cfg2.N) : (ms2_4 t).IsWhole := hstage2_4 ((cfg2.slots t 4).cast nbuf2_4)
abbrev scM2_0 : Memref sig .tc .vmem S1x1152 .f32 := Memref.whole cc2_scratch0
abbrev VS2_0 : View sig .tc .vmem S1x1152 .f32 := scM2_0.view

/-- No window of this region is idle at any point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The other scoped buffers of the core (the other regions' staging buffers and scratches), each whole at anything,
    in front of what is said of this region's own scratch (`P`): the core's scoped buffers that are no staging buffer
    of this region, in their listed order, the own scratch last. -/
def others2 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ P)

/-- What the launch hands the region: the other scoped buffers, the scratch at anything, the generator register. -/
theorem PhiA2_eq (c : Dev nD) :
    (Pipeline.ΦA spec2 c : sProp 𝕄)
      = iprop(others2 c iprop(∃ d, owns (c : Thread nD τ) scM2_0 fullShare d) ∗ (∃ r, prngReg c r)) := by
  unfold Pipeline.ΦA others2; rw [scopedRest2_eq]; simp only [scM2_0, owns_whole]; try rfl

/-! ## What each case leaves -/

theorem cover2_A_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) (y : S1x1152.Idx) :
    ∃ pc ∈ (kernelRun2_A c i arg2 harg2 arg3 harg3 arg4 harg4 arg5 harg5 arg6 harg6 arg7 harg7 hc0 x0 x1 x2 x3).1, y ∈ pc.1.set :=
  View.cover_of_tiledL (kernelRun2_A c i arg2 harg2 arg3 harg3 arg4 harg4 arg5 harg5 arg6 harg6 arg7 harg7 hc0 x0 x1 x2 x3).1 S1x1152.size (by sl_kernel_rfl) y
def out2_A_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) : Vec F S1x1152 .f32 :=
  VO2_4.read (Elt F) (VO2_4.writes (Elt F) VO2_4.junk (kernelRun2_A c i arg2 harg2 arg3 harg3 arg4 harg4 arg5 harg5 arg6 harg6 arg7 harg7 hc0 x0 x1 x2 x3).1)
theorem scover2_A_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) (y : S1x1152.Idx) :
    ∃ pc ∈ (kernelRun2_A c i arg2 harg2 arg3 harg3 arg4 harg4 arg5 harg5 arg6 harg6 arg7 harg7 hc0 x0 x1 x2 x3).2.1, y ∈ pc.1.set :=
  View.cover_of_tiledL (kernelRun2_A c i arg2 harg2 arg3 harg3 arg4 harg4 arg5 harg5 arg6 harg6 arg7 harg7 hc0 x0 x1 x2 x3).2.1 S1x1152.size (by sl_kernel_rfl) y
def sout2_A_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i)
    (x0 : Vec F S256x1152 .bf16) (x1 : Vec F S256x1152 .bf16) (x2 : Vec F S1152x1 .f32) (x3 : Vec F S1152x1 .f32) : Vec F S1x1152 .f32 :=
  VS2_0.read (Elt F) (VS2_0.writes (Elt F) VS2_0.junk (kernelRun2_A c i arg2 harg2 arg3 harg3 arg4 harg4 arg5 harg5 arg6 harg6 arg7 harg7 hc0 x0 x1 x2 x3).2.1)

theorem cover2_B_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) (y : S1x1152.Idx) :
    ∃ pc ∈ (kernelRun2_B c i arg2 harg2 arg3 harg3 arg4 harg4 arg5 harg5 arg6 harg6 arg7 harg7 hc0 x0 x1 x2 x3 xs0).1, y ∈ pc.1.set :=
  View.cover_of_tiledL (kernelRun2_B c i arg2 harg2 arg3 harg3 arg4 harg4 arg5 harg5 arg6 harg6 arg7 harg7 hc0 x0 x1 x2 x3 xs0).1 S1x1152.size (by sl_kernel_rfl) y
def out2_B_4 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) : Vec F S1x1152 .f32 :=
  VO2_4.read (Elt F) (VO2_4.writes (Elt F) VO2_4.junk (kernelRun2_B c i arg2 harg2 arg3 harg3 arg4 harg4 arg5 harg5 arg6 harg6 arg7 harg7 hc0 x0 x1 x2 x3 xs0).1)
theorem scover2_B_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) (y : S1x1152.Idx) :
    ∃ pc ∈ (kernelRun2_B c i arg2 harg2 arg3 harg3 arg4 harg4 arg5 harg5 arg6 harg6 arg7 harg7 hc0 x0 x1 x2 x3 xs0).2.1, y ∈ pc.1.set :=
  View.cover_of_tiledL (kernelRun2_B c i arg2 harg2 arg3 harg3 arg4 harg4 arg5 harg5 arg6 harg6 arg7 harg7 hc0 x0 x1 x2 x3 xs0).2.1 S1x1152.size (by sl_kernel_rfl) y
def sout2_B_0 (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i)
    (x0 : Vec F S256x1152 .bf16) (x1 : Vec F S256x1152 .bf16) (x2 : Vec F S1152x1 .f32) (x3 : Vec F S1152x1 .f32) (xs0 : Vec F S1x1152 .f32) : Vec F S1x1152 .f32 :=
  VS2_0.read (Elt F) (VS2_0.writes (Elt F) VS2_0.junk (kernelRun2_B c i arg2 harg2 arg3 harg3 arg4 harg4 arg5 harg5 arg6 harg6 arg7 harg7 hc0 x0 x1 x2 x3 xs0).2.1)

/-! ## What the output block and the scratch hold after each point -/

/-- After the body at position `n`: (the output block, the scratch). At a first row tile the case that resets;
    elsewhere the case that accumulates over what the point before left in the scratch. -/
def outsAt2 (c : Dev nD) : (n : ℕ) → n < cfg2.N → Vec F S1x1152 .f32 × Vec F S1x1152 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 8 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_B (c : Dev nD) (t : Fin cfg2.N) (h0 : ¬t.val % 8 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position `n`: at the start what the launch hands over; afterwards the scratch at what the point before
    left, the other scoped buffers at anything, the generator register at some state. -/
def PhiS2 (c : Dev nD) : (n : ℕ) → n ≤ cfg2.N → sProp 𝕄
  | 0, _ => Pipeline.ΦA spec2 c
  | n + 1, hn => iprop(others2 c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c (owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(others2 c (owns (c : Thread nD τ) scM2_0 fullShare ((outsAt2 V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the output's at what the recursion says; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

end Cert.Kernel.Hand

end
-- ==== Proof.Bits.Region2Body.lean ====
/-
  Region 2: the body obligation. At every grid point the body is handed the four input blocks, the output block at
  anything and the scratch (at anything before the first point, else at what the point before left), and returns
  the output block and the scratch at this point's contents; the other scoped buffers ride along untouched.
-/
import proofs.«124446_j4818953306342_1_alg».proof.Proof.Bits.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · rw [outsAt2_A V c t h0]
    unfold out2_A_4 sout2_A_0; (try dsimp only)
    by_cases hz : t.val = 0
    · rw [PhiS2_castSucc V c t, PhiS2_zero V c _ _ hz, PhiA2_eq]
      unfold others2
      iintro ⟨⟨⟨B0, B1, B2, B3, B4, B5, B6, B7, B8, B9, B10, B11, B12, B13, B14, B15, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [B0 B1 B2 B3 B4 B5 B6 B7 B8 B9 B10 B11 B12 B13 B14 B15 HS0 Hg]
      · isplitl [B0 B1 B2 B3 B4 B5 B6 B7 B8 B9 B10 B11 B12 B13 B14 B15 HS0]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          isplitl [B15]; · iexact B15
          unfold owns; iexists _; isplitr
          swap; · iexact HS0
          ipureintro; exact View.read_writes_of_cover _ _ _ _ _ (scover2_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
    · rw [PhiS2_castSucc V c t, PhiS2_pos V c _ _ hz]
      unfold others2
      iintro ⟨⟨⟨B0, B1, B2, B3, B4, B5, B6, B7, B8, B9, B10, B11, B12, B13, B14, B15, HS0⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [B0 B1 B2 B3 B4 B5 B6 B7 B8 B9 B10 B11 B12 B13 B14 B15 HS0 Hg]
      · isplitl [B0 B1 B2 B3 B4 B5 B6 B7 B8 B9 B10 B11 B12 B13 B14 B15 HS0]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          isplitl [B15]; · iexact B15
          unfold owns; iexists _; isplitr
          swap; · iexact HS0
          ipureintro; exact View.read_writes_of_cover _ _ _ _ _ (scover2_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
  · rw [outsAt2_B V c t h0]
    unfold out2_B_4 sout2_B_0; (try dsimp only)
    by_cases hz : t.val = 0
    · exfalso; exact h0 (by rw [hz])
    · rw [PhiS2_castSucc V c t, PhiS2_pos V c _ _ hz]
      unfold others2
      iintro ⟨⟨⟨B0, B1, B2, B3, B4, B5, B6, B7, B8, B9, B10, B11, B12, B13, B14, B15, HS0⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [B0 B1 B2 B3 B4 B5 B6 B7 B8 B9 B10 B11 B12 B13 B14 B15 HS0 Hg]
      · isplitl [B0 B1 B2 B3 B4 B5 B6 B7 B8 B9 B10 B11 B12 B13 B14 B15 HS0]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          isplitl [B15]; · iexact B15
          unfold owns; iexists _; isplitr
          swap; · iexact HS0
          ipureintro; exact View.read_writes_of_cover _ _ _ _ _ (scover2_B_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_B_4 c _ _ _ _ _ _ _ _ _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is what the launch hands over. -/
theorem Phi2_first (c : Dev nD) : (dat2 V c).Φ 0 = Pipeline.ΦA spec2 c := by
  rw [show (dat2 V c).Φ 0 = PhiS2 V c 0 (Nat.zero_le _) from rfl, PhiS2_zero V c 0 _ rfl]

/-- After the last point the invariant gives it back: the scratch's contents are forgotten. -/
theorem Phi2_last (c : Dev nD) : (dat2 V c).Φ (Fin.last _) ⊢ (Pipeline.ΦA spec2 c : sProp 𝕄) := by
  rw [show (dat2 V c).Φ (Fin.last _) = PhiS2 V c (Fin.last cfg2.N).val (Nat.le_of_lt_succ (Fin.last cfg2.N).isLt) from rfl,
    PhiS2_pos V c _ _ (by rw [Fin.val_last]; have : cfg2.N = 64 := N_2; omega), PhiA2_eq]
  unfold others2
  iintro ⟨⟨B0, B1, B2, B3, B4, B5, B6, B7, B8, B9, B10, B11, B12, B13, B14, B15, HS0⟩, Hg⟩
  isplitl [B0 B1 B2 B3 B4 B5 B6 B7 B8 B9 B10 B11 B12 B13 B14 B15 HS0]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    iexists _; iexact HS0
  iexact Hg

end Cert.Kernel.Hand

end
-- ==== Proof.Bits.WholeRun.lean ====
/-
  The whole run of the three-region program: the contents of every unscoped buffer at each boundary between the host
  stretches and the regions, each region entered from what the item before it left, and the run from the launch to
  the return with every unscoped buffer named at the end.
-/
import proofs.«124446_j4818953306342_1_alg».proof.Proof.Bits.Region0Body
import proofs.«124446_j4818953306342_1_alg».proof.Proof.Bits.Region1Body
import proofs.«124446_j4818953306342_1_alg».proof.Proof.Bits.Region2Body
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

abbrev W5 : Dev nD → Valuation τ sig (Elt F) := fun c => StableHlo.after hostOps3 (W4 m c)

/-! ## The proof data, the riders, the host stretches -/

abbrev adm' : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
  | ⟨2, _⟩ => fun c => dat2 (E3 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left at the contents
    after it; its arrays split out of the unscoped buffers and put back at what the pipeline leaves; the generator
    register and the scoped rest into the region's invariant and out; nothing owed; no semaphore of the kernel's own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (E1 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from Phi0_last (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the pipeline leaves; the generator
    register and the scoped rest into the region's invariant and out; nothing owed; no semaphore of the kernel's own. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E2 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what the pipeline leaves; the generator
    register and the scoped rest into the region's invariant and out; nothing owed; no semaphore of the kernel's own. -/
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi2_first (E3 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Phi2_last (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm' (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps3 (W4 m c)) ∗ R c)
        ⊢ iprop(Tₙ m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Bits.Frames.lean ====
/-
  The frame of the three-region program from its whole run: no host stretch writes an argument array and no region may
  change one, so each argument reaches the end as launched.
-/
import proofs.«124446_j4818953306342_1_alg».proof.Proof.Bits.WholeRun
import proofs.«124446_j4818953306342_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer no host stretch writes and no region stages reaches the last boundary as launched. -/
theorem W5_kept (c : Dev nD) (b : Ref sig .tc) (h0 : b ∉ hostOps0_W) (h3 : b ∉ hostOps3_W)
    (hn0 : ∀ w, Pipeline.arrRef spec0 w ≠ b) (hn1 : ∀ w, Pipeline.arrRef spec1 w ≠ b) (hn2 : ∀ w, Pipeline.arrRef spec2 w ≠ b) :
    W5 m c (Proc.devRef .tc b) = m ((c : Thread nD τ).loc b) :=
  ((StableHlo.after_of_writes_sub hostOps3 (W4 m c) hostOps3_writes h3 : W5 m c b = W4 m c b)).trans <|
    (W4_of_ne m c b hn2).trans <| (W3_of_ne m c b hn1).trans <| (W2_of_ne m c b hn0).trans <|
      ((StableHlo.after_of_writes_sub hostOps0 (W0 m c) hostOps0_writes h0 : W1 m c b = W0 m c b)).trans rfl

theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)

/-- Every weakly fair execution terminates, nothing faulting, with the argument arrays as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.Kernel.Hand

end
-- ==== Proof.Spec.lean ====
/-
  The contextual loss as plain mathematics on the extended reals, for feature matrices `A`, `B` indexed by
  (channel, position): the cosine matrix `cos i j = ∑ c, A c i * B c j`, the distance `dist x = max 0 ((1 - x)/2)`, the
  weight of a pair given its row's largest cosine, the row sums of the weights, the column maxima of the normalised
  weights, and the loss `-log (mean of the column maxima)`. The distance is antitone, so the smallest distance in a
  row is the distance of the row's largest cosine; `rowmin` is the reference's arrangement of that number.
-/
import Idealize.ShloMosaic.PureOps.Ideal
import Idealize.ShloMosaic.Lib.ValueIdx

noncomputable section

open scoped BigOperators

namespace Cert.Cx

open Idealize.ShloMosaic

/-- The float literals the two programs share, as the extended reals their f32 patterns denote. -/
abbrev one : EReal := Ideal.ofBits .f32 0x3F800000#32
abbrev half : EReal := Ideal.ofBits .f32 0x3F000000#32
abbrev zero : EReal := Ideal.ofBits .f32 0x00000000#32
abbrev eps : EReal := Ideal.ofBits .f32 0x3727C5AC#32
abbrev count : EReal := Ideal.ofBits .f32 0x46100000#32

/-- The cosine distance of a cosine `x`, clipped below at zero. -/
def dist (x : EReal) : EReal := max zero ((one - x) * half)

/-- The weight of a pair with cosine `x` in a row whose smallest distance is `d`. -/
def wgtOf (x d : EReal) : EReal := Ideal.exp (Ideal.div (one - Ideal.div (dist x) (d + eps)) half)

variable (A B : Fin 256 → Fin 9216 → EReal)

/-- The cosine of position `i` of `A` and position `j` of `B`. -/
def cos (i j : Fin 9216) : EReal := ∑ c : Fin 256, A c i * B c j

/-- The largest cosine in row `i`. -/
def rowmax (i : Fin 9216) : EReal := Finset.univ.sup fun j => cos A B i j

/-- The smallest distance in row `i`, as the reference computes it. -/
def rowmin (i : Fin 9216) : EReal := Finset.univ.inf fun j => dist (cos A B i j)

/-- The weight of the pair `(i, j)`, given row `i`'s largest cosine `rm`. -/
def wgt (rm : Fin 9216 → EReal) (i j : Fin 9216) : EReal := wgtOf (cos A B i j) (dist (rm i))

/-- The sum of row `i`'s weights. -/
def rowsum (rm : Fin 9216 → EReal) (i : Fin 9216) : EReal := ∑ j : Fin 9216, wgt A B rm i j

/-- The largest normalised weight in column `j`. -/
def colmax (rm rs : Fin 9216 → EReal) (j : Fin 9216) : EReal :=
  Finset.univ.sup fun i => Ideal.div (wgt A B rm i j) (rs i)

/-- The loss from the column maxima: minus the logarithm of their mean. -/
def lossOf (cm : Fin 9216 → EReal) : EReal := -(Ideal.log (Ideal.div (zero + ∑ j : Fin 9216, cm j) count))

/-- The kernel's arrangement: three passes, each over the result of the one before. -/
def loss : EReal :=
  lossOf (colmax A B (rowmax A B) (rowsum A B (rowmax A B)))

/-- A [256, 9216] array read as a matrix of (channel, position), and a [9216, 1] column read as a vector. -/
def matOf (a : (⟨2, ![256, 9216]⟩ : Shape).Idx → EReal) : Fin 256 → Fin 9216 → EReal := fun c s => a (ValueIdx.ix2 c s)
def colOf (v : (⟨2, ![9216, 1]⟩ : Shape).Idx → EReal) : Fin 9216 → EReal := fun i => v (ValueIdx.ix2 i 0)

end Cert.Cx

end
-- ==== Proof.MinMax.lean ====
/-
  The order facts behind the two arrangements of the contextual loss. The cosine distance
  `dist x = max 0 ((1 - x) / 2)` is antitone on the extended reals: `x ↦ 1 - x` reverses the order, multiplying
  by the non-negative constant one half keeps it, and so does taking the maximum with zero. An antitone map of a
  linear order sends the largest of finitely many (at least one) values to the smallest of their images, so the
  smallest distance in a row is the distance of the row's largest cosine.
-/
import proofs.«124446_j4818953306342_1_alg».proof.Proof.Spec

noncomputable section

open scoped BigOperators

namespace Cert.RefSide

open Idealize.ShloMosaic

/-- The f32 pattern `0x3F000000` is the real one half. -/
theorem half_eq : Cx.half = (((1 : ℝ) / 2 : ℝ) : EReal) := by
  show Ideal.ofBits .f32 0x3F000000#32 = _
  simp [Ideal.ofBits, Ideal.ieee, -EReal.coe_mul]; norm_num

/-- One half is not negative. -/
theorem half_nonneg : (0 : EReal) ≤ Cx.half := by
  rw [half_eq]; exact EReal.coe_nonneg.mpr (by norm_num)

/-- The cosine distance reverses the order. -/
theorem dist_antitone : Antitone Cx.dist := by
  intro x y hxy
  unfold Cx.dist
  exact max_le_max le_rfl (mul_le_mul_of_nonneg_right (EReal.sub_le_sub le_rfl hxy) half_nonneg)

/-- An antitone map sends the largest of finitely many (at least one) extended reals to the smallest image. -/
theorem inf_antitone_eq {ι : Type*} [Fintype ι] [Nonempty ι] {g : EReal → EReal} (hg : Antitone g) (f : ι → EReal) :
    (Finset.univ.inf fun j => g (f j)) = g (Finset.univ.sup f) := by
  apply le_antisymm
  · obtain ⟨j, -, hj⟩ := Finset.exists_mem_eq_sup Finset.univ Finset.univ_nonempty f
    rw [hj]; exact Finset.inf_le (Finset.mem_univ j)
  · exact Finset.le_inf fun j _ => hg (Finset.le_sup (Finset.mem_univ j))

/-- The smallest distance among finitely many cosines is the distance of the largest cosine. -/
theorem inf_dist_eq_dist_sup {ι : Type*} [Fintype ι] [Nonempty ι] (f : ι → EReal) :
    (Finset.univ.inf fun j => Cx.dist (f j)) = Cx.dist (Finset.univ.sup f) :=
  inf_antitone_eq dist_antitone f

/-- Row by row: the reference's smallest distance is the distance of the largest cosine. -/
theorem rowmin_eq (A B : Fin 256 → Fin 9216 → EReal) (i : Fin 9216) :
    Cx.rowmin A B i = Cx.dist (Cx.rowmax A B i) := by
  unfold Cx.rowmin Cx.rowmax
  exact inf_dist_eq_dist_sup fun j => Cx.cos A B i j

end Cert.RefSide

end
-- ==== Proof.HostFolds.lean ====
/-
  The host's two order reductions of the [1, 9216, 9216] matrix, read at an index. A reduce with a minimum body from
  +∞ over the last axis is, at row `i`, the infimum over the columns of the row's entries; a reduce with a maximum body
  from −∞ over the middle axis is, at column `j`, the supremum over the rows of the column's entries. Both are the fold
  of a commutative, associative operation from its neutral element, which is how the infimum and the supremum of a
  finite family are defined.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefSide

open Idealize.ShloMosaic Idealize.ShloMosaic.ValueIdx

/-- The f32 pattern of +∞ is the top of the extended reals. -/
theorem ofBits_posInf_f32 : Ideal.ofBits .f32 0x7F800000#32 = (⊤ : EReal) := by simp [Ideal.ofBits, Ideal.ieee]

/-- The f32 pattern of −∞ is the bottom of the extended reals. -/
theorem ofBits_negInf_f32 : Ideal.ofBits .f32 0xFF800000#32 = (⊥ : EReal) := by simp [Ideal.ofBits, Ideal.ieee]

/-- Folding the minimum from the top over a finite family is its infimum. -/
theorem fold_min_top {ι : Type*} (s : Finset ι) (g : ι → EReal) : s.fold min ⊤ g = s.inf g := by
  classical
  refine Finset.induction_on s rfl ?_
  intro a s ha ih
  rw [Finset.fold_insert ha, Finset.inf_insert, ih]

/-- Folding the maximum from the bottom over a finite family is its supremum. -/
theorem fold_max_bot {ι : Type*} (s : Finset ι) (g : ι → EReal) : s.fold max ⊥ g = s.sup g := by
  classical
  refine Finset.induction_on s rfl ?_
  intro a s ha ih
  rw [Finset.fold_insert ha, Finset.sup_insert, ih]

/-- Row `i` with column `k` put back is the entry (0, i, k). -/
private theorem lift_last (h : (⟨3, ![1, 9216, 9216]⟩ : Shape).Reduces [2] (⟨2, ![1, 9216]⟩ : Shape)) (i : Fin 9216)
    (k : Fin ((⟨3, ![1, 9216, 9216]⟩ : Shape).size 2)) :
    h.lift (ix2 (0 : Fin 1) i) k = ix3 (0 : Fin 1) i (⟨k.val, k.isLt⟩ : Fin 9216) := by
  funext c; apply Fin.ext
  fin_cases c <;> rfl

/-- Column `j` with row `k` put back is the entry (0, k, j). -/
private theorem lift_mid (h : (⟨3, ![1, 9216, 9216]⟩ : Shape).Reduces [1] (⟨2, ![1, 9216]⟩ : Shape)) (j : Fin 9216)
    (k : Fin ((⟨3, ![1, 9216, 9216]⟩ : Shape).size 1)) :
    h.lift (ix2 (0 : Fin 1) j) k = ix3 (0 : Fin 1) (⟨k.val, k.isLt⟩ : Fin 9216) j := by
  funext c; apply Fin.ext
  fin_cases c <;> rfl

/-- From +∞ the host's reduce with a minimum body over the last axis, at row `i`, is the infimum of the row. -/
theorem hostReduce_min_last (x : FVec Ideal ⟨3, ![1, 9216, 9216]⟩ .f32) (init : FVec Ideal ⟨0, ![]⟩ .f32)
    (hinit : ∀ j, init j = (⊤ : EReal))
    (h' : (⟨3, ![1, 9216, 9216]⟩ : Shape).ReducesTo [2] (⟨2, ![1, 9216]⟩ : Shape)) (hu : 0 < (⟨0, ![]⟩ : Shape).numel)
    (i : Fin 9216) :
    Host.reduce FloatOps.minimumf x init h' hu (ix2 (0 : Fin 1) i)
      = Finset.univ.inf fun j : Fin 9216 => x (ix3 (0 : Fin 1) i j) := by
  have h : (⟨3, ![1, 9216, 9216]⟩ : Shape).Reduces [2] (⟨2, ![1, 9216]⟩ : Shape) := by decide
  rw [Host.reduce_eq_fold_single FloatOps.minimumf x _ h' h hu, hinit, ← fold_min_top]
  have hf : (x ∘ h.lift (ix2 (0 : Fin 1) i)) = fun k : Fin 9216 => x (ix3 (0 : Fin 1) i k) :=
    funext fun k => congrArg x (lift_last h i k)
  exact congrArg (fun f => Finset.fold min (⊤ : EReal) f (Finset.univ : Finset (Fin 9216))) hf

/-- From −∞ the host's reduce with a maximum body over the middle axis, at column `j`, is the supremum of the column. -/
theorem hostReduce_max_mid (x : FVec Ideal ⟨3, ![1, 9216, 9216]⟩ .f32) (init : FVec Ideal ⟨0, ![]⟩ .f32)
    (hinit : ∀ j, init j = (⊥ : EReal))
    (h' : (⟨3, ![1, 9216, 9216]⟩ : Shape).ReducesTo [1] (⟨2, ![1, 9216]⟩ : Shape)) (hu : 0 < (⟨0, ![]⟩ : Shape).numel)
    (j : Fin 9216) :
    Host.reduce FloatOps.maximumf x init h' hu (ix2 (0 : Fin 1) j)
      = Finset.univ.sup fun i : Fin 9216 => x (ix3 (0 : Fin 1) i j) := by
  have h : (⟨3, ![1, 9216, 9216]⟩ : Shape).Reduces [1] (⟨2, ![1, 9216]⟩ : Shape) := by decide
  rw [Host.reduce_eq_fold_single FloatOps.maximumf x _ h' h hu, hinit, ← fold_max_bot]
  have hf : (x ∘ h.lift (ix2 (0 : Fin 1) j)) = fun k : Fin 9216 => x (ix3 (0 : Fin 1) k j) :=
    funext fun k => congrArg x (lift_mid h j k)
  exact congrArg (fun f => Finset.fold max (⊥ : EReal) f (Finset.univ : Finset (Fin 9216))) hf

end Cert.RefSide

end
-- ==== Proof.RefLoss.lean ====
/-
  The reference's result, read operation by operation, is the contextual loss of the specification. With `A`, `B` the
  two normalised feature matrices (channel by position), the product of the transposed `A` with `B` is the cosine
  matrix; one minus it, halved and clipped at zero, the distance; the minimum-reduce of a row its smallest distance,
  which is the distance of the row's largest cosine because the distance reverses the order; the exponential weights,
  their row sums, the normalised weights' column maxima and minus the logarithm of their mean follow pointwise. The
  last mean is over one element: a sum over a singleton from zero, divided by one.
-/
import proofs.«124446_j4818953306342_1_alg».proof.Proof.Gen.ReferenceIdeal.Read
import proofs.«124446_j4818953306342_1_alg».proof.Proof.Spec
import proofs.«124446_j4818953306342_1_alg».proof.Proof.MinMax
import proofs.«124446_j4818953306342_1_alg».proof.Proof.HostFolds
import Idealize.ShloMosaic.Lib.IdealHost

noncomputable section

open scoped BigOperators

namespace Cert.RefSide

open Idealize.ShloMosaic Idealize.ShloMosaic.ValueIdx Cert.ReferenceIdeal Cert.ReferenceIdeal.Gen Cert.ReferenceIdeal.Read

variable (x0 x1 : (⟨Cert.ReferenceIdeal.S1x256x96x96, .f32⟩ : BufTy).Contents (Elt Ideal))

/-- The first feature matrix: channel `c` at position `s` of the first normalised, flattened input. -/
def featA : Fin 256 → Fin 9216 → EReal := fun c s => val_main_v18 (F := Ideal) x0 x1 (ix3 (0 : Fin 1) c s)

/-- The second feature matrix, likewise. -/
def featB : Fin 256 → Fin 9216 → EReal := fun c s => val_main_v19 (F := Ideal) x1 (ix3 (0 : Fin 1) c s)

/-- The product's entry (i, j) is the cosine of position `i` of `A` and position `j` of `B`. -/
theorem cos_at (i j : Fin 9216) :
    val_main_v20 (F := Ideal) x0 x1 (ix3 (0 : Fin 1) i j) = Cx.cos (featA x0 x1) (featB x1) i j := by
  rw [val_main_v20_apply]
  unfold Cx.cos featA featB
  refine Finset.sum_congr rfl fun k _ => ?_
  have el : lidx_main_v20 (ix3 (0 : Fin 1) i j) k = ix3 (0 : Fin 1) k i :=
    funext fun a => Fin.ext (by match a with | ⟨0, _⟩ => rfl | ⟨1, _⟩ => rfl | ⟨2, _⟩ => rfl)
  have er : ridx_main_v20 (ix3 (0 : Fin 1) i j) k = ix3 (0 : Fin 1) k j :=
    funext fun a => Fin.ext (by match a with | ⟨0, _⟩ => rfl | ⟨1, _⟩ => rfl | ⟨2, _⟩ => rfl)
  rw [el, er]

/-- The clipped entry (i, j) is the distance of that cosine. -/
theorem dist_at (i j : Fin 9216) :
    val_main_v25 (F := Ideal) x0 x1 (ix3 (0 : Fin 1) i j) = Cx.dist (Cx.cos (featA x0 x1) (featB x1) i j) := by
  rw [val_main_v25_apply, val_main_call2_v1_apply, val_main_call2_v0_apply, val_main_cst_5_apply, val_main_v24_apply,
    val_main_v22_apply, val_main_v21_apply, val_main_cst_3_apply, val_main_v23_apply, val_main_cst_4_apply, cos_at]
  rfl

/-- The minimum-reduce of row `i` is the distance of the row's largest cosine. -/
theorem rowmin_at (i : Fin 9216) :
    val_main_v26 (F := Ideal) x0 x1 (ix2 (0 : Fin 1) i) = Cx.dist (Cx.rowmax (featA x0 x1) (featB x1) i) := by
  unfold val_main_v26
  refine (hostReduce_min_last (val_main_v25 (F := Ideal) x0 x1) (val_main_cst_6 (F := Ideal))
    (fun j => (val_main_cst_6_apply (F := Ideal) j).trans ofBits_posInf_f32) reducesTo_S1x9216x9216_S1x9216_d2 h_S_ i).trans ?_
  rw [← rowmin_eq]
  unfold Cx.rowmin
  exact congrArg (fun f => Finset.univ.inf f) (funext fun j => dist_at x0 x1 i j)

/-- The exponential's entry (i, j) is the weight of the pair given the row's largest cosine. -/
theorem wgt_at (i j : Fin 9216) :
    val_main_v36 (F := Ideal) x0 x1 (ix3 (0 : Fin 1) i j)
      = Cx.wgt (featA x0 x1) (featB x1) (Cx.rowmax (featA x0 x1) (featB x1)) i j := by
  have e : idx_main_v27 (idx_main_v30 (ix3 (0 : Fin 1) i j)) = ix2 (0 : Fin 1) i :=
    funext fun a => Fin.ext (by match a with | ⟨0, _⟩ => rfl | ⟨1, _⟩ => rfl)
  rw [val_main_v36_apply, val_main_v35_apply, val_main_v33_apply, val_main_v32_apply, val_main_cst_8_apply,
    val_main_v31_apply, dist_at, val_main_v30_apply, val_main_v29_apply, val_main_v27_apply, e, rowmin_at,
    val_main_v28_apply, val_main_cst_7_apply, val_main_v34_apply, val_main_cst_9_apply]
  rfl

/-- The sum of row `i` of the weights, from zero. -/
theorem rowsum_at (i : Fin 9216) :
    val_main_v37 (F := Ideal) x0 x1 (ix2 (0 : Fin 1) i)
      = Cx.rowsum (featA x0 x1) (featB x1) (Cx.rowmax (featA x0 x1) (featB x1)) i := by
  rw [val_main_v37_apply, val_main_cst_10_apply]
  show Ideal.ofBits .f32 0x00000000#32 + _ = _
  rw [Ideal.ofBits_zero_f32, zero_add]
  unfold Cx.rowsum
  refine Finset.sum_congr rfl fun k _ => ?_
  have e : idx_main_v37 (ix2 (0 : Fin 1) i) k = ix3 (0 : Fin 1) i k :=
    funext fun a => Fin.ext (by match a with | ⟨0, _⟩ => rfl | ⟨1, _⟩ => rfl | ⟨2, _⟩ => rfl)
  rw [e, wgt_at]

/-- The normalised weight of the pair (i, j). -/
theorem normalised_at (i j : Fin 9216) :
    val_main_v40 (F := Ideal) x0 x1 (ix3 (0 : Fin 1) i j)
      = Ideal.div (Cx.wgt (featA x0 x1) (featB x1) (Cx.rowmax (featA x0 x1) (featB x1)) i j)
          (Cx.rowsum (featA x0 x1) (featB x1) (Cx.rowmax (featA x0 x1) (featB x1)) i) := by
  have e : idx_main_v38 (idx_main_v39 (ix3 (0 : Fin 1) i j)) = ix2 (0 : Fin 1) i :=
    funext fun a => Fin.ext (by match a with | ⟨0, _⟩ => rfl | ⟨1, _⟩ => rfl)
  rw [val_main_v40_apply, wgt_at, val_main_v39_apply, val_main_v38_apply, e, rowsum_at]
  rfl

/-- The maximum-reduce of column `j` is the largest normalised weight in the column. -/
theorem colmax_at (j : Fin 9216) :
    val_main_v41 (F := Ideal) x0 x1 (ix2 (0 : Fin 1) j)
      = Cx.colmax (featA x0 x1) (featB x1) (Cx.rowmax (featA x0 x1) (featB x1))
          (Cx.rowsum (featA x0 x1) (featB x1) (Cx.rowmax (featA x0 x1) (featB x1))) j := by
  unfold val_main_v41
  refine (hostReduce_max_mid (val_main_v40 (F := Ideal) x0 x1) (val_main_cst_11 (F := Ideal))
    (fun j => (val_main_cst_11_apply (F := Ideal) j).trans ofBits_negInf_f32) reducesTo_S1x9216x9216_S1x9216_d1 h_S_ j).trans ?_
  unfold Cx.colmax
  exact congrArg (fun f => Finset.univ.sup f) (funext fun i => normalised_at x0 x1 i j)

/-- Minus the logarithm of the column maxima's mean. -/
theorem negLog_at :
    val_main_v46 (F := Ideal) x0 x1 (ix1 (0 : Fin 1)) = Cx.loss (featA x0 x1) (featB x1) := by
  rw [val_main_v46_apply, val_main_v45_apply, val_main_v44_apply, val_main_v42_apply, val_main_cst_12_apply,
    val_main_v43_apply, val_main_cst_13_apply]
  have hs : ∑ k : Fin 9216, val_main_v41 (F := Ideal) x0 x1 (idx_main_v42 (ix1 (0 : Fin 1)) k)
      = ∑ k : Fin 9216, Cx.colmax (featA x0 x1) (featB x1) (Cx.rowmax (featA x0 x1) (featB x1))
          (Cx.rowsum (featA x0 x1) (featB x1) (Cx.rowmax (featA x0 x1) (featB x1))) k :=
    Finset.sum_congr rfl fun k _ => by
      rw [show idx_main_v42 (ix1 (0 : Fin 1)) k = ix2 (0 : Fin 1) k from
        funext fun a => Fin.ext (by match a with | ⟨0, _⟩ => rfl | ⟨1, _⟩ => rfl), colmax_at]
  rw [hs]
  rfl

/-- The reference's result is the contextual loss of the two feature matrices. -/
theorem ref_result :
    val_main_v48 (F := Ideal) x0 x1 = fun _ => Cx.loss (featA x0 x1) (featB x1) := by
  funext i
  rw [val_main_v48_apply, val_main_v47_apply, val_main_cst_14_apply, val_main_cst_15_apply]
  have hs : ∑ j : S1.Idx, val_main_v46 (F := Ideal) x0 x1 j = val_main_v46 (F := Ideal) x0 x1 (ix1 (0 : Fin 1)) :=
    Fintype.sum_eq_single (ix1 (0 : Fin 1)) fun j hj =>
      absurd ((eq_ix1 j).trans (congrArg ix1 (Fin.ext (Nat.lt_one_iff.mp (show (j 0).val < 1 from (j 0).isLt))))) hj
  rw [hs, negLog_at]
  show Ideal.div (Ideal.ofBits .f32 0x00000000#32 + _) (Ideal.ofBits .f32 0x3F800000#32) = _
  rw [Ideal.ofBits_zero_f32, zero_add, Ideal.ofBits_one_f32]
  unfold Ideal.div
  rw [if_neg one_ne_zero, inv_one, mul_one]

end Cert.RefSide

end
-- ==== Proof.Flatten.lean ====
/-
  Flattening the [1, 256, 96, 96] array of features to (channel, position). Position `s` of channel `c` is the entry
  (0, c, s / 96, s % 96), whether the array is flattened in one step to [1, 256, 9216] or in two steps through
  [256, 96, 96] to [256, 9216]: a reshape keeps the row-major position, and all three positions are
  (c * 96 + s / 96) * 96 + s % 96 = c * 9216 + s.
-/
import Idealize.ShloMosaic.Lib.Pipeline.Value
import Idealize.ShloMosaic.Lib.ValueIdx

namespace Cert.RefSide

open Idealize.ShloMosaic Idealize.ShloMosaic.ValueIdx

/-- The entry of the four-axis array that is position `s` of channel `c`. -/
def cell (c : Fin 256) (s : Fin 9216) : (⟨4, ![1, 256, 96, 96]⟩ : Shape).Idx :=
  ix4 (0 : Fin 1) c (⟨s.val / 96, by have := s.isLt; omega⟩ : Fin 96) (⟨s.val % 96, Nat.mod_lt _ (by norm_num)⟩ : Fin 96)

/-- Flattened in one step, position `s` of channel `c` is that entry. -/
theorem flatten_one {α : Type} (y : (⟨4, ![1, 256, 96, 96]⟩ : Shape).Idx → α)
    (h : (⟨4, ![1, 256, 96, 96]⟩ : Shape).ShapeCasts (⟨3, ![1, 256, 9216]⟩ : Shape)) (c : Fin 256) (s : Fin 9216) :
    shapeCast (⟨3, ![1, 256, 9216]⟩ : Shape) y h (ix3 (0 : Fin 1) c s) = y (cell c s) := by
  refine shapeCast_apply y h _ _ ?_
  rw [Shape.rowMajor_val_four, Shape.rowMajor_val_three]
  have hs := s.isLt
  show ((0 * 256 + c.val) * 96 + s.val / 96) * 96 + s.val % 96 = (0 * 256 + c.val) * 9216 + s.val
  omega

/-- Flattened in two steps, position `s` of channel `c` is the same entry. -/
theorem flatten_two {α : Type} (y : (⟨4, ![1, 256, 96, 96]⟩ : Shape).Idx → α)
    (h1 : (⟨4, ![1, 256, 96, 96]⟩ : Shape).ShapeCasts (⟨3, ![256, 96, 96]⟩ : Shape))
    (h2 : (⟨3, ![256, 96, 96]⟩ : Shape).ShapeCasts (⟨2, ![256, 9216]⟩ : Shape)) (c : Fin 256) (s : Fin 9216) :
    shapeCast (⟨2, ![256, 9216]⟩ : Shape) (shapeCast (⟨3, ![256, 96, 96]⟩ : Shape) y h1) h2 (ix2 c s) = y (cell c s) := by
  have hs := s.isLt
  refine (shapeCast_apply _ h2 (ix2 c s)
    (ix3 c (⟨s.val / 96, by omega⟩ : Fin 96) (⟨s.val % 96, Nat.mod_lt _ (by norm_num)⟩ : Fin 96)) ?_).trans ?_
  · rw [Shape.rowMajor_val_three, Shape.rowMajor_val_two]
    show (c.val * 96 + s.val / 96) * 96 + s.val % 96 = c.val * 9216 + s.val
    omega
  · refine shapeCast_apply y h1 _ _ ?_
    rw [Shape.rowMajor_val_four, Shape.rowMajor_val_three]
    show ((0 * 256 + c.val) * 96 + s.val / 96) * 96 + s.val % 96 = (c.val * 96 + s.val / 96) * 96 + s.val % 96
    omega

/-- The two flattenings agree entry by entry. -/
theorem flatten_two_eq_one {α : Type} (y : (⟨4, ![1, 256, 96, 96]⟩ : Shape).Idx → α)
    (h1 : (⟨4, ![1, 256, 96, 96]⟩ : Shape).ShapeCasts (⟨3, ![256, 96, 96]⟩ : Shape))
    (h2 : (⟨3, ![256, 96, 96]⟩ : Shape).ShapeCasts (⟨2, ![256, 9216]⟩ : Shape))
    (h : (⟨4, ![1, 256, 96, 96]⟩ : Shape).ShapeCasts (⟨3, ![1, 256, 9216]⟩ : Shape)) (c : Fin 256) (s : Fin 9216) :
    shapeCast (⟨2, ![256, 9216]⟩ : Shape) (shapeCast (⟨3, ![256, 96, 96]⟩ : Shape) y h1) h2 (ix2 c s)
      = shapeCast (⟨3, ![1, 256, 9216]⟩ : Shape) y h (ix3 (0 : Fin 1) c s) :=
  (flatten_two y h1 h2 c s).trans (flatten_one y h c s).symm

end Cert.RefSide
-- ==== Proof.HostSides.lean ====
/-
  The two stretches of plain array operations around the three passes, at the ideal values. Before the passes the
  inputs are centred by the mean of the second input, divided by their norms along the channels (clipped below) and
  flattened to (channel, position); these are the same operations, in the same order, as the reference applies
  before its product, except that the flattening goes through [256, 96, 96] to [256, 9216] instead of directly to
  [1, 256, 9216], and that the result is converted to a narrower format, which changes nothing at the ideal values.
  Either way position `s` of channel `c` is the entry (0, c, s / 96, s % 96) of the normalised array. After the passes
  the column maxima are summed from zero, divided by their number, and minus the logarithm is taken.
-/
import proofs.«124446_j4818953306342_1_alg».proof.Proof.Gen.KernelIdeal.Launch
import proofs.«124446_j4818953306342_1_alg».proof.Proof.RefLoss
import proofs.«124446_j4818953306342_1_alg».proof.Proof.Spec
import proofs.«124446_j4818953306342_1_alg».proof.Proof.Flatten
import Idealize.ShloMosaic.Lib.StableHlo.Run

noncomputable section

open scoped BigOperators

namespace Cert.KernelIdeal.HostSide

open Cert.KernelIdeal Cert.KernelIdeal.Gen Idealize.ShloMosaic Idealize.ShloMosaic.TcCoe Idealize.ShloMosaic.StableHlo
  Idealize.ShloMosaic.ValueIdx

variable (W : Valuation τ sig (Elt Ideal))

/-- The first input as the operations find it. -/
abbrev arg0 : (⟨Cert.ReferenceIdeal.S1x256x96x96, .f32⟩ : BufTy).Contents (Elt Ideal) := W (Proc.devRef .tc main_arg0)

/-- The second input as the operations find it. -/
abbrev arg1 : (⟨Cert.ReferenceIdeal.S1x256x96x96, .f32⟩ : BufTy).Contents (Elt Ideal) := W (Proc.devRef .tc main_arg1)

set_option maxRecDepth 8192 in
set_option maxHeartbeats 2000000 in
/-- The first feature array is the normalised first input flattened in two steps. -/
theorem Iv_term :
    StableHlo.after (hostOps0 (F := Ideal)) W (Proc.devRef .tc main_v26)
      = fun i => shapeCast S256x9216 (shapeCast S256x96x96
          (Cert.ReferenceIdeal.Read.val_main_v12 (F := Ideal) (arg0 W) (arg1 W))
          shapeCasts_S1x256x96x96_S256x96x96) shapeCasts_S256x96x96_S256x9216 i := by
  after_results_simp
  rfl

set_option maxRecDepth 8192 in
set_option maxHeartbeats 2000000 in
/-- The second feature array is the normalised second input flattened in two steps. -/
theorem Tv_term :
    StableHlo.after (hostOps0 (F := Ideal)) W (Proc.devRef .tc main_v29)
      = fun i => shapeCast S256x9216 (shapeCast S256x96x96
          (Cert.ReferenceIdeal.Read.val_main_v17 (F := Ideal) (arg1 W))
          shapeCasts_S1x256x96x96_S256x96x96) shapeCasts_S256x96x96_S256x9216 i := by
  after_results_simp
  rfl

/-- Read as a matrix of (channel, position), the first feature array is the reference's first feature matrix. -/
theorem pre_Iv :
    Cx.matOf (StableHlo.after (hostOps0 (F := Ideal)) W (Proc.devRef .tc main_v26))
      = Cert.RefSide.featA (arg0 W) (arg1 W) := by
  funext c s
  unfold Cx.matOf
  rw [Iv_term]
  exact Cert.RefSide.flatten_two_eq_one _ _ _ Cert.ReferenceIdeal.Gen.shapeCasts_S1x256x96x96_S1x256x9216 c s

/-- Likewise the second feature array is the reference's second feature matrix. -/
theorem pre_Tv :
    Cx.matOf (StableHlo.after (hostOps0 (F := Ideal)) W (Proc.devRef .tc main_v29))
      = Cert.RefSide.featB (arg1 W) := by
  funext c s
  unfold Cx.matOf
  rw [Tv_term]
  exact Cert.RefSide.flatten_two_eq_one _ _ _ Cert.ReferenceIdeal.Gen.shapeCasts_S1x256x96x96_S1x256x9216 c s

/-- Minus the logarithm of the mean of a [1, 9216] array's entries, summed from zero. -/
theorem negLogMean_apply (x : FVec Ideal S1x9216 .f32) (i : S_.Idx) :
    Host.negf (Host.log (Host.divf (Host.reduceAdd x (constant (F := Ideal) S_ .f32 0x00000000#32) reducesTo_S1x9216_S_d0_1 h_S_)
        (constant (F := Ideal) S_ .f32 0x46100000#32))) i
      = Cx.lossOf fun j => x (ix2 (0 : Fin 1) j) := by
  have hsum : Host.reduceAdd x (constant (F := Ideal) S_ .f32 0x00000000#32) reducesTo_S1x9216_S_d0_1 h_S_ i
      = Cx.zero + ∑ j : Fin 9216, x (ix2 (0 : Fin 1) j) := by
    simp only [Host.reduceAdd, Ideal.hostReduceAdd_def]
    rw [Ideal.hostReduceAdd_total reducesTo_S1x9216_S_d0_1 (fun b => b.elim0), sum_idx2, Fin.sum_univ_one]
    rfl
  show -(Ideal.log (Ideal.div (Host.reduceAdd x (constant (F := Ideal) S_ .f32 0x00000000#32) reducesTo_S1x9216_S_d0_1 h_S_ i)
    (Ideal.ofBits .f32 0x46100000#32))) = _
  rw [hsum]
  rfl

/-- The last stretch turns the column maxima into the loss. -/
theorem tail_loss :
    StableHlo.after (hostOps3 (F := Ideal)) W (Proc.devRef .tc main_v36)
      = fun _ => Cx.lossOf (fun j => (W (Proc.devRef .tc main_v32) : S1x9216.Idx → EReal) (ix2 (0 : Fin 1) j)) := by
  have e : StableHlo.after (hostOps3 (F := Ideal)) W (Proc.devRef .tc main_v36)
      = Host.negf (Host.log (Host.divf (Host.reduceAdd (W (Proc.devRef .tc main_v32) : FVec Ideal S1x9216 .f32)
          (constant (F := Ideal) S_ .f32 0x00000000#32) reducesTo_S1x9216_S_d0_1 h_S_)
          (constant (F := Ideal) S_ .f32 0x46100000#32))) := by
    after_results
  rw [e]
  funext i
  exact negLogMean_apply _ i

end Cert.KernelIdeal.HostSide

end
-- ==== Proof.LibWholeStore.lean ====
/-
  A buffer stored whole several times, then read whole.

  A body that keeps an accumulator in a buffer stores the whole buffer, reads it back, stores it again, and so on.
  What a load through the whole-buffer rectangle reads, after any list of stores whose LAST one went through that same
  rectangle, is that last store's value: the earlier stores are all overwritten.  (The one-store case is the library's.)
-/
import Idealize.ShloMosaic.Lib.Pipeline.Value
import Idealize.ShloMosaic.Lib.Pipeline.FrameBody

noncomputable section

namespace Cert.LibWholeStore

open Idealize.ShloMosaic

/-- The offset of a whole-buffer rectangle of rank two, spelt as a literal pair, is the zero offset. -/
theorem zero_pair : (![0, 0] : Fin 2 → Nat) = fun _ => 0 := funext fun a => by fin_cases a <;> rfl

/-- A load through the whole-buffer rectangle, after a list of stores whose LAST one went through the same rectangle,
    reads that last store's value, whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

end Cert.LibWholeStore

end
-- ==== Proof.Region0Pieces.lean ====
/-
  Region 0: what each case of the body leaves, as the kernel's own arithmetic. After a first column tile the scratch
  and the output block hold the accumulation step applied to the reset value; after a later one, the step applied to
  what the scratch held.
-/
import proofs.«124446_j4818953306342_1_alg».proof.Proof.Region0Body
import proofs.«124446_j4818953306342_1_alg».proof.Proof.LibWholeStore
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert

theorem sout0_B_0_eq (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) :
    sout0_B_0 c i arg2 harg2 arg3 harg3 arg4 harg4 arg5 harg5 hc0 x0 x1 xs0 = k0_pay2 x0 x1 xs0 := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg5.read_unread, View.ld_unit_zero (S := S256x1152) LibWholeStore.zero_pair, View.ld_unit_zero (S := S1152x1) LibWholeStore.zero_pair]

theorem out0_B_2_eq (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : ¬cond0_0 i)
    (x0 : Vec F S256x1152 .bf16) (x1 : Vec F S256x1152 .bf16) (xs0 : Vec F S1152x1 .f32) :
    out0_B_2 c i arg2 harg2 arg3 harg3 arg4 harg4 arg5 harg5 hc0 x0 x1 xs0 = k0_pay2 x0 x1 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg5.read_unread, View.ld_unit_zero (S := S256x1152) LibWholeStore.zero_pair, View.ld_unit_zero (S := S1152x1) LibWholeStore.zero_pair]

theorem sout0_A_0_eq (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) :
    sout0_A_0 c i arg2 harg2 arg3 harg3 arg4 harg4 arg5 harg5 hc0 x0 x1 = k0_pay2 x0 x1 k0_pay1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg5.read_unread, View.ld_unit_zero (S := S256x1152) LibWholeStore.zero_pair, View.ld_unit_zero (S := S1152x1) LibWholeStore.zero_pair]

theorem out0_A_2_eq (c : Dev nD) (i : grid0.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (hc0 : cond0_0 i)
    (x0 : Vec F S256x1152 .bf16) (x1 : Vec F S256x1152 .bf16) :
    out0_A_2 c i arg2 harg2 arg3 harg3 arg4 harg4 arg5 harg5 hc0 x0 x1 = k0_pay2 x0 x1 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg5.read_unread, View.ld_unit_zero (S := S256x1152) LibWholeStore.zero_pair, View.ld_unit_zero (S := S1152x1) LibWholeStore.zero_pair]

end Cert.KernelIdeal.Hand

end
-- ==== Proof.TileFolds.lean ====
/-
  Regrouping a reduction over the 9216 positions by tiles of 1152: position `a * 1152 + b` is entry `b` of tile `a`, and
  every position is of this form for exactly one pair (a, b) with `a < 8`, `b < 1152` (quotient and remainder by 1152).
  So a supremum, an infimum or a sum over all positions is the same operation over the eight tiles of the operation
  within each tile — for any commutative, associative operation with a neutral element.
-/
import Idealize.ShloMosaic.PureOps.Ideal

open scoped BigOperators

namespace Cert.RefSide

/-- Entry `b` of tile `a`, as a position. -/
def tile (a : Fin 8) (b : Fin 1152) : Fin 9216 :=
  ⟨a.val * 1152 + b.val, by have := a.isLt; have := b.isLt; omega⟩

@[simp] theorem tile_val (a : Fin 8) (b : Fin 1152) : (tile a b).val = a.val * 1152 + b.val := rfl

/-- Positions are the pairs (tile, entry within the tile). -/
def tileEquiv : Fin 8 × Fin 1152 ≃ Fin 9216 where
  toFun x := tile x.1 x.2
  invFun i := (⟨i.val / 1152, by have := i.isLt; omega⟩, ⟨i.val % 1152, Nat.mod_lt _ (by norm_num)⟩)
  left_inv x := by
    rcases x with ⟨a, b⟩
    have ha := a.isLt
    have hb := b.isLt
    refine Prod.ext (Fin.ext ?_) (Fin.ext ?_)
    · show (a.val * 1152 + b.val) / 1152 = a.val
      omega
    · show (a.val * 1152 + b.val) % 1152 = b.val
      omega
  right_inv i := Fin.ext (by
    show i.val / 1152 * 1152 + i.val % 1152 = i.val
    omega)

@[simp] theorem tileEquiv_apply (a : Fin 8) (b : Fin 1152) : tileEquiv (a, b) = tile a b := rfl

/-- A sum over the positions is the sum over the tiles of the sums within each tile. -/
theorem sum_tiles {M : Type*} [AddCommMonoid M] (f : Fin 9216 → M) :
    ∑ i : Fin 9216, f i = ∑ a : Fin 8, ∑ b : Fin 1152, f (tile a b) := by
  rw [← Fintype.sum_prod_type' (f := fun a b => f (tile a b))]
  exact (Fintype.sum_equiv tileEquiv _ _ fun x => rfl).symm

/-- A supremum over the positions is the supremum over the tiles of the suprema within each tile. -/
theorem sup_tiles {α : Type*} [SemilatticeSup α] [OrderBot α] (f : Fin 9216 → α) :
    Finset.univ.sup f = Finset.univ.sup fun a : Fin 8 => Finset.univ.sup fun b : Fin 1152 => f (tile a b) := by
  rw [← Finset.map_univ_equiv tileEquiv, Finset.sup_map, ← Finset.univ_product_univ, Finset.sup_product_left]
  rfl

/-- An infimum over the positions is the infimum over the tiles of the infima within each tile. -/
theorem inf_tiles {α : Type*} [SemilatticeInf α] [OrderTop α] (f : Fin 9216 → α) :
    Finset.univ.inf f = Finset.univ.inf fun a : Fin 8 => Finset.univ.inf fun b : Fin 1152 => f (tile a b) := by
  rw [← Finset.map_univ_equiv tileEquiv, Finset.inf_map, ← Finset.univ_product_univ, Finset.inf_product_left]
  rfl

end Cert.RefSide
-- ==== Proof.Region0Acc.lean ====
/-
  The running row maximum of the cosine matrix over the column tiles. For a row tile `a` and a row `r` within it, the
  largest cosine of position `a * 1152 + r` against the positions of the column tiles `0 … m`. Over tile 0 alone it is
  the largest entry of that tile's row; one more tile takes the larger of what was there and the new tile's largest
  entry; over all eight tiles it is the largest cosine of the whole row.
-/
import proofs.«124446_j4818953306342_1_alg».proof.Proof.Spec
import proofs.«124446_j4818953306342_1_alg».proof.Proof.TileFolds

noncomputable section

open scoped BigOperators

namespace Cert.KernelIdeal.Hand

open Cert Cert.RefSide

variable (A B : Fin 256 → Fin 9216 → EReal)

/-- The largest cosine of row `r` of row tile `a` within column tile `b`. -/
def tileRowMax0 (a : Fin 8) (b : Fin 8) (r : Fin 1152) : EReal :=
  Finset.univ.sup fun q : Fin 1152 => Cx.cos A B (tile a r) (tile b q)

/-- The largest cosine of that row over the column tiles `0 … m`. -/
def rowMaxUpTo0 (a : Fin 8) (m : ℕ) (r : Fin 1152) : EReal :=
  (Finset.univ.filter fun b : Fin 8 => b.val ≤ m).sup fun b => tileRowMax0 A B a b r

theorem rowMaxUpTo0_zero (a : Fin 8) (r : Fin 1152) : rowMaxUpTo0 A B a 0 r = tileRowMax0 A B a 0 r := by
  unfold rowMaxUpTo0
  rw [show (Finset.univ.filter fun b : Fin 8 => b.val ≤ 0) = {0} from by decide, Finset.sup_singleton]

theorem rowMaxUpTo0_succ (a : Fin 8) (m : ℕ) (hm : m + 1 < 8) (r : Fin 1152) :
    rowMaxUpTo0 A B a (m + 1) r = max (rowMaxUpTo0 A B a m r) (tileRowMax0 A B a ⟨m + 1, hm⟩ r) := by
  unfold rowMaxUpTo0
  have e : (Finset.univ.filter fun b : Fin 8 => b.val ≤ m + 1)
      = insert (⟨m + 1, hm⟩ : Fin 8) (Finset.univ.filter fun b : Fin 8 => b.val ≤ m) := by
    ext b
    simp only [Finset.mem_filter, Finset.mem_univ, true_and, Finset.mem_insert, Fin.ext_iff]
    omega
  rw [e, Finset.sup_insert, max_comm]

theorem rowMaxUpTo0_seven (a : Fin 8) (r : Fin 1152) : rowMaxUpTo0 A B a 7 r = Cx.rowmax A B (tile a r) := by
  unfold rowMaxUpTo0 Cx.rowmax
  rw [show (Finset.univ.filter fun b : Fin 8 => b.val ≤ 7) = Finset.univ from by decide,
    sup_tiles fun j => Cx.cos A B (tile a r) j]
  rfl

end Cert.KernelIdeal.Hand

end
-- ==== Proof.TileDot.lean ====
/-
  The product of two [256, 1152] tiles contracted over their leading (channel) axis, into a zero tile, read at an entry
  on the extended reals: entry (p, q) is the sum over the 256 channels k of x(k, p) · y(k, q).
-/
import proofs.«124446_j4818953306342_1_alg».proof.Proof.Gen.KernelIdeal
import Idealize.ShloMosaic.PureOps.Ideal.Laws
import Idealize.ShloMosaic.Lib.ValueIdx

noncomputable section

namespace Cert.KernelIdeal.Hand

open Cert.KernelIdeal Idealize.ShloMosaic Idealize.ShloMosaic.ValueIdx

theorem tile_dot_lhs0 (i : S1152x1152.Idx) (q : dot_S256x1152_S256x1152_S1152x1152_0_0_1_1_n_n.contr.Idx) :
    (dot_S256x1152_S256x1152_S1152x1152_0_0_1_1_n_n.lhsIdx i q 0).val = (q ⟨0, by decide⟩).val :=
  dot_S256x1152_S256x1152_S1152x1152_0_0_1_1_n_n.lhsIdx_val_of_single rfl i q
theorem tile_dot_lhs1 (i : S1152x1152.Idx) (q : dot_S256x1152_S256x1152_S1152x1152_0_0_1_1_n_n.contr.Idx) :
    (dot_S256x1152_S256x1152_S1152x1152_0_0_1_1_n_n.lhsIdx i q 1).val = (i 0).val := by
  unfold DotDims.lhsIdx
  rw [dif_neg (show ¬(1 : Fin S256x1152.rank) ∈ dot_S256x1152_S256x1152_S1152x1152_0_0_1_1_n_n.lhsBatch by decide), dif_pos (show (1 : Fin S256x1152.rank) ∈ dot_S256x1152_S256x1152_S1152x1152_0_0_1_1_n_n.lhsNonContracting by decide)]
  rfl
theorem tile_dot_rhs0 (i : S1152x1152.Idx) (q : dot_S256x1152_S256x1152_S1152x1152_0_0_1_1_n_n.contr.Idx) :
    (dot_S256x1152_S256x1152_S1152x1152_0_0_1_1_n_n.rhsIdx i q 0).val = (q ⟨0, by decide⟩).val :=
  dot_S256x1152_S256x1152_S1152x1152_0_0_1_1_n_n.rhsIdx_val_of_single rfl i q
theorem tile_dot_rhs1 (i : S1152x1152.Idx) (q : dot_S256x1152_S256x1152_S1152x1152_0_0_1_1_n_n.contr.Idx) :
    (dot_S256x1152_S256x1152_S1152x1152_0_0_1_1_n_n.rhsIdx i q 1).val = (i 1).val := by
  unfold DotDims.rhsIdx
  rw [dif_neg (show ¬(1 : Fin S256x1152.rank) ∈ dot_S256x1152_S256x1152_S1152x1152_0_0_1_1_n_n.rhsBatch by decide), dif_pos (show (1 : Fin S256x1152.rank) ∈ dot_S256x1152_S256x1152_S1152x1152_0_0_1_1_n_n.rhsNonContracting by decide)]
  rfl

/-- Entry (p, q) of the tile product: the sum over the channels. -/
theorem tile_dot_apply (x y : FVec Ideal S256x1152 .bf16) (p q : Fin 1152) :
    matmul dot_S256x1152_S256x1152_S1152x1152_0_0_1_1_n_n none x y (constant S1152x1152 .f32 0x00000000#32) (ix2 p q)
      = ∑ k : Fin 256, x (ix2 k p) * y (ix2 k q) := by
  show FloatOps.matmul dot_S256x1152_S256x1152_S1152x1152_0_0_1_1_n_n none x y (constant S1152x1152 .f32 0x00000000#32) (ix2 p q) = _
  rw [Ideal.matmul_constant_zero_apply, ← Equiv.sum_comp (ValueIdx.contrEquiv1 dot_S256x1152_S256x1152_S1152x1152_0_0_1_1_n_n 256 rfl rfl).symm]
  refine Finset.sum_congr rfl fun k _ => ?_
  have hk := ValueIdx.contrEquiv1_symm_val dot_S256x1152_S256x1152_S1152x1152_0_0_1_1_n_n 256 rfl rfl k
  have el : dot_S256x1152_S256x1152_S1152x1152_0_0_1_1_n_n.lhsIdx (ix2 p q) ((ValueIdx.contrEquiv1 dot_S256x1152_S256x1152_S1152x1152_0_0_1_1_n_n 256 rfl rfl).symm k) = ix2 k p := funext fun a => Fin.ext (by
    match a with
    | ⟨0, _⟩ => exact (tile_dot_lhs0 _ _).trans hk
    | ⟨1, _⟩ => exact tile_dot_lhs1 _ _)
  have er : dot_S256x1152_S256x1152_S1152x1152_0_0_1_1_n_n.rhsIdx (ix2 p q) ((ValueIdx.contrEquiv1 dot_S256x1152_S256x1152_S1152x1152_0_0_1_1_n_n 256 rfl rfl).symm k) = ix2 k q := funext fun a => Fin.ext (by
    match a with
    | ⟨0, _⟩ => exact (tile_dot_rhs0 _ _).trans hk
    | ⟨1, _⟩ => exact tile_dot_rhs1 _ _)
  rw [el, er]

end Cert.KernelIdeal.Hand

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.Region0Value.lean ====
/-
  Region 0 (the row maxima of the cosine matrix) on the extended reals: the array the region leaves. Row
  i = 1152 a + r of the output is written back last at the point of row tile a and column tile 7; by then the scratch
  column holds, at entry r, the largest over the eight column tiles b and the tile's 1152 columns q of the cosine of the
  pair (i, 1152 b + q): the largest cosine of row i over all 9216 columns.
-/
import proofs.«124446_j4818953306342_1_alg».proof.Proof.Region0Pieces
import proofs.«124446_j4818953306342_1_alg».proof.Proof.Region0Acc
import proofs.«124446_j4818953306342_1_alg».proof.Proof.Spec
import proofs.«124446_j4818953306342_1_alg».proof.Proof.TileDot
import proofs.«124446_j4818953306342_1_alg».proof.Proof.LibBcast
import proofs.«124446_j4818953306342_1_alg».proof.Proof.TileFolds
import proofs.«124446_j4818953306342_1_alg».proof.Proof.HostFolds
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

open Cert
open Cert.RefSide (tile tile_val)
open Idealize.ShloMosaic.ValueIdx
open scoped BigOperators

/-! ## The scratch column after each point, as the kernel's own arithmetic -/

section Chain0

variable {F : FTy → Type} [FloatOps F]
variable (V : (c : Dev nD) → (b : Ref sig .tc) → Buf (Elt F) ((c : Thread nD τ).loc b))

/-- What the scratch column holds after point `n`: at a first column tile one accumulation step over the reset value,
    elsewhere one step over what the point before left. -/
def chain0 (c : Dev nD) : (n : ℕ) → n < cfg0.N → Vec F S1152x1 .f32
  | 0, h => k0_pay2 (iblk0 V c 0 ⟨0, h⟩) (iblk0 V c 1 ⟨0, h⟩) k0_pay1
  | n + 1, h =>
    if (n + 1) % 8 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (chain0 c n (Nat.lt_of_succ_lt h))

/-- After every point the output block and the scratch column both hold it: by induction on the point. -/
theorem outsAt0_eq (c : Dev nD) : ∀ (n : ℕ) (h : n < cfg0.N), outsAt0 V c n h = (chain0 V c n h, chain0 V c n h)
  | 0, h => by
    rw [outsAt0_A V c ⟨0, h⟩ rfl, out0_A_2_eq, sout0_A_0_eq]
    rfl
  | n + 1, h => by
    by_cases h0 : (n + 1) % 8 = 0
    · rw [outsAt0_A V c ⟨n + 1, h⟩ h0, out0_A_2_eq, sout0_A_0_eq]
      unfold chain0
      rw [if_pos h0]
    · rw [outsAt0_B V c ⟨n + 1, h⟩ h0, out0_B_2_eq, sout0_B_0_eq]
      unfold chain0
      rw [if_neg h0]
      show (k0_pay2 _ _ (outsAt0 V c n _).2, k0_pay2 _ _ (outsAt0 V c n _).2) = _
      rw [outsAt0_eq c n]

end Chain0

/-! ## The body's arithmetic at an index, on the extended reals -/

section AtIdeal0

/-- The reset value of the scratch column: minus infinity at every row. -/
theorem reset0_apply (r : Fin 1152) : (k0_pay1 (F := Ideal)) (ix2 r 0) = ⊥ := by
  unfold k0_pay1
  simp only [shapeCast_self]
  show FloatOps.ofBits (F := Ideal) .f32 0xFF800000#32 = ⊥
  exact RefSide.ofBits_negInf_f32

/-- The source index of a row reduction of a [1152, 1152] tile: row r, column k. -/
theorem row_lift0 (h : S1152x1152.Reduces [1] S1152) (r : Fin 1152) (k : Fin (S1152x1152.size 1)) :
    h.lift (ix1 r) k = ix2 r k :=
  funext fun a => Fin.ext (by match a with | ⟨0, _⟩ => rfl | ⟨1, _⟩ => rfl)

/-- The row maxima of a [1152, 1152] tile, from minus infinity: at row r the supremum of the row's entries. -/
theorem rowmax_tile0 (v : FVec Ideal S1152x1152 .f32) (h : S1152x1152.Reduces [1] S1152) (hφ : FKind.Formats .f32)
    (hacc : (0xFF800000#32 : BitVec 32) = FKind.maximumf.neutral .f32 hφ) (r : Fin 1152) :
    multiReduction .maximumf [1] S1152 v 0xFF800000#32 h hφ hacc (ix1 r) = Finset.univ.sup fun q : Fin 1152 => v (ix2 r q) := by
  refine (Ideal.multiReduction_maximumf_single v 0xFF800000#32 h hφ hacc (ix1 r)).trans ?_
  rw [show FloatOps.ofBits (F := Ideal) .f32 0xFF800000#32 = (⊥ : EReal) from RefSide.ofBits_negInf_f32]
  refine (RefSide.fold_max_bot _ _).trans ?_
  refine Finset.sup_congr rfl fun q _ => ?_
  show v (h.lift (ix1 r) q) = _
  rw [row_lift0]
  rfl

/-- One accumulation step at a row: the larger of what the scratch held and the row's largest product entry. -/
theorem step0_apply (x0 x1 : FVec Ideal S256x1152 .bf16) (s : FVec Ideal S1152x1 .f32) (r : Fin 1152) :
    k0_pay2 (F := Ideal) x0 x1 s (ix2 r 0)
      = max (s (ix2 r 0)) (Finset.univ.sup fun q : Fin 1152 => ∑ k : Fin 256, x0 (ix2 k r) * x1 (ix2 k q)) := by
  unfold k0_pay2
  simp only [shapeCast_self]
  show max (s (ix2 r 0)) (shapeCast S1152x1 _ shapeCasts_S1152_S1152x1 (ix2 r 0)) = _
  refine congrArg (max (s (ix2 r 0))) ?_
  refine (LibBcast.shapeCast_a_a1_apply (a := 1152) _ shapeCasts_S1152_S1152x1 r 0).trans ?_
  refine (rowmax_tile0 (matmul dot_S256x1152_S256x1152_S1152x1152_0_0_1_1_n_n none x0 x1 (constant (F := Ideal) S1152x1152 .f32 0x00000000#32))
    reduces_S1152x1152_S1152 k0_pay2._proof_2 k0_pay2._proof_3 r).trans ?_
  exact Finset.sup_congr rfl fun q _ => tile_dot_apply x0 x1 r q

/-! ## The grid: which blocks a point reads and writes -/

/-- The printed index maps, decided over the grid: at point `t` the first input's block is column block `t / 8` of
    its array, the second's column block `t % 8`, the output's row block `t / 8`. -/
theorem idx0_facts : ∀ t : Fin cfg0.N, win0_0.index t (0 : Fin 2) = 0 ∧ win0_0.index t (1 : Fin 2) = t.val / 8
    ∧ win0_1.index t (0 : Fin 2) = 0 ∧ win0_1.index t (1 : Fin 2) = t.val % 8
    ∧ win0_2.index t (0 : Fin 2) = t.val / 8 ∧ win0_2.index t (1 : Fin 2) = 0 :=
  (by decide +kernel : ∀ t : Fin grid0.N, _)

/-- The row tile and the column tile of a point. -/
def rt0 (t : Fin cfg0.N) : Fin 8 := ⟨t.val / 8, by have : t.val < 64 := lt_of_lt_of_eq t.isLt N_0; omega⟩
def ct0 (t : Fin cfg0.N) : Fin 8 := ⟨t.val % 8, Nat.mod_lt _ (by norm_num)⟩

variable (V : (c : Dev nD) → (b : Ref sig .tc) → Buf (Elt Ideal) ((c : Thread nD τ).loc b))

/-- The first input's block at point `t` is the columns of row tile `t / 8` of the first feature matrix. -/
theorem iblk0_0_apply (c : Dev nD) (t : Fin cfg0.N) (ch : Fin 256) (r : Fin 1152) :
    (iblk0 V c 0 t : FVec Ideal S256x1152 .bf16) (ix2 ch r) = Cx.matOf (V c main_v26) ch (tile (rt0 t) r) := by
  obtain ⟨e0, e1, -⟩ := idx0_facts t
  unfold iblk0 Cx.matOf
  rw [View.read_apply]
  show V c main_v26 _ = V c main_v26 _
  refine congrArg (V c main_v26) (funext fun a => Fin.ext ?_)
  match a with
  | ⟨0, _⟩ => show win0_0.index t (0 : Fin 2) * 256 + 1 * ch.val = ch.val; rw [e0]; omega
  | ⟨1, _⟩ => show win0_0.index t (1 : Fin 2) * 1152 + 1 * r.val = t.val / 8 * 1152 + r.val; rw [e1]; omega

/-- The second input's block at point `t` is the columns of column tile `t % 8` of the second feature matrix. -/
theorem iblk0_1_apply (c : Dev nD) (t : Fin cfg0.N) (ch : Fin 256) (q : Fin 1152) :
    (iblk0 V c 1 t : FVec Ideal S256x1152 .bf16) (ix2 ch q) = Cx.matOf (V c main_v29) ch (tile (ct0 t) q) := by
  obtain ⟨-, -, e0, e1, -⟩ := idx0_facts t
  unfold iblk0 Cx.matOf
  rw [View.read_apply]
  show V c main_v29 _ = V c main_v29 _
  refine congrArg (V c main_v29) (funext fun a => Fin.ext ?_)
  match a with
  | ⟨0, _⟩ => show win0_1.index t (0 : Fin 2) * 256 + 1 * ch.val = ch.val; rw [e0]; omega
  | ⟨1, _⟩ => show win0_1.index t (1 : Fin 2) * 1152 + 1 * q.val = t.val % 8 * 1152 + q.val; rw [e1]; omega

/-! ## The accumulation, tile by tile -/

/-- One step at point `t`: the larger of what the scratch held at row `r` and the largest cosine of row
    `1152 (t / 8) + r` within column tile `t % 8`. -/
theorem step0_tile (c : Dev nD) (t : Fin cfg0.N) (s : FVec Ideal S1152x1 .f32) (r : Fin 1152) :
    k0_pay2 (F := Ideal) (iblk0 V c 0 t) (iblk0 V c 1 t) s (ix2 r 0)
      = max (s (ix2 r 0)) (tileRowMax0 (Cx.matOf (V c main_v26)) (Cx.matOf (V c main_v29)) (rt0 t) (ct0 t) r) := by
  refine (step0_apply _ _ s r).trans ?_
  refine congrArg (max (s (ix2 r 0))) ?_
  unfold tileRowMax0 Cx.cos
  refine Finset.sup_congr rfl fun q _ => Finset.sum_congr rfl fun ch _ => ?_
  rw [iblk0_0_apply, iblk0_1_apply]

/-- At a first column tile: one step over the reset value leaves the tile's row maxima. -/
theorem step0_first (c : Dev nD) (t : Fin cfg0.N) (h0 : t.val % 8 = 0) (r : Fin 1152) :
    k0_pay2 (F := Ideal) (iblk0 V c 0 t) (iblk0 V c 1 t) (k0_pay1 (F := Ideal)) (ix2 r 0)
      = rowMaxUpTo0 (Cx.matOf (V c main_v26)) (Cx.matOf (V c main_v29)) (rt0 t) (t.val % 8) r := by
  refine (step0_tile V c t (k0_pay1 (F := Ideal)) r).trans ?_
  rw [reset0_apply, max_eq_right bot_le, h0, rowMaxUpTo0_zero, show ct0 t = 0 from Fin.ext h0]

/-- At a later column tile: one step over the maxima of the tiles before leaves the maxima up to this tile. -/
theorem step0_later (c : Dev nD) (t : Fin cfg0.N) (h0 : ¬t.val % 8 = 0) (s : FVec Ideal S1152x1 .f32) (r : Fin 1152)
    (hs : s (ix2 r 0) = rowMaxUpTo0 (Cx.matOf (V c main_v26)) (Cx.matOf (V c main_v29)) (rt0 t) (t.val % 8 - 1) r) :
    k0_pay2 (F := Ideal) (iblk0 V c 0 t) (iblk0 V c 1 t) s (ix2 r 0)
      = rowMaxUpTo0 (Cx.matOf (V c main_v26)) (Cx.matOf (V c main_v29)) (rt0 t) (t.val % 8) r := by
  refine (step0_tile V c t s r).trans ?_
  rw [hs]
  obtain ⟨m, hm⟩ : ∃ m, t.val % 8 = m + 1 := ⟨t.val % 8 - 1, by omega⟩
  have hm8 : m + 1 < 8 := by have := Nat.mod_lt t.val (show 0 < 8 by norm_num); omega
  rw [hm, show m + 1 - 1 = m from rfl, rowMaxUpTo0_succ _ _ _ m hm8, show ct0 t = ⟨m + 1, hm8⟩ from Fin.ext hm]

/-- After point `n` the scratch column holds, at entry `r`, the largest cosine of row `1152 (n / 8) + r` over the first
    `n % 8 + 1` column tiles: by induction on the point. -/
theorem chain0_apply (c : Dev nD) : ∀ (n : ℕ) (h : n < cfg0.N) (r : Fin 1152),
    chain0 V c n h (ix2 r 0) = rowMaxUpTo0 (Cx.matOf (V c main_v26)) (Cx.matOf (V c main_v29)) (rt0 ⟨n, h⟩) (n % 8) r
  | 0, h, r => by
    unfold chain0
    exact step0_first V c ⟨0, h⟩ rfl r
  | n + 1, h, r => by
    unfold chain0
    by_cases h0 : (n + 1) % 8 = 0
    · rw [if_pos h0]
      exact step0_first V c ⟨n + 1, h⟩ h0 r
    · rw [if_neg h0]
      refine step0_later V c ⟨n + 1, h⟩ h0 _ r ?_
      rw [chain0_apply c n _ r]
      have hr : rt0 ⟨n, Nat.lt_of_succ_lt h⟩ = rt0 ⟨n + 1, h⟩ := Fin.ext (show n / 8 = (n + 1) / 8 by omega)
      rw [hr, show n % 8 = (n + 1) % 8 - 1 by omega]

/-- The same at any index of the column. -/
theorem chain0_apply' (c : Dev nD) (n : ℕ) (h : n < cfg0.N) (y : S1152x1.Idx) :
    chain0 V c n h y
      = rowMaxUpTo0 (Cx.matOf (V c main_v26)) (Cx.matOf (V c main_v29)) (rt0 ⟨n, h⟩) (n % 8) ⟨(y 0).val, idx2_lt0 y⟩ := by
  have e : ix2 (⟨(y 0).val, idx2_lt0 y⟩ : Fin 1152) (0 : Fin 1) = y := funext fun a => by
    match a with
    | ⟨0, _⟩ => rfl
    | ⟨1, _⟩ => exact Fin.ext (by have h1 : (y 1).val < 1 := (y 1).isLt; show 0 = (y 1).val; omega)
  have := chain0_apply V c n h ⟨(y 0).val, idx2_lt0 y⟩
  rwa [e] at this

/-! ## From blocks to the array -/

/-- The array the region leaves: the rows' largest cosines. -/
def G0 (c : Dev nD) : S9216x1.Idx → EReal :=
  fun y => Cx.rowmax (Cx.matOf (V c main_v26)) (Cx.matOf (V c main_v29)) ⟨(y 0).val, idx2_lt0 y⟩

/-- What a point of column tile 7 writes back is its block of the row maxima. -/
theorem flushed0_eq (c : Dev nD) (t : Fin cfg0.N) (hf : (cfg0.win 2).flush t = true) :
    (dat0 V c).flushed 2 t = ((cfg0.win 2).blk t).view.read (Elt Ideal) (G0 V c) := by
  have h7 : t.val % 8 = 7 := (flush0_2 t).mp hf
  obtain ⟨-, -, -, -, e4, e5⟩ := idx0_facts t
  show (cfg0.win 2).cut (grid0.coords t) ((dat0 V c).after 2 t) = _
  rw [after0_2, outsAt0_eq]
  funext y
  rw [View.read_apply]
  show chain0 V c t.val t.isLt y = G0 V c (((cfg0.win 2).blk t).view.emb y)
  refine (chain0_apply' V c t.val t.isLt y).trans ?_
  rw [h7]
  refine (rowMaxUpTo0_seven _ _ _ _).trans ?_
  unfold G0
  refine congrArg (Cx.rowmax _ _) (Fin.ext ?_)
  show t.val / 8 * 1152 + (y 0).val = win0_2.index t (0 : Fin 2) * 1152 + 1 * (y 0).val
  rw [e4]; omega

/-- Every row of the output is in the block of the point of its row tile and column tile 7. -/
theorem cover0 (i : S9216x1.Idx) :
    ∃ t : Fin cfg0.N, (cfg0.win 2).flush t = true ∧ i ∈ ((cfg0.win 2).blk t).view.set := by
  have hi0 : (i 0).val < 9216 := (i 0).isLt
  have hi1 : (i 1).val < 1 := (i 1).isLt
  obtain ⟨t, ht⟩ : ∃ t : Fin cfg0.N, t.val = 8 * ((i 0).val / 1152) + 7 :=
    ⟨⟨8 * ((i 0).val / 1152) + 7, by rw [show cfg0.N = 64 from N_0]; omega⟩, rfl⟩
  obtain ⟨-, -, -, -, e4, e5⟩ := idx0_facts t
  refine ⟨t, (flush0_2 t).mpr (by rw [ht]; omega), ?_⟩
  show i ∈ ((View.whole main_v30).slice (win0_2.rect t)).set
  rw [View.set_slice_whole, Rect.mem_set_unit]
  intro a
  match a with
  | ⟨0, _⟩ =>
    show win0_2.index t (0 : Fin 2) * 1152 ≤ (i 0).val ∧ (i 0).val < win0_2.index t (0 : Fin 2) * 1152 + 1152
    rw [e4, ht]; omega
  | ⟨1, _⟩ =>
    show win0_2.index t (1 : Fin 2) * 1 ≤ (i 1).val ∧ (i 1).val < win0_2.index t (1 : Fin 2) * 1 + 1
    rw [e5]; omega

/-- THE ARRAY after the region: the rows' largest cosines. -/
theorem arr0_out (c : Dev nD) : (dat0 (F := Ideal) V c).arrAt 2 cfg0.N = G0 V c :=
  (dat0 V c).arrAt_eq_of_cover 2 (G0 V c) (flushed0_eq V c) cover0

/-- The same read as a column: entry `i` is the largest cosine of row `i`. -/
theorem arr0_out_col (c : Dev nD) :
    Cx.colOf ((dat0 (F := Ideal) V c).arrAt 2 cfg0.N) = Cx.rowmax (Cx.matOf (V c main_v26)) (Cx.matOf (V c main_v29)) := by
  funext i
  unfold Cx.colOf
  rw [arr0_out]
  rfl

end AtIdeal0

end Cert.KernelIdeal.Hand

end
-- ==== Proof.Region1Pieces.lean ====
/- Region 1 (the row sums): what each case of the body leaves, as the kernel's own arithmetic, and the accumulation over
   the grid as a recursion on the point. After a first column tile the accumulator and the output block hold one step
   applied to the zero column; after a later one, the step applied to what the accumulator held. -/
import proofs.«124446_j4818953306342_1_alg».proof.Proof.Region1Body
import proofs.«124446_j4818953306342_1_alg».proof.Proof.LibWholeStore
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert

/-- The zero column the reset stores. -/
abbrev zcol1 : Vec F S1152x1 .f32 := k1_pay2 (F := F)

/-- One step of the accumulation: the accumulator `acc` plus the row sums of the tile's weights. -/
abbrev step1 (x0 : Vec F S256x1152 .bf16) (x1 : Vec F S256x1152 .bf16) (x2 : Vec F S1152x1 .f32) (acc : Vec F S1152x1 .f32) : Vec F S1152x1 .f32 := k1_pay1 (k1_pay3 x0 x1 x2 acc)

theorem sout1_B_0_eq (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) :
    sout1_B_0 (F := F) c i arg2 harg2 arg3 harg3 arg4 harg4 arg5 harg5 arg6 harg6 hc0 x0 x1 x2 xs0 = step1 x0 x1 x2 xs0 := by
  unfold sout1_B_0
  rw [View.read_writes_eq_canon _ _ _ (scover1_B_0 c i arg2 harg2 arg3 harg3 arg4 harg4 arg5 harg5 arg6 harg6 hc0 x0 x1 x2 xs0)]
  unfold kernelRun1_B
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg4.read_unread, harg6.read_unread, View.ld_unit_zero (S := S256x1152) LibWholeStore.zero_pair, View.ld_unit_zero (S := S1152x1) LibWholeStore.zero_pair]

theorem out1_B_3_eq (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : ¬cond1_0 i) (x0 : Vec F S256x1152 .bf16) (x1 : Vec F S256x1152 .bf16) (x2 : Vec F S1152x1 .f32) (xs0 : Vec F S1152x1 .f32) :
    out1_B_3 (F := F) c i arg2 harg2 arg3 harg3 arg4 harg4 arg5 harg5 arg6 harg6 hc0 x0 x1 x2 xs0 = step1 x0 x1 x2 xs0 := by
  unfold out1_B_3
  rw [View.read_writes_eq_canon _ _ _ (cover1_B_3 c i arg2 harg2 arg3 harg3 arg4 harg4 arg5 harg5 arg6 harg6 hc0 x0 x1 x2 xs0)]
  unfold kernelRun1_B
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg4.read_unread, harg6.read_unread, View.ld_unit_zero (S := S256x1152) LibWholeStore.zero_pair, View.ld_unit_zero (S := S1152x1) LibWholeStore.zero_pair]

theorem sout1_A_0_eq (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) :
    sout1_A_0 (F := F) c i arg2 harg2 arg3 harg3 arg4 harg4 arg5 harg5 arg6 harg6 hc0 x0 x1 x2 = step1 x0 x1 x2 zcol1 := by
  unfold sout1_A_0
  rw [View.read_writes_eq_canon _ _ _ (scover1_A_0 c i arg2 harg2 arg3 harg3 arg4 harg4 arg5 harg5 arg6 harg6 hc0 x0 x1 x2)]
  unfold kernelRun1_A
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg4.read_unread, harg6.read_unread, View.ld_unit_zero (S := S256x1152) LibWholeStore.zero_pair, View.ld_unit_zero (S := S1152x1) LibWholeStore.zero_pair]

theorem out1_A_3_eq (c : Dev nD) (i : grid1.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1152x1 .f32) (harg6 : arg6.IsWhole) (hc0 : cond1_0 i) (x0 : Vec F S256x1152 .bf16) (x1 : Vec F S256x1152 .bf16) (x2 : Vec F S1152x1 .f32) :
    out1_A_3 (F := F) c i arg2 harg2 arg3 harg3 arg4 harg4 arg5 harg5 arg6 harg6 hc0 x0 x1 x2 = step1 x0 x1 x2 zcol1 := by
  unfold out1_A_3
  rw [View.read_writes_eq_canon _ _ _ (cover1_A_3 c i arg2 harg2 arg3 harg3 arg4 harg4 arg5 harg5 arg6 harg6 hc0 x0 x1 x2)]
  unfold kernelRun1_A
  dsimp only
  sl_unfold_words
  simp only [View.canon_cons_unit_zero (S := S1152x1) LibWholeStore.zero_pair, View.canon_unit_zero (S := S1152x1) LibWholeStore.zero_pair, LibWholeStore.readCov_cons_whole (S := S1152x1) _ LibWholeStore.zero_pair, View.readCov_unit_zero (S := S1152x1) _ LibWholeStore.zero_pair, View.readAt_eq_ld, harg2.read_unread, harg3.read_unread, harg4.read_unread, harg6.read_unread, View.ld_unit_zero (S := S256x1152) LibWholeStore.zero_pair, View.ld_unit_zero (S := S1152x1) LibWholeStore.zero_pair]

section Chain
variable (V : (c : Dev nD) → (b : Ref sig .tc) → Buf (Elt F) ((c : Thread nD τ).loc b))

/-- The accumulator after point `n`: one step over the zero column at a first column tile, one step over the point
    before elsewhere. -/
def chain1 (c : Dev nD) : (n : ℕ) → n < cfg1.N → Vec F S1152x1 .f32
  | 0, h => step1 (iblk1 V c 0 ⟨0, h⟩) (iblk1 V c 1 ⟨0, h⟩) (iblk1 V c 2 ⟨0, h⟩) zcol1
  | n + 1, h =>
    if (n + 1) % 8 = 0 then step1 (iblk1 V c 0 ⟨n + 1, h⟩) (iblk1 V c 1 ⟨n + 1, h⟩) (iblk1 V c 2 ⟨n + 1, h⟩) zcol1
    else step1 (iblk1 V c 0 ⟨n + 1, h⟩) (iblk1 V c 1 ⟨n + 1, h⟩) (iblk1 V c 2 ⟨n + 1, h⟩) (chain1 c n (Nat.lt_of_succ_lt h))

/-- After every point the output block and the accumulator both hold it: by induction on the point. -/
theorem outsAt1_eq (c : Dev nD) : ∀ (n : ℕ) (h : n < cfg1.N), outsAt1 V c n h = (chain1 V c n h, chain1 V c n h)
  | 0, h => by
    rw [outsAt1_A V c ⟨0, h⟩ rfl, out1_A_3_eq, sout1_A_0_eq]
    rfl
  | n + 1, h => by
    by_cases h0 : (n + 1) % 8 = 0
    · rw [outsAt1_A V c ⟨n + 1, h⟩ h0, out1_A_3_eq, sout1_A_0_eq]
      unfold chain1
      rw [if_pos h0]
    · rw [outsAt1_B V c ⟨n + 1, h⟩ h0, out1_B_3_eq, sout1_B_0_eq]
      unfold chain1
      rw [if_neg h0]
      show (step1 _ _ _ (outsAt1 V c n _).2, step1 _ _ _ (outsAt1 V c n _).2) = _
      rw [outsAt1_eq c n]

end Chain

end Cert.KernelIdeal.Hand

end
-- ==== Proof.Region1Value.lean ====
/- Region 1 (the row sums) on the extended reals: the array the region leaves.
   Row i = 1152 a + r of the output is written back last at the point of row tile a and column tile 7; by then the
   accumulator holds, at entry r, the sum over the eight column tiles b of the sum over the tile's 1152 columns q of
   the weight of the pair (i, 1152 b + q): the sum of row i's weights over all 9216 columns. -/
import proofs.«124446_j4818953306342_1_alg».proof.Proof.Region1Pieces
import proofs.«124446_j4818953306342_1_alg».proof.Proof.Spec
import proofs.«124446_j4818953306342_1_alg».proof.Proof.TileDot
import proofs.«124446_j4818953306342_1_alg».proof.Proof.LibBcast
import proofs.«124446_j4818953306342_1_alg».proof.Proof.TileFolds
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

open Cert
open Cert.RefSide (tile tile_val sum_tiles)
open Idealize.ShloMosaic.ValueIdx
open scoped BigOperators

/-! ## The body's arithmetic at an index, on the extended reals -/

section AtIdeal

/-- A column `[a, 1]` repeated along the second axis reads, at `(p, c)`, the column at row `p`. -/
theorem broadcastTo_a1_ab_apply_r1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of a 1152 x 1152 tile, at row `r`. -/
theorem rowsum_reduce1 (src : FVec Ideal S1152x1152 .f32) (hφ : FKind.Formats .f32)
    (hacc : (0x00000000#32 : BitVec 32) = FKind.add.neutral .f32 hφ) (r : Fin 1152) :
    multiReduction .add [1] S1152 src 0x00000000#32 reduces_S1152x1152_S1152 hφ hacc (ix1 r) = ∑ q : Fin 1152, src (ix2 r q) :=
  (Ideal.multiReduction_add_single src _ reduces_S1152x1152_S1152 hφ hacc (ix1 r)).trans
    (Finset.sum_congr rfl fun q _ => congrArg src (funext fun a => by match a with | ⟨0, _⟩ => rfl | ⟨1, _⟩ => rfl))

/-- One step of the accumulation at row `r` of the tile: the accumulator plus the sum over the tile's 1152 columns
    of the weights of the pairs (row, column), the row's smallest distance taken from the row-maximum block. -/
theorem step1_apply (x0 x1 : FVec Ideal S256x1152 .bf16) (x2 acc : FVec Ideal S1152x1 .f32) (r : Fin 1152) :
    step1 (F := Ideal) x0 x1 x2 acc (ix2 r 0)
      = acc (ix2 r 0) + ∑ q : Fin 1152, Cx.wgtOf (∑ ch : Fin 256, x0 (ix2 ch r) * x1 (ix2 ch q)) (Cx.dist (x2 (ix2 r 0))) := by
  unfold step1 k1_pay1 k1_pay3
  simp only [shapeCast_self]
  refine congrArg (fun z => acc (ix2 r 0) + z) ?_
  refine (LibBcast.shapeCast_a_a1_apply _ _ r 0).trans ?_
  refine (rowsum_reduce1 _ _ _ r).trans ?_
  refine Finset.sum_congr rfl fun q _ => ?_
  show Ideal.exp (Ideal.div (Cx.one - Ideal.div (max Cx.zero ((Cx.one - (matmul dot_S256x1152_S256x1152_S1152x1152_0_0_1_1_n_n none x0 x1 (constant S1152x1152 .f32 0x00000000#32)) (ix2 r q)) * Cx.half)) (broadcastTo S1152x1152 (fun y : S1152x1.Idx => max Cx.zero ((Cx.one - x2 y) * Cx.half) + Cx.eps) broadcasts_S1152x1_S1152x1152 (ix2 r q))) Cx.half) = _
  rw [tile_dot_apply, broadcastTo_a1_ab_apply_r1]
  rfl

/-- The reset value is zero everywhere. -/
theorem zcol1_apply (y : S1152x1.Idx) : zcol1 (F := Ideal) y = 0 := by
  unfold zcol1 k1_pay2
  simp only [shapeCast_self]
  exact Ideal.ofBits_zero_f32

/-! ## The grid: which blocks a point reads and writes -/

/-- The printed index maps, decided over the grid: at point `t` the first input's block is column block `t / 8` of
    its array, the second's column block `t % 8`, the third's and the output's row block `t / 8`. -/
theorem idx1_facts : ∀ t : Fin cfg1.N, win1_0.index t (0 : Fin 2) = 0 ∧ win1_0.index t (1 : Fin 2) = t.val / 8
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

/-- The row tile and the column tile of a point. -/
def rt1 (t : Fin cfg1.N) : Fin 8 := ⟨t.val / 8, by have : t.val < 64 := lt_of_lt_of_eq t.isLt N_1; omega⟩
def ct1 (t : Fin cfg1.N) : Fin 8 := ⟨t.val % 8, Nat.mod_lt _ (by norm_num)⟩

variable (V : (c : Dev nD) → (b : Ref sig .tc) → Buf (Elt Ideal) ((c : Thread nD τ).loc b))

/-- The first input's block at point `t` is the columns of row tile `t / 8` of the first feature matrix. -/
theorem iblk1_0_apply (c : Dev nD) (t : Fin cfg1.N) (ch : Fin 256) (r : Fin 1152) :
    (iblk1 V c 0 t : FVec Ideal S256x1152 .bf16) (ix2 ch r) = Cx.matOf (V c main_v26) ch (tile (rt1 t) r) := by
  obtain ⟨e0, e1, -⟩ := idx1_facts t
  unfold iblk1 Cx.matOf
  rw [View.read_apply]
  show V c main_v26 _ = V c main_v26 _
  refine congrArg (V c main_v26) (funext fun a => Fin.ext ?_)
  match a with
  | ⟨0, _⟩ => show win1_0.index t (0 : Fin 2) * 256 + 1 * ch.val = ch.val; rw [e0]; omega
  | ⟨1, _⟩ => show win1_0.index t (1 : Fin 2) * 1152 + 1 * r.val = t.val / 8 * 1152 + r.val; rw [e1]; omega

/-- The second input's block at point `t` is the columns of column tile `t % 8` of the second feature matrix. -/
theorem iblk1_1_apply (c : Dev nD) (t : Fin cfg1.N) (ch : Fin 256) (q : Fin 1152) :
    (iblk1 V c 1 t : FVec Ideal S256x1152 .bf16) (ix2 ch q) = Cx.matOf (V c main_v29) ch (tile (ct1 t) q) := by
  obtain ⟨-, -, e0, e1, -⟩ := idx1_facts t
  unfold iblk1 Cx.matOf
  rw [View.read_apply]
  show V c main_v29 _ = V c main_v29 _
  refine congrArg (V c main_v29) (funext fun a => Fin.ext ?_)
  match a with
  | ⟨0, _⟩ => show win1_1.index t (0 : Fin 2) * 256 + 1 * ch.val = ch.val; rw [e0]; omega
  | ⟨1, _⟩ => show win1_1.index t (1 : Fin 2) * 1152 + 1 * q.val = t.val % 8 * 1152 + q.val; rw [e1]; omega

/-- The third input's block at point `t` is the entries of row tile `t / 8` of the row-maximum column. -/
theorem iblk1_2_apply (c : Dev nD) (t : Fin cfg1.N) (r : Fin 1152) :
    (iblk1 V c 2 t : FVec Ideal S1152x1 .f32) (ix2 r 0) = Cx.colOf (V c main_v30) (tile (rt1 t) r) := by
  obtain ⟨-, -, -, -, e0, e1, -⟩ := idx1_facts t
  unfold iblk1 Cx.colOf
  rw [View.read_apply]
  show V c main_v30 _ = V c main_v30 _
  refine congrArg (V c main_v30) (funext fun a => Fin.ext ?_)
  match a with
  | ⟨0, _⟩ => show win1_2.index t (0 : Fin 2) * 1152 + 1 * r.val = t.val / 8 * 1152 + r.val; rw [e0]; omega
  | ⟨1, _⟩ => show win1_2.index t (1 : Fin 2) * 1 + 1 * 0 = 0; rw [e1]

/-! ## The accumulation, tile by tile -/

/-- The sum of row `i`'s weights over column tile `a` (zero for `a` beyond the eight tiles). -/
def tsum1 (c : Dev nD) (i : Fin 9216) (a : ℕ) : EReal :=
  if h : a < 8 then ∑ b : Fin 1152, Cx.wgt (Cx.matOf (V c main_v26)) (Cx.matOf (V c main_v29)) (Cx.colOf (V c main_v30)) i (tile ⟨a, h⟩ b) else 0

/-- The sum of row `i`'s weights over the first `k` column tiles. -/
def psum1 (c : Dev nD) (i : Fin 9216) (k : ℕ) : EReal := ∑ a ∈ Finset.range k, tsum1 V c i a

/-- Over all eight column tiles it is the row sum. -/
theorem psum1_full (c : Dev nD) (i : Fin 9216) :
    psum1 V c i 8 = Cx.rowsum (Cx.matOf (V c main_v26)) (Cx.matOf (V c main_v29)) (Cx.colOf (V c main_v30)) i := by
  unfold psum1 Cx.rowsum
  rw [Finset.sum_range, sum_tiles]
  refine Finset.sum_congr rfl fun a _ => ?_
  unfold tsum1
  rw [dif_pos a.isLt]

/-- One step at point `t` over an accumulator holding the first `t % 8` column tiles' sum of a row of row tile
    `t / 8` leaves the first `t % 8 + 1` tiles' sum. -/
theorem step1_tile (c : Dev nD) (t : Fin cfg1.N) (acc : FVec Ideal S1152x1 .f32) (r : Fin 1152)
    (hacc : acc (ix2 r 0) = psum1 V c (tile (rt1 t) r) (t.val % 8)) :
    step1 (F := Ideal) (iblk1 V c 0 t) (iblk1 V c 1 t) (iblk1 V c 2 t) acc (ix2 r 0) = psum1 V c (tile (rt1 t) r) (t.val % 8 + 1) := by
  refine (step1_apply _ _ _ acc r).trans ?_
  rw [hacc]
  unfold psum1
  rw [Finset.sum_range_succ]
  refine congrArg (fun z => _ + z) ?_
  unfold tsum1
  rw [dif_pos (Nat.mod_lt _ (by norm_num))]
  refine Finset.sum_congr rfl fun q _ => ?_
  unfold Cx.wgt Cx.cos
  rw [iblk1_2_apply]
  refine congrArg (fun z => Cx.wgtOf z _) (Finset.sum_congr rfl fun ch _ => ?_)
  rw [iblk1_0_apply, iblk1_1_apply]
  rfl

/-- After point `n` the accumulator holds, at entry `r`, the sum of the weights of row `1152 (n / 8) + r` over the
    first `n % 8 + 1` column tiles: by induction on the point. -/
theorem chain1_apply (c : Dev nD) : ∀ (n : ℕ) (h : n < cfg1.N) (r : Fin 1152),
    chain1 V c n h (ix2 r 0) = psum1 V c (tile (rt1 ⟨n, h⟩) r) (n % 8 + 1)
  | 0, h, r => by
    unfold chain1
    refine step1_tile V c ⟨0, h⟩ (zcol1 (F := Ideal)) r ?_
    show zcol1 (F := Ideal) (ix2 r 0) = psum1 V c _ 0
    rw [zcol1_apply]; unfold psum1; exact (Finset.sum_range_zero _).symm
  | n + 1, h, r => by
    unfold chain1
    by_cases h0 : (n + 1) % 8 = 0
    · rw [if_pos h0]
      refine step1_tile V c ⟨n + 1, h⟩ (zcol1 (F := Ideal)) r ?_
      show zcol1 (F := Ideal) (ix2 r 0) = psum1 V c _ ((n + 1) % 8)
      rw [zcol1_apply, h0]; unfold psum1; exact (Finset.sum_range_zero _).symm
    · rw [if_neg h0]
      refine step1_tile V c ⟨n + 1, h⟩ _ r ?_
      rw [chain1_apply c n _ r]
      have hr : rt1 ⟨n, Nat.lt_of_succ_lt h⟩ = rt1 ⟨n + 1, h⟩ := Fin.ext (show n / 8 = (n + 1) / 8 by omega)
      rw [hr, show n % 8 + 1 = (n + 1) % 8 by omega]

/-- The same at any index of the column. -/
theorem chain1_apply' (c : Dev nD) (n : ℕ) (h : n < cfg1.N) (y : S1152x1.Idx) :
    chain1 V c n h y = psum1 V c (tile (rt1 ⟨n, h⟩) ⟨(y 0).val, idx2_lt0 y⟩) (n % 8 + 1) := by
  have e : ix2 (⟨(y 0).val, idx2_lt0 y⟩ : Fin 1152) (0 : Fin 1) = y := funext fun a => by
    match a with
    | ⟨0, _⟩ => rfl
    | ⟨1, _⟩ => exact Fin.ext (by have h1 : (y 1).val < 1 := (y 1).isLt; show 0 = (y 1).val; omega)
  have := chain1_apply V c n h ⟨(y 0).val, idx2_lt0 y⟩
  rwa [e] at this

/-! ## From blocks to the array -/

/-- The array the region leaves: the row sums. -/
def G1 (c : Dev nD) : S9216x1.Idx → EReal :=
  fun y => Cx.rowsum (Cx.matOf (V c main_v26)) (Cx.matOf (V c main_v29)) (Cx.colOf (V c main_v30)) ⟨(y 0).val, idx2_lt0 y⟩

/-- What a point of column tile 7 writes back is its block of the row sums. -/
theorem flushed1_eq (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  obtain ⟨-, -, -, -, -, -, e6, e7⟩ := idx1_facts t
  show (cfg1.win 3).cut (grid1.coords t) ((dat1 V c).after 3 t) = _
  rw [after1_3, outsAt1_eq]
  funext y
  rw [View.read_apply]
  show chain1 V c t.val t.isLt y = G1 V c (((cfg1.win 3).blk t).view.emb y)
  refine (chain1_apply' V c t.val t.isLt y).trans ?_
  rw [h7]
  refine (psum1_full V c _).trans ?_
  unfold G1
  refine congrArg (Cx.rowsum _ _ _) (Fin.ext ?_)
  show t.val / 8 * 1152 + (y 0).val = win1_3.index t (0 : Fin 2) * 1152 + 1 * (y 0).val
  rw [e6]; omega

/-- Every row of the output is in the block of the point of its row tile and column tile 7. -/
theorem cover1 (i : S9216x1.Idx) :
    ∃ t : Fin cfg1.N, (cfg1.win 3).flush t = true ∧ i ∈ ((cfg1.win 3).blk t).view.set := by
  have hi0 : (i 0).val < 9216 := (i 0).isLt
  have hi1 : (i 1).val < 1 := (i 1).isLt
  obtain ⟨t, ht⟩ : ∃ t : Fin cfg1.N, t.val = 8 * ((i 0).val / 1152) + 7 :=
    ⟨⟨8 * ((i 0).val / 1152) + 7, by rw [show cfg1.N = 64 from N_1]; omega⟩, rfl⟩
  obtain ⟨-, -, -, -, -, -, e6, e7⟩ := idx1_facts t
  refine ⟨t, (flush1_3 t).mpr (by rw [ht]; omega), ?_⟩
  show i ∈ ((View.whole main_v31).slice (win1_3.rect t)).set
  rw [View.set_slice_whole, Rect.mem_set_unit]
  intro a
  match a with
  | ⟨0, _⟩ =>
    show win1_3.index t (0 : Fin 2) * 1152 ≤ (i 0).val ∧ (i 0).val < win1_3.index t (0 : Fin 2) * 1152 + 1152
    rw [e6, ht]; omega
  | ⟨1, _⟩ =>
    show win1_3.index t (1 : Fin 2) * 1 ≤ (i 1).val ∧ (i 1).val < win1_3.index t (1 : Fin 2) * 1 + 1
    rw [e7]; omega

/-- THE ARRAY after the region: the sums of the rows' weights. -/
theorem arr1_out (c : Dev nD) : (dat1 (F := Ideal) V c).arrAt 3 cfg1.N = G1 V c :=
  (dat1 V c).arrAt_eq_of_cover 3 (G1 V c) (flushed1_eq V c) cover1

/-- The same read as a column: entry `i` is the sum of row `i`'s weights. -/
theorem arr1_out_col (c : Dev nD) :
    Cx.colOf ((dat1 (F := Ideal) V c).arrAt 3 cfg1.N) = Cx.rowsum (Cx.matOf (V c main_v26)) (Cx.matOf (V c main_v29)) (Cx.colOf (V c main_v30)) := by
  funext i
  unfold Cx.colOf
  rw [arr1_out]
  rfl

end AtIdeal

end Cert.KernelIdeal.Hand

end
-- ==== Proof.Region2Value.lean ====
/-
  Region 2 at the extended reals: the output array ends holding, in column j, the largest normalised weight of the
  column, the supremum over all rows i of w(i, j) / rowsum(i).

  The grid's point t works on column tile t / 8 and row tile t % 8. The body's arithmetic at a column q of the block is
  the supremum over the tile's 1152 rows of the normalised weight (the cosine a channel sum of the two feature blocks,
  the row's largest cosine and its weight sum read off the two column blocks); the scratch row and the output block
  keep the elementwise maximum with what they held, from minus infinity at the first row tile. So after point t they
  hold the supremum over the rows of row tiles 0 … t % 8, by induction on the point: the rows below the end of a tile
  are those below its start and the tile's own. After the last row tile that is every row, the block written back is the
  column tile of the column maxima, and the eight written-back blocks cover the array.
-/
import proofs.«124446_j4818953306342_1_alg».proof.Proof.Region2Body
import proofs.«124446_j4818953306342_1_alg».proof.Proof.Spec
import proofs.«124446_j4818953306342_1_alg».proof.Proof.TileDot
import proofs.«124446_j4818953306342_1_alg».proof.Proof.HostFolds
import proofs.«124446_j4818953306342_1_alg».proof.Proof.TileFolds
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Cert.RefSide (tile tile_val)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The first row tile leaves, in the scratch, the elementwise maximum of minus infinity and the tile's column maxima. -/
theorem sout2_A_eq (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i) (x0 : Vec F S256x1152 .bf16) (x1 : Vec F S256x1152 .bf16) (x2 : Vec F S1152x1 .f32) (x3 : Vec F S1152x1 .f32) :
    sout2_A_0 c i arg2 harg2 arg3 harg3 arg4 harg4 arg5 harg5 arg6 harg6 arg7 harg7 hc0 x0 x1 x2 x3 = k2_pay1 (k2_pay3 x1 x0 x2 x3) (k2_pay2 (F := F)) := by
  unfold sout2_A_0
  rw [View.read_writes_eq_canon _ _ _ (scover2_A_0 c i arg2 harg2 arg3 harg3 arg4 harg4 arg5 harg5 arg6 harg6 arg7 harg7 hc0 x0 x1 x2 x3)]
  unfold kernelRun2_A
  dsimp only
  sl_unfold_words
  rw [View.canon_cons_unit_zero (S := S1x1152) hz2, View.readCov_unit_zero (S := S1x1152) _ hz2]
  simp only [View.readAt_eq_ld, harg2.read_unread, harg3.read_unread, harg4.read_unread, harg5.read_unread, harg7.read_unread, View.ld_unit_zero (S := S256x1152) hz2, View.ld_unit_zero (S := S1152x1) hz2, View.ld_unit_zero (S := S1x1152) hz2]

/-- and the same in the output block (a copy of the scratch). -/
theorem out2_A_eq (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : cond2_0 i) (x0 : Vec F S256x1152 .bf16) (x1 : Vec F S256x1152 .bf16) (x2 : Vec F S1152x1 .f32) (x3 : Vec F S1152x1 .f32) :
    out2_A_4 c i arg2 harg2 arg3 harg3 arg4 harg4 arg5 harg5 arg6 harg6 arg7 harg7 hc0 x0 x1 x2 x3 = k2_pay1 (k2_pay3 x1 x0 x2 x3) (k2_pay2 (F := F)) := by
  unfold out2_A_4
  rw [View.read_writes_eq_canon _ _ _ (cover2_A_4 c i arg2 harg2 arg3 harg3 arg4 harg4 arg5 harg5 arg6 harg6 arg7 harg7 hc0 x0 x1 x2 x3)]
  unfold kernelRun2_A
  dsimp only
  sl_unfold_words
  rw [View.canon_unit_zero hz2]
  simp only [View.readCov_cons_toLoadRect, View.readCov_unit_zero (S := S1x1152) _ hz2, View.readAt_eq_ld, harg2.read_unread, harg3.read_unread, harg4.read_unread, harg5.read_unread, View.ld_unit_zero (S := S256x1152) hz2, View.ld_unit_zero (S := S1152x1) hz2, View.ld_unit_zero (S := S1x1152) hz2]

/-- A later row tile leaves, in the scratch, the elementwise maximum of what it held and the tile's column maxima. -/
theorem sout2_B_eq (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i) (x0 : Vec F S256x1152 .bf16) (x1 : Vec F S256x1152 .bf16) (x2 : Vec F S1152x1 .f32) (x3 : Vec F S1152x1 .f32) (xs0 : Vec F S1x1152 .f32) :
    sout2_B_0 c i arg2 harg2 arg3 harg3 arg4 harg4 arg5 harg5 arg6 harg6 arg7 harg7 hc0 x0 x1 x2 x3 xs0 = k2_pay1 (k2_pay3 x1 x0 x2 x3) xs0 := by
  unfold sout2_B_0
  rw [View.read_writes_eq_canon _ _ _ (scover2_B_0 c i arg2 harg2 arg3 harg3 arg4 harg4 arg5 harg5 arg6 harg6 arg7 harg7 hc0 x0 x1 x2 x3 xs0)]
  unfold kernelRun2_B
  dsimp only
  sl_unfold_words
  rw [View.canon_unit_zero hz2]
  simp only [View.readAt_eq_ld, harg2.read_unread, harg3.read_unread, harg4.read_unread, harg5.read_unread, harg7.read_unread, View.ld_unit_zero (S := S256x1152) hz2, View.ld_unit_zero (S := S1152x1) hz2, View.ld_unit_zero (S := S1x1152) hz2]

/-- and the same in the output block. -/
theorem out2_B_eq (c : Dev nD) (i : grid2.Coords) (arg2 : Memref sig .tc .vmem S256x1152 .bf16) (harg2 : arg2.IsWhole) (arg3 : Memref sig .tc .vmem S256x1152 .bf16) (harg3 : arg3.IsWhole) (arg4 : Memref sig .tc .vmem S1152x1 .f32) (harg4 : arg4.IsWhole) (arg5 : Memref sig .tc .vmem S1152x1 .f32) (harg5 : arg5.IsWhole) (arg6 : Memref sig .tc .vmem S1x1152 .f32) (harg6 : arg6.IsWhole) (arg7 : Memref sig .tc .vmem S1x1152 .f32) (harg7 : arg7.IsWhole) (hc0 : ¬cond2_0 i) (x0 : Vec F S256x1152 .bf16) (x1 : Vec F S256x1152 .bf16) (x2 : Vec F S1152x1 .f32) (x3 : Vec F S1152x1 .f32) (xs0 : Vec F S1x1152 .f32) :
    out2_B_4 c i arg2 harg2 arg3 harg3 arg4 harg4 arg5 harg5 arg6 harg6 arg7 harg7 hc0 x0 x1 x2 x3 xs0 = k2_pay1 (k2_pay3 x1 x0 x2 x3) xs0 := by
  unfold out2_B_4
  rw [View.read_writes_eq_canon _ _ _ (cover2_B_4 c i arg2 harg2 arg3 harg3 arg4 harg4 arg5 harg5 arg6 harg6 arg7 harg7 hc0 x0 x1 x2 x3 xs0)]
  unfold kernelRun2_B
  dsimp only
  sl_unfold_words
  rw [View.canon_unit_zero hz2, View.readCov_unit_zero (S := S1x1152) _ hz2]
  simp only [View.readAt_eq_ld, harg2.read_unread, harg3.read_unread, harg4.read_unread, harg5.read_unread, harg7.read_unread, View.ld_unit_zero (S := S256x1152) hz2, View.ld_unit_zero (S := S1152x1) hz2, View.ld_unit_zero (S := S1x1152) hz2]

/-- The supremum of `f` over the positions below `n`. -/
def supBelow2 (f : Fin 9216 → EReal) (n : ℕ) : EReal := (Finset.univ.filter fun i : Fin 9216 => i.val < n).sup f

/-- Below zero there is no position. -/
theorem supBelow2_zero (f : Fin 9216 → EReal) : supBelow2 f 0 = ⊥ := by
  unfold supBelow2
  rw [Finset.filter_false_of_mem (fun i _ => Nat.not_lt_zero _)]
  exact Finset.sup_empty

/-- One more tile: the positions below the end of tile `b` are those below its start and the tile's own. -/
theorem supBelow2_step (f : Fin 9216 → EReal) (b : Fin 8) :
    supBelow2 f (1152 * (b.val + 1)) = max (supBelow2 f (1152 * b.val)) (Finset.univ.sup fun p : Fin 1152 => f (Cert.RefSide.tile b p)) := by
  have hb := b.isLt
  unfold supBelow2
  apply le_antisymm
  · refine Finset.sup_le fun i hi => ?_
    have hi' : i.val < 1152 * (b.val + 1) := (Finset.mem_filter.mp hi).2
    by_cases h : i.val < 1152 * b.val
    · exact le_max_of_le_left (Finset.le_sup (f := f) (Finset.mem_filter.mpr ⟨Finset.mem_univ _, h⟩))
    · have e : i = Cert.RefSide.tile b ⟨i.val - 1152 * b.val, by omega⟩ := Fin.ext (by rw [Cert.RefSide.tile_val]; show i.val = b.val * 1152 + (i.val - 1152 * b.val); omega)
      have e' : f i = f (Cert.RefSide.tile b ⟨i.val - 1152 * b.val, by omega⟩) := congrArg f e
      rw [e']
      exact le_max_of_le_right (Finset.le_sup (f := fun p : Fin 1152 => f (Cert.RefSide.tile b p)) (Finset.mem_univ _))
  · refine max_le (Finset.sup_mono fun i hi => ?_) (Finset.sup_le fun p _ => ?_)
    · exact Finset.mem_filter.mpr ⟨Finset.mem_univ _, lt_of_lt_of_le (Finset.mem_filter.mp hi).2 (by omega)⟩
    · have hp := p.isLt
      exact Finset.le_sup (f := f) (Finset.mem_filter.mpr ⟨Finset.mem_univ _, by rw [Cert.RefSide.tile_val]; omega⟩)

/-- Below the end of the last tile is every position. -/
theorem supBelow2_all (f : Fin 9216 → EReal) : supBelow2 f 9216 = Finset.univ.sup f := by
  unfold supBelow2
  rw [Finset.filter_true_of_mem (fun i _ => i.isLt)]

/-- An [a, 1] column repeated over b columns reads, at (p, q), the column at (p, 0). -/
theorem broadcastTo_a1_ab_apply_r2 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The exponential of a vector, entry by entry. -/
theorem exp_apply_r2 {s : Shape} {φ : FTy} (a : FVec Ideal s φ) (i : s.Idx) : exp a i = Ideal.exp (a i) := rfl

/-- The reset value is minus infinity everywhere. -/
theorem pay2_apply_r2 (y : S1x1152.Idx) : k2_pay2 (F := Ideal) y = (⊥ : EReal) := by
  unfold k2_pay2
  rw [shapeCast_self]
  exact Cert.RefSide.ofBits_negInf_f32

/-- The accumulation step at column q: the larger of what the scratch held and the tile's column maximum. -/
theorem pay1_apply_r2 (v35 : FVec Ideal S1152 .f32) (v37 : FVec Ideal S1x1152 .f32) (q : Fin 1152) :
    k2_pay1 (F := Ideal) v35 v37 (ix2 (0 : Fin 1) q) = max (v37 (ix2 (0 : Fin 1) q)) (v35 (ix1 q)) := by
  unfold k2_pay1
  rw [shapeCast_self]
  show max (v37 (ix2 (0 : Fin 1) q)) (shapeCast S1x1152 v35 shapeCasts_S1152_S1x1152 (ix2 (0 : Fin 1) q)) = _
  rw [shapeCast_a_1a_apply]

/-- The tile's column maximum at column q: the supremum over the tile's rows p of the normalised weight of (p, q),
    the cosine the channel sum of the two blocks, the row's largest cosine and weight sum read off the two columns. -/
theorem pay3_apply_r2 (v3 v5 : FVec Ideal S256x1152 .bf16) (v8 v10 : FVec Ideal S1152x1 .f32) (q : Fin 1152) :
    k2_pay3 (F := Ideal) v3 v5 v8 v10 (ix1 q) = Finset.univ.sup fun p : Fin 1152 =>
      Ideal.div (Cx.wgtOf (∑ k : Fin 256, v3 (ix2 k p) * v5 (ix2 k q)) (Cx.dist (v8 (ix2 p (0 : Fin 1))))) (v10 (ix2 p (0 : Fin 1))) := by
  unfold k2_pay3
  refine (Ideal.multiReduction_maximumf_single _ _ reduces_S1152x1152_S1152_2 _ _ (ix1 q)).trans ?_
  rw [show FloatOps.ofBits (F := Ideal) .f32 0xFF800000#32 = (⊥ : EReal) from Cert.RefSide.ofBits_negInf_f32, Cert.RefSide.fold_max_bot]
  refine Finset.sup_congr rfl fun (p : Fin 1152) _ => ?_
  have hl : reduces_S1152x1152_S1152_2.lift (ix1 q) p = ix2 p q := funext fun a => Fin.ext (by
    match a with
    | ⟨0, _⟩ => rfl
    | ⟨1, _⟩ => rfl)
  show (_ : S1152x1152.Idx → EReal) (reduces_S1152x1152_S1152_2.lift (ix1 q) p) = _
  rw [hl]
  simp only [divf_apply, subf_apply, mulf_apply, maximumf_apply, addf_apply, broadcast_apply, shapeCast_self, broadcastTo_a1_ab_apply_r2, tile_dot_apply, exp_apply_r2]
  rfl

variable (V : (c : Dev nD) → (b : Ref sig .tc) → Buf (Elt Ideal) ((c : Thread nD τ).loc b))

/-- The printed index maps, decided over the grid: point `t` is column tile `t / 8` and row tile `t % 8`. -/
theorem idx2_facts : ∀ t : Fin cfg2.N,
    win2_0.index t (0 : Fin 2) = 0 ∧ win2_0.index t (1 : Fin 2) = t.val / 8
    ∧ win2_1.index t (0 : Fin 2) = 0 ∧ win2_1.index t (1 : Fin 2) = t.val % 8
    ∧ win2_2.index t (0 : Fin 2) = t.val % 8 ∧ win2_2.index t (1 : Fin 2) = 0
    ∧ win2_3.index t (0 : Fin 2) = t.val % 8 ∧ win2_3.index t (1 : Fin 2) = 0
    ∧ win2_4.index t (0 : Fin 2) = 0 ∧ win2_4.index t (1 : Fin 2) = t.val / 8 :=
  (by decide +kernel : ∀ t : Fin grid2.N, _)

/-- The row tile and the column tile of point `n`. -/
def rowT2 (n : ℕ) : Fin 8 := ⟨n % 8, Nat.mod_lt _ (by norm_num)⟩
def colT2 (n : ℕ) : Fin 8 := ⟨n / 8 % 8, Nat.mod_lt _ (by norm_num)⟩

/-- Each input block read at an entry is its array read at the tile's position. -/
theorem iblk2_0_apply (c : Dev nD) (t : Fin cfg2.N) (k : Fin 256) (q : Fin 1152) :
    (iblk2 V c 0 t : FVec Ideal S256x1152 .bf16) (ix2 k q) = V c main_v29 (ix2 k (tile (colT2 t.val) q)) := by
  obtain ⟨e00, e01, e10, e11, e20, e21, e30, e31, e40, e41⟩ := idx2_facts t
  have hN : t.val < 64 := lt_of_lt_of_eq t.isLt (show cfg2.N = 64 from N_2)
  show V c main_v29 (((cfg2.win 0).blk t).view.emb (ix2 k q)) = V c main_v29 (ix2 k (tile (colT2 t.val) q))
  refine congrArg (V c main_v29) (funext fun a => Fin.ext ?_)
  match a with
  | ⟨0, _⟩ => show win2_0.index t (0 : Fin 2) * 256 + 1 * k.val = k.val; rw [e00]; omega
  | ⟨1, _⟩ => show win2_0.index t (1 : Fin 2) * 1152 + 1 * q.val = t.val / 8 % 8 * 1152 + q.val; rw [e01]; omega

theorem iblk2_1_apply (c : Dev nD) (t : Fin cfg2.N) (k : Fin 256) (p : Fin 1152) :
    (iblk2 V c 1 t : FVec Ideal S256x1152 .bf16) (ix2 k p) = V c main_v26 (ix2 k (tile (rowT2 t.val) p)) := by
  obtain ⟨e00, e01, e10, e11, e20, e21, e30, e31, e40, e41⟩ := idx2_facts t
  have hN : t.val < 64 := lt_of_lt_of_eq t.isLt (show cfg2.N = 64 from N_2)
  show V c main_v26 (((cfg2.win 1).blk t).view.emb (ix2 k p)) = V c main_v26 (ix2 k (tile (rowT2 t.val) p))
  refine congrArg (V c main_v26) (funext fun a => Fin.ext ?_)
  match a with
  | ⟨0, _⟩ => show win2_1.index t (0 : Fin 2) * 256 + 1 * k.val = k.val; rw [e10]; omega
  | ⟨1, _⟩ => show win2_1.index t (1 : Fin 2) * 1152 + 1 * p.val = t.val % 8 * 1152 + p.val; rw [e11]; omega

theorem iblk2_2_apply (c : Dev nD) (t : Fin cfg2.N) (p : Fin 1152) :
    (iblk2 V c 2 t : FVec Ideal S1152x1 .f32) (ix2 p (0 : Fin 1)) = V c main_v30 (ix2 (tile (rowT2 t.val) p) (0 : Fin 1)) := by
  obtain ⟨e00, e01, e10, e11, e20, e21, e30, e31, e40, e41⟩ := idx2_facts t
  have hN : t.val < 64 := lt_of_lt_of_eq t.isLt (show cfg2.N = 64 from N_2)
  show V c main_v30 (((cfg2.win 2).blk t).view.emb (ix2 p (0 : Fin 1))) = V c main_v30 (ix2 (tile (rowT2 t.val) p) (0 : Fin 1))
  refine congrArg (V c main_v30) (funext fun a => Fin.ext ?_)
  match a with
  | ⟨0, _⟩ => show win2_2.index t (0 : Fin 2) * 1152 + 1 * p.val = t.val % 8 * 1152 + p.val; rw [e20]; omega
  | ⟨1, _⟩ => show win2_2.index t (1 : Fin 2) * 1 + 1 * 0 = 0; rw [e21]

theorem iblk2_3_apply (c : Dev nD) (t : Fin cfg2.N) (p : Fin 1152) :
    (iblk2 V c 3 t : FVec Ideal S1152x1 .f32) (ix2 p (0 : Fin 1)) = V c main_v31 (ix2 (tile (rowT2 t.val) p) (0 : Fin 1)) := by
  obtain ⟨e00, e01, e10, e11, e20, e21, e30, e31, e40, e41⟩ := idx2_facts t
  have hN : t.val < 64 := lt_of_lt_of_eq t.isLt (show cfg2.N = 64 from N_2)
  show V c main_v31 (((cfg2.win 3).blk t).view.emb (ix2 p (0 : Fin 1))) = V c main_v31 (ix2 (tile (rowT2 t.val) p) (0 : Fin 1))
  refine congrArg (V c main_v31) (funext fun a => Fin.ext ?_)
  match a with
  | ⟨0, _⟩ => show win2_3.index t (0 : Fin 2) * 1152 + 1 * p.val = t.val % 8 * 1152 + p.val; rw [e30]; omega
  | ⟨1, _⟩ => show win2_3.index t (1 : Fin 2) * 1 + 1 * 0 = 0; rw [e31]

/-! ## The invariant of the recursion over the points -/

/-- The normalised weight of the pair (i, j), from the four arrays as the region finds them. -/
def nw2 (c : Dev nD) (i j : Fin 9216) : EReal :=
  Ideal.div (Cx.wgt (Cx.matOf (V c main_v26)) (Cx.matOf (V c main_v29)) (Cx.colOf (V c main_v30)) i j) (Cx.colOf (V c main_v31) i)

/-- The tile's column maximum, over the blocks of point `t`: the supremum over row tile `t % 8` of the normalised
    weights in column `q` of column tile `t / 8`. -/
theorem tile_colmax2 (c : Dev nD) (t : Fin cfg2.N) (q : Fin 1152) :
    k2_pay3 (F := Ideal) (iblk2 V c 1 t) (iblk2 V c 0 t) (iblk2 V c 2 t) (iblk2 V c 3 t) (ix1 q)
      = Finset.univ.sup fun p : Fin 1152 => nw2 V c (tile (rowT2 t.val) p) (tile (colT2 t.val) q) := by
  refine (pay3_apply_r2 (iblk2 V c 1 t) (iblk2 V c 0 t) (iblk2 V c 2 t) (iblk2 V c 3 t) q).trans ?_
  refine Finset.sup_congr rfl fun p _ => ?_
  rw [iblk2_2_apply V c t p, iblk2_3_apply V c t p]
  simp only [iblk2_1_apply V c t, iblk2_0_apply V c t]
  rfl

/-- What the scratch and the output block hold, at column `q` of the block, after point `n`: the supremum of the
    normalised weights of that column over the rows of row tiles `0 … n % 8`. -/
def accAt2 (c : Dev nD) (n : ℕ) (q : Fin 1152) : EReal :=
  supBelow2 (fun i => nw2 V c i (tile (colT2 n) q)) (1152 * (n % 8 + 1))

/-- The same as a block. -/
def accBlk2 (c : Dev nD) (n : ℕ) : Vec Ideal S1x1152 .f32 := fun y => accAt2 V c n (y 1)

/-- A first row tile: from minus infinity. -/
theorem step2_A (c : Dev nD) (t : Fin cfg2.N) (h0 : t.val % 8 = 0) :
    k2_pay1 (F := Ideal) (k2_pay3 (iblk2 V c 1 t) (iblk2 V c 0 t) (iblk2 V c 2 t) (iblk2 V c 3 t)) (k2_pay2 (F := Ideal)) = accBlk2 V c t.val := by
  funext y
  obtain ⟨u, q, rfl⟩ : ∃ (u : Fin 1) (q : Fin 1152), y = ix2 u q := ⟨y 0, y 1, eq_ix2 y⟩
  obtain rfl : u = 0 := Subsingleton.elim _ _
  refine (pay1_apply_r2 _ _ q).trans ?_
  rw [pay2_apply_r2, tile_colmax2 V c t q]
  show _ = supBelow2 (fun i => nw2 V c i (tile (colT2 t.val) q)) (1152 * (t.val % 8 + 1))
  have hb : rowT2 t.val = (0 : Fin 8) := Fin.ext h0
  rw [h0, hb]
  exact ((supBelow2_step (fun i => nw2 V c i (tile (colT2 t.val) q)) (0 : Fin 8)).trans (by rw [show 1152 * (0 : Fin 8).val = 0 from rfl, supBelow2_zero])).symm

/-- A later row tile: from what the point before left. -/
theorem step2_B (c : Dev nD) (t : Fin cfg2.N) (h0 : ¬t.val % 8 = 0) :
    k2_pay1 (F := Ideal) (k2_pay3 (iblk2 V c 1 t) (iblk2 V c 0 t) (iblk2 V c 2 t) (iblk2 V c 3 t)) (accBlk2 V c (t.val - 1)) = accBlk2 V c t.val := by
  funext y
  obtain ⟨u, q, rfl⟩ : ∃ (u : Fin 1) (q : Fin 1152), y = ix2 u q := ⟨y 0, y 1, eq_ix2 y⟩
  obtain rfl : u = 0 := Subsingleton.elim _ _
  refine (pay1_apply_r2 _ _ q).trans ?_
  rw [tile_colmax2 V c t q]
  show max (supBelow2 (fun i => nw2 V c i (tile (colT2 (t.val - 1)) q)) (1152 * ((t.val - 1) % 8 + 1))) _
    = supBelow2 (fun i => nw2 V c i (tile (colT2 t.val) q)) (1152 * (t.val % 8 + 1))
  have hc : colT2 (t.val - 1) = colT2 t.val := Fin.ext (by show (t.val - 1) / 8 % 8 = t.val / 8 % 8; omega)
  have hr : (t.val - 1) % 8 + 1 = (rowT2 t.val).val := by show (t.val - 1) % 8 + 1 = t.val % 8; omega
  rw [hc, hr]
  exact (supBelow2_step (fun i => nw2 V c i (tile (colT2 t.val) q)) (rowT2 t.val)).symm

/-- After every point the output block and the scratch hold the running supremum. -/
theorem outsAt2_eq (c : Dev nD) : ∀ (n : ℕ) (h : n < cfg2.N), outsAt2 (F := Ideal) V c n h = (accBlk2 V c n, accBlk2 V c n)
  | 0, h => by
    rw [outsAt2_A V c ⟨0, h⟩ rfl, out2_A_eq, sout2_A_eq]
    exact congrArg (fun x => (x, x)) (step2_A V c ⟨0, h⟩ rfl)
  | n + 1, h => by
    by_cases h0 : (n + 1) % 8 = 0
    · rw [outsAt2_A V c ⟨n + 1, h⟩ h0, out2_A_eq, sout2_A_eq]
      exact congrArg (fun x => (x, x)) (step2_A V c ⟨n + 1, h⟩ h0)
    · rw [outsAt2_B V c ⟨n + 1, h⟩ h0, out2_B_eq, sout2_B_eq]
      have ih := outsAt2_eq c n (Nat.lt_of_succ_lt h)
      show (k2_pay1 _ (outsAt2 V c n _).2, k2_pay1 _ (outsAt2 V c n _).2) = _
      rw [ih]
      exact congrArg (fun x => (x, x)) (step2_B V c ⟨n + 1, h⟩ h0)

/-! ## From the blocks to the array -/

/-- The column maxima as contents of the output array. -/
def colmaxArr2 (c : Dev nD) : Buf (Elt Ideal) ((cfg2.win 4).arr.view.loc ((c : Dev nD).tc : Thread nD τ)) :=
  fun y => Cx.colmax (Cx.matOf (V c main_v26)) (Cx.matOf (V c main_v29)) (Cx.colOf (V c main_v30)) (Cx.colOf (V c main_v31)) (y 1)

/-- What a point that ends a column tile writes back is that tile of the column maxima. -/
theorem flushed2_4_eq (c : Dev nD) (t : Fin cfg2.N) (hf : (cfg2.win 4).flush t = true) :
    (dat2 (F := Ideal) V c).flushed 4 t = ((cfg2.win 4).blk t).view.read (Elt Ideal) (colmaxArr2 V c) := by
  have h7 : t.val % 8 = 7 := (flush2_4 t).mp hf
  have hN : t.val < 64 := lt_of_lt_of_eq t.isLt (show cfg2.N = 64 from N_2)
  obtain ⟨e00, e01, e10, e11, e20, e21, e30, e31, e40, e41⟩ := idx2_facts t
  show (cfg2.win 4).cut (grid2.coords t) ((dat2 V c).after 4 t) = _
  rw [after2_4, outsAt2_eq]
  funext y
  obtain ⟨u, q, rfl⟩ : ∃ (u : Fin 1) (q : Fin 1152), y = ix2 u q := ⟨y 0, y 1, eq_ix2 y⟩
  show supBelow2 (fun i => nw2 V c i (tile (colT2 t.val) q)) (1152 * (t.val % 8 + 1)) = colmaxArr2 V c (((cfg2.win 4).blk t).view.emb (ix2 u q))
  rw [h7, show 1152 * (7 + 1) = 9216 from rfl, supBelow2_all]
  show Cx.colmax _ _ _ _ (tile (colT2 t.val) q) = Cx.colmax _ _ _ _ ((((cfg2.win 4).blk t).view.emb (ix2 u q)) 1)
  refine congrArg (Cx.colmax _ _ _ _) (Fin.ext ?_)
  show t.val / 8 % 8 * 1152 + q.val = win2_4.index t (1 : Fin 2) * 1152 + 1 * q.val
  rw [e41]; omega

/-- An index of the output array is in point `t`'s block iff each coordinate is in the block's range on its axis. -/
theorem mem_blk2_4 (t : Fin cfg2.N) (i : S1x9216.Idx) :
    i ∈ ((cfg2.win 4).blk t).view.set ↔ ∀ a : Fin 2, win2_4.index t a * S1x1152.size a ≤ (i a).val ∧ (i a).val < win2_4.index t a * S1x1152.size a + S1x1152.size a := by
  show i ∈ ((View.whole main_v32).slice (win2_4.rect t)).set ↔ _
  rw [View.set_slice_whole, Rect.mem_set_unit]
  exact Iff.rfl

/-- Every column is written back by the last point of its column tile. -/
theorem cover2_4 (i : S1x9216.Idx) : ∃ t : Fin cfg2.N, (cfg2.win 4).flush t = true ∧ i ∈ ((cfg2.win 4).blk t).view.set := by
  have hi0 : (i 0).val < 1 := idx2_lt0 i
  have hi1 : (i 1).val < 9216 := idx2_lt1 i
  have hN : cfg2.N = 64 := N_2
  let t : Fin cfg2.N := ⟨8 * ((i 1).val / 1152) + 7, by rw [hN]; omega⟩
  have htv : t.val = 8 * ((i 1).val / 1152) + 7 := rfl
  obtain ⟨e00, e01, e10, e11, e20, e21, e30, e31, e40, e41⟩ := idx2_facts t
  refine ⟨t, (flush2_4 t).mpr (by rw [htv]; omega), ?_⟩
  rw [mem_blk2_4]
  intro a
  match a with
  | ⟨0, _⟩ => show win2_4.index t (0 : Fin 2) * 1 ≤ (i 0).val ∧ (i 0).val < win2_4.index t (0 : Fin 2) * 1 + 1; rw [e40]; omega
  | ⟨1, _⟩ => show win2_4.index t (1 : Fin 2) * 1152 ≤ (i 1).val ∧ (i 1).val < win2_4.index t (1 : Fin 2) * 1152 + 1152; rw [e41, htv]; omega

/-- The output array ends holding the column maxima of the normalised weights. -/
theorem arr2_out (V : (c : Dev nD) → (b : Ref sig .tc) → Buf (Elt Ideal) ((c : Thread nD τ).loc b)) (c : Dev nD) :
    (dat2 (F := Ideal) V c).arrAt 4 cfg2.N = fun y => Cx.colmax (Cx.matOf (V c main_v26)) (Cx.matOf (V c main_v29)) (Cx.colOf (V c main_v30)) (Cx.colOf (V c main_v31)) (y 1) :=
  (dat2 (F := Ideal) V c).arrAt_eq_of_cover 4 (colmaxArr2 V c) (flushed2_4_eq V c) cover2_4

/-- The same read along the array's one row: column j of the output array is the column maximum at j. -/
theorem arr2_out_row (V : (c : Dev nD) → (b : Ref sig .tc) → Buf (Elt Ideal) ((c : Thread nD τ).loc b)) (c : Dev nD) :
    (fun j : Fin 9216 => ((dat2 (F := Ideal) V c).arrAt 4 cfg2.N : S1x9216.Idx → EReal) (ValueIdx.ix2 (0 : Fin 1) j))
      = Cx.colmax (Cx.matOf (V c main_v26)) (Cx.matOf (V c main_v29)) (Cx.colOf (V c main_v30)) (Cx.colOf (V c main_v31)) := by
  funext j
  rw [arr2_out]
  rfl

end Cert.KernelIdeal.Hand

end
-- ==== Proof.KernelLoss.lean ====
/- The kernel's result from its whole run, on the extended reals. The last stretch of array operations turns the
   third pass's column maxima into minus the logarithm of their mean; the third pass reads the two feature arrays, the
   first pass's row maxima and the second pass's row sums; no pass changes an array it only reads; and the first
   stretch makes the two feature arrays out of the launched inputs. So the result is the contextual loss of the two
   feature matrices of the launched inputs. -/
import proofs.«124446_j4818953306342_1_alg».proof.Proof.WholeRun
import proofs.«124446_j4818953306342_1_alg».proof.Proof.HostSides
import proofs.«124446_j4818953306342_1_alg».proof.Proof.Region0Value
import proofs.«124446_j4818953306342_1_alg».proof.Proof.Region1Value
import proofs.«124446_j4818953306342_1_alg».proof.Proof.Region2Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

open Cert
open Idealize.ShloMosaic.ValueIdx

variable (m : (ℓ : Loc nD τ sig) → Buf (Elt Ideal) ℓ)

/-! ## An input window's array is as the region found it -/

theorem E2_v26 (c : Dev nD) : E2 m c main_v26 = E1 m c main_v26 :=
  (W2_arr m c 0).trans (((dat0 (E1 m) c).arrAt_in 0 rfl _).trans (A_eq0 (E1 m) c 0))
theorem E2_v29 (c : Dev nD) : E2 m c main_v29 = E1 m c main_v29 :=
  (W2_arr m c 1).trans (((dat0 (E1 m) c).arrAt_in 1 rfl _).trans (A_eq0 (E1 m) c 1))
theorem E3_v26 (c : Dev nD) : E3 m c main_v26 = E2 m c main_v26 :=
  (W3_arr m c 0).trans (((dat1 (E2 m) c).arrAt_in 0 rfl _).trans (A_eq1 (E2 m) c 0))
theorem E3_v29 (c : Dev nD) : E3 m c main_v29 = E2 m c main_v29 :=
  (W3_arr m c 1).trans (((dat1 (E2 m) c).arrAt_in 1 rfl _).trans (A_eq1 (E2 m) c 1))
theorem E3_v30 (c : Dev nD) : E3 m c main_v30 = E2 m c main_v30 :=
  (W3_arr m c 2).trans (((dat1 (E2 m) c).arrAt_in 2 rfl _).trans (A_eq1 (E2 m) c 2))

/-- The two feature arrays, as the first region finds them, are the reference's feature matrices of the launched
    inputs. -/
theorem E1_featA (c : Dev nD) :
    Cx.matOf (E1 m c main_v26) = Cert.RefSide.featA (m ((c : Thread nD τ).loc main_arg0)) (m ((c : Thread nD τ).loc main_arg1)) :=
  HostSide.pre_Iv (W0 m c)
theorem E1_featB (c : Dev nD) :
    Cx.matOf (E1 m c main_v29) = Cert.RefSide.featB (m ((c : Thread nD τ).loc main_arg1)) :=
  HostSide.pre_Tv (W0 m c)

/-! ## The feature matrices at every region's entry -/

theorem E2_featA (c : Dev nD) : Cx.matOf (E2 m c main_v26) = (Cert.RefSide.featA (m ((c : Thread nD τ).loc main_arg0)) (m ((c : Thread nD τ).loc main_arg1))) := by
  rw [E2_v26]; exact E1_featA m c
theorem E2_featB (c : Dev nD) : Cx.matOf (E2 m c main_v29) = (Cert.RefSide.featB (m ((c : Thread nD τ).loc main_arg1))) := by
  rw [E2_v29]; exact E1_featB m c
theorem E3_featA (c : Dev nD) : Cx.matOf (E3 m c main_v26) = (Cert.RefSide.featA (m ((c : Thread nD τ).loc main_arg0)) (m ((c : Thread nD τ).loc main_arg1))) := by
  rw [E3_v26]; exact E2_featA m c
theorem E3_featB (c : Dev nD) : Cx.matOf (E3 m c main_v29) = (Cert.RefSide.featB (m ((c : Thread nD τ).loc main_arg1))) := by
  rw [E3_v29]; exact E2_featB m c

/-! ## What each pass leaves, in terms of the feature matrices -/

/-- After the first pass the row-maximum column holds the rows' largest cosines. -/
theorem E2_rowmax (c : Dev nD) : Cx.colOf (E2 m c main_v30) = Cx.rowmax (Cert.RefSide.featA (m ((c : Thread nD τ).loc main_arg0)) (m ((c : Thread nD τ).loc main_arg1))) (Cert.RefSide.featB (m ((c : Thread nD τ).loc main_arg1))) := by
  refine (congrArg Cx.colOf (W2_arr m c 2)).trans ?_
  refine (arr0_out_col (E1 m) c).trans ?_
  rw [E1_featA, E1_featB]

/-- After the second pass the row-sum column holds the rows' sums of weights. -/
theorem E3_rowsum (c : Dev nD) :
    Cx.colOf (E3 m c main_v31) = Cx.rowsum (Cert.RefSide.featA (m ((c : Thread nD τ).loc main_arg0)) (m ((c : Thread nD τ).loc main_arg1))) (Cert.RefSide.featB (m ((c : Thread nD τ).loc main_arg1))) (Cx.rowmax (Cert.RefSide.featA (m ((c : Thread nD τ).loc main_arg0)) (m ((c : Thread nD τ).loc main_arg1))) (Cert.RefSide.featB (m ((c : Thread nD τ).loc main_arg1)))) := by
  refine (congrArg Cx.colOf (W3_arr m c 3)).trans ?_
  refine (arr1_out_col (E2 m) c).trans ?_
  rw [E2_featA, E2_featB, E2_rowmax]

/-- After the third pass the column-maximum row holds the columns' largest normalised weights. -/
theorem W4_colmax (c : Dev nD) :
    (fun j : Fin 9216 => (W4 m c (Proc.devRef .tc main_v32) : S1x9216.Idx → EReal) (ix2 (0 : Fin 1) j))
      = Cx.colmax (Cert.RefSide.featA (m ((c : Thread nD τ).loc main_arg0)) (m ((c : Thread nD τ).loc main_arg1))) (Cert.RefSide.featB (m ((c : Thread nD τ).loc main_arg1))) (Cx.rowmax (Cert.RefSide.featA (m ((c : Thread nD τ).loc main_arg0)) (m ((c : Thread nD τ).loc main_arg1))) (Cert.RefSide.featB (m ((c : Thread nD τ).loc main_arg1)))) (Cx.rowsum (Cert.RefSide.featA (m ((c : Thread nD τ).loc main_arg0)) (m ((c : Thread nD τ).loc main_arg1))) (Cert.RefSide.featB (m ((c : Thread nD τ).loc main_arg1))) (Cx.rowmax (Cert.RefSide.featA (m ((c : Thread nD τ).loc main_arg0)) (m ((c : Thread nD τ).loc main_arg1))) (Cert.RefSide.featB (m ((c : Thread nD τ).loc main_arg1))))) := by
  refine (congrArg (fun (a : S1x9216.Idx → EReal) => fun j : Fin 9216 => a (ix2 (0 : Fin 1) j)) (W4_arr m c 4)).trans ?_
  refine (arr2_out_row (E3 m) c).trans ?_
  rw [E3_featA, E3_featB, E3_v30, E2_rowmax, E3_rowsum]

/-- THE RESULT of the whole run: the contextual loss of the two feature matrices of the launched inputs. -/
theorem loss_value (c : Dev nD) :
    W5 (F := Ideal) m c (Proc.devRef .tc main_v36) = fun _ => Cx.loss (Cert.RefSide.featA (m ((c : Thread nD τ).loc main_arg0)) (m ((c : Thread nD τ).loc main_arg1))) (Cert.RefSide.featB (m ((c : Thread nD τ).loc main_arg1))) := by
  refine (HostSide.tail_loss (W4 m c)).trans ?_
  funext _
  unfold Cx.loss
  exact congrArg Cx.lossOf (W4_colmax m c)

end Cert.KernelIdeal.Hand

end
-- ==== Proof.lean ====
/-
  The certificate of the contextual loss kernel against its reference. The kernel runs three grid regions over tiles
  of the cosine matrix of the normalised features: the row maxima (flash-style, one column tile at a time), the row
  sums of the exponential weights, and the column maxima of the normalised weights; the reference forms the whole
  matrix. On the extended reals the two agree: the distance is antitone in the cosine, so a row's smallest distance is
  the distance of its largest cosine, and a supremum or a sum over all positions is the supremum or the sum, over the
  tiles, of the tiles' suprema or sums. Each program's frame is its whole run with the result dropped.
-/
import proofs.«124446_j4818953306342_1_alg».proof.Defs
import proofs.«124446_j4818953306342_1_alg».proof.Proof.Gen.Kernel
import proofs.«124446_j4818953306342_1_alg».proof.Proof.Gen.Kernel.Skeleton
import proofs.«124446_j4818953306342_1_alg».proof.Proof.Gen.Kernel.Launch
import proofs.«124446_j4818953306342_1_alg».proof.Proof.Gen.Kernel.Regions
import proofs.«124446_j4818953306342_1_alg».proof.Proof.Gen.Kernel.Points
import proofs.«124446_j4818953306342_1_alg».proof.Proof.Gen.KernelIdeal
import proofs.«124446_j4818953306342_1_alg».proof.Proof.Gen.KernelIdeal.Skeleton
import proofs.«124446_j4818953306342_1_alg».proof.Proof.Gen.KernelIdeal.Launch
import proofs.«124446_j4818953306342_1_alg».proof.Proof.Gen.KernelIdeal.Regions
import proofs.«124446_j4818953306342_1_alg».proof.Proof.Gen.KernelIdeal.Points
import proofs.«124446_j4818953306342_1_alg».proof.Proof.Gen.ReferenceIdeal
import proofs.«124446_j4818953306342_1_alg».proof.Proof.Gen.Pre_finite_inputs
import proofs.«124446_j4818953306342_1_alg».proof.Proof.Gen.ReferenceIdeal.Run
import proofs.«124446_j4818953306342_1_alg».proof.Proof.Gen.ReferenceIdeal.Read
import proofs.«124446_j4818953306342_1_alg».proof.Proof.Frames
import proofs.«124446_j4818953306342_1_alg».proof.Proof.Bits.Frames
import proofs.«124446_j4818953306342_1_alg».proof.Proof.RefLoss
import proofs.«124446_j4818953306342_1_alg».proof.Proof.KernelLoss
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- The kernel's whole run names its result (the loss of the normalised features as the three regions compute it) and
    the reference's generated run its own (the same loss with each row's smallest distance taken directly): on arguments
    that agree the two are one number. -/
theorem algebraic : Cert.algebraic_KernelIdeal_ReferenceIdeal := by
  intro m ρ m' ρ' _ hagree
  refine ⟨fun c => fun _ => Cert.Cx.loss
      (Cert.RefSide.featA (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.RefSide.featB (m ((c.tc : Thread Cert.KernelIdeal.nD Cert.KernelIdeal.τ).loc Cert.KernelIdeal.main_arg1))), ?_, ?_⟩
  · exact (θ_run Cert.KernelIdeal.defs _ _).mono (fun r h c =>
      ⟨(h c _ (Cert.KernelIdeal.Hand.mem_uc Cert.KernelIdeal.main_v36 (by decide))).trans (Cert.KernelIdeal.Hand.loss_value m c),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, Cert.RefSide.ref_result, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
